-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v94)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v94) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S1024x4096 : Shape := ⟨2, ![1024, 4096]⟩
abbrev S4096 : Shape := ⟨1, ![4096]⟩
abbrev S1024 : Shape := ⟨1, ![1024]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S1024x4096 : S_.BroadcastsInDim S1024x4096 (![] : Fin 0 → Fin S1024x4096.rank)
  reducesTo_S1024x4096_S_d0_1 : S1024x4096.ReducesTo [0, 1] S_
  bcast_S_S4096 : S_.BroadcastsInDim S4096 (![] : Fin 0 → Fin S4096.rank)
  reducesTo_S4096_S_d0 : S4096.ReducesTo [0] S_
  bcast_S_S1024 : S_.BroadcastsInDim S1024 (![] : Fin 0 → Fin S1024.rank)
  reducesTo_S1024_S_d0 : S1024.ReducesTo [0] S_

variable [Facts]

def fn_part3 {F : FTy → Type} [FloatOps F] (main_arg11 : FVec F S1024 .f32) (main_arg12 : FVec F S1024 .f32) (main_v48 : IVec S_ 1) (main_v49 : FVec F S4096 .f32) (main_v50 : FVec F S4096 .f32) : IVec S_ 1 :=
  let main_v51 : IVec S4096 1 := cmpf .olt main_v49 main_v50
  let main_c_19 : IVec S_ 1 := constantI S_ 1 1#1
  let main_v52 : IVec S_ 1 := (fun x v => Host.reduce IntOp.andi x v reducesTo_S4096_S_d0 h_S_) main_v51 main_c_19
  let main_v53 : IVec S_ 1 := andi main_v48 main_v52
  let main_v54 : FVec F S1024 .f32 := Host.absf main_arg11
  let main_cst_20 : FVec F S_ .f32 := constant S_ .f32 0x7F800000#32
  let main_v55 : FVec F S1024 .f32 := broadcastInDim S1024 ![] bcast_S_S1024 main_cst_20
  let main_v56 : IVec S1024 1 := cmpf .olt main_v54 main_v55
  let main_c_21 : IVec S_ 1 := constantI S_ 1 1#1
  let main_v57 : IVec S_ 1 := (fun x v => Host.reduce IntOp.andi x v reducesTo_S1024_S_d0 h_S_) main_v56 main_c_21
  let main_v58 : IVec S_ 1 := andi main_v53 main_v57
  let main_v59 : FVec F S1024 .f32 := Host.absf main_arg12
  let main_cst_22 : FVec F S_ .f32 := constant S_ .f32 0x7F800000#32
  let main_v60 : FVec F S1024 .f32 := broadcastInDim S1024 ![] bcast_S_S1024 main_cst_22
  let main_v61 : IVec S1024 1 := cmpf .olt main_v59 main_v60
  let main_c_23 : IVec S_ 1 := constantI S_ 1 1#1
  let main_v62 : IVec S_ 1 := (fun x v => Host.reduce IntOp.andi x v reducesTo_S1024_S_d0 h_S_) main_v61 main_c_23
  let main_v63 : IVec S_ 1 := andi main_v58 main_v62
  main_v63

def fn_part2 {F : FTy → Type} [FloatOps F] (main_arg7 : FVec F S4096 .f32) (main_arg8 : FVec F S4096 .f32) (main_arg9 : FVec F S4096 .f32) (main_arg10 : FVec F S4096 .f32) (main_arg11 : FVec F S1024 .f32) (main_arg12 : FVec F S1024 .f32) (main_v33 : IVec S_ 1) : IVec S_ 1 :=
  let main_v34 : FVec F S4096 .f32 := Host.absf main_arg7
  let main_cst_12 : FVec F S_ .f32 := constant S_ .f32 0x7F800000#32
  let main_v35 : FVec F S4096 .f32 := broadcastInDim S4096 ![] bcast_S_S4096 main_cst_12
  let main_v36 : IVec S4096 1 := cmpf .olt main_v34 main_v35
  let main_c_13 : IVec S_ 1 := constantI S_ 1 1#1
  let main_v37 : IVec S_ 1 := (fun x v => Host.reduce IntOp.andi x v reducesTo_S4096_S_d0 h_S_) main_v36 main_c_13
  let main_v38 : IVec S_ 1 := andi main_v33 main_v37
  let main_v39 : FVec F S4096 .f32 := Host.absf main_arg8
  let main_cst_14 : FVec F S_ .f32 := constant S_ .f32 0x7F800000#32
  let main_v40 : FVec F S4096 .f32 := broadcastInDim S4096 ![] bcast_S_S4096 main_cst_14
  let main_v41 : IVec S4096 1 := cmpf .olt main_v39 main_v40
  let main_c_15 : IVec S_ 1 := constantI S_ 1 1#1
  let main_v42 : IVec S_ 1 := (fun x v => Host.reduce IntOp.andi x v reducesTo_S4096_S_d0 h_S_) main_v41 main_c_15
  let main_v43 : IVec S_ 1 := andi main_v38 main_v42
  let main_v44 : FVec F S4096 .f32 := Host.absf main_arg9
  let main_cst_16 : FVec F S_ .f32 := constant S_ .f32 0x7F800000#32
  let main_v45 : FVec F S4096 .f32 := broadcastInDim S4096 ![] bcast_S_S4096 main_cst_16
  let main_v46 : IVec S4096 1 := cmpf .olt main_v44 main_v45
  let main_c_17 : IVec S_ 1 := constantI S_ 1 1#1
  let main_v47 : IVec S_ 1 := (fun x v => Host.reduce IntOp.andi x v reducesTo_S4096_S_d0 h_S_) main_v46 main_c_17
  let main_v48 : IVec S_ 1 := andi main_v43 main_v47
  let main_v49 : FVec F S4096 .f32 := Host.absf main_arg10
  let main_cst_18 : FVec F S_ .f32 := constant S_ .f32 0x7F800000#32
  let main_v50 : FVec F S4096 .f32 := broadcastInDim S4096 ![] bcast_S_S4096 main_cst_18
  fn_part3 (F := F) main_arg11 main_arg12 main_v48 main_v49 main_v50

def fn_part1 {F : FTy → Type} [FloatOps F] (main_arg4 : FVec F S1024x4096 .f32) (main_arg5 : FVec F S4096 .f32) (main_arg6 : FVec F S4096 .f32) (main_arg7 : FVec F S4096 .f32) (main_arg8 : FVec F S4096 .f32) (main_arg9 : FVec F S4096 .f32) (main_arg10 : FVec F S4096 .f32) (main_arg11 : FVec F S1024 .f32) (main_arg12 : FVec F S1024 .f32) (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  let main_v19 : FVec F S1024x4096 .f32 := Host.absf main_arg4
  let main_cst_6 : FVec F S_ .f32 := constant S_ .f32 0x7F800000#32
  let main_v20 : FVec F S1024x4096 .f32 := broadcastInDim S1024x4096 ![] bcast_S_S1024x4096 main_cst_6
  let main_v21 : IVec S1024x4096 1 := cmpf .olt main_v19 main_v20
  let main_c_7 : IVec S_ 1 := constantI S_ 1 1#1
  let main_v22 : IVec S_ 1 := (fun x v => Host.reduce IntOp.andi x v reducesTo_S1024x4096_S_d0_1 h_S_) main_v21 main_c_7
  let main_v23 : IVec S_ 1 := andi main_v18 main_v22
  let main_v24 : FVec F S4096 .f32 := Host.absf main_arg5
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  let main_v29 : FVec F S4096 .f32 := Host.absf main_arg6
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S4096x4096 .f32) (main_arg1 : FVec F S4096x4096 .f32) (main_arg2 : FVec F S4096x4096 .f32) (main_arg3 : FVec F S4096x4096 .f32) (main_arg4 : FVec F S1024x4096 .f32) (main_arg5 : FVec F S4096 .f32) (main_arg6 : FVec F S4096 .f32) (main_arg7 : FVec F S4096 .f32) (main_arg8 : FVec F S4096 .f32) (main_arg9 : FVec F S4096 .f32) (main_arg10 : FVec F S4096 .f32) (main_arg11 : FVec F S1024 .f32) (main_arg12 : FVec F S1024 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_arg4 main_arg5 main_arg6 main_arg7 main_arg8 main_arg9 main_arg10 main_arg11 main_arg12 main_v13 main_v16
-- ==== Kernel.lean ====
abbrev S4096x4096 : Shape := ⟨2, ![4096, 4096]⟩
abbrev S1024x4096 : Shape := ⟨2, ![1024, 4096]⟩
abbrev S4096 : Shape := ⟨1, ![4096]⟩
abbrev S1024 : Shape := ⟨1, ![1024]⟩
abbrev S1024x1024 : Shape := ⟨2, ![1024, 1024]⟩
abbrev S4096x1024 : Shape := ⟨2, ![4096, 1024]⟩
abbrev S_ : Shape := ⟨0, ![]⟩
abbrev S1x4096 : Shape := ⟨2, ![1, 4096]⟩
abbrev S1x1024 : Shape := ⟨2, ![1, 1024]⟩

abbrev nBuf : Space → Nat
  | .hbm => 208
  | .vmem => 23
  | .smem => 0
  | _ => 0

abbrev hbmTy0_0 (i : Nat) : BufTy := match i % 128 with
  | 0 => ⟨S4096x4096, .f32⟩
  | 1 => ⟨S4096x4096, .f32⟩
  | 2 => ⟨S4096x4096, .f32⟩
  | 3 => ⟨S4096x4096, .f32⟩
  | 4 => ⟨S1024x4096, .f32⟩
  | 5 => ⟨S4096, .f32⟩
  | 6 => ⟨S4096, .f32⟩
  | 7 => ⟨S4096, .f32⟩
  | 8 => ⟨S4096, .f32⟩
  | 9 => ⟨S4096, .f32⟩
  | 10 => ⟨S4096, .f32⟩
  | 11 => ⟨S1024, .f32⟩
  | 12 => ⟨S1024, .f32⟩
  | 13 => ⟨S4096x4096, .bf16⟩
  | 14 => ⟨S4096x4096, .f32⟩
  | 15 => ⟨S4096x4096, .bf16⟩
  | 16 => ⟨S4096x4096, .f32⟩
  | 17 => ⟨S_, .f32⟩
  | 18 => ⟨S4096, .f32⟩
  | 19 => ⟨S_, .f32⟩
  | 20 => ⟨S4096, .f32⟩
  | 21 => ⟨S4096, .f32⟩
  | 22 => ⟨S_, .i32⟩
  | 23 => ⟨S_, .f32⟩
  | 24 => ⟨S4096, .f32⟩
  | 25 => ⟨S1x4096, .f32⟩
  | 26 => ⟨S_, .f32⟩
  | 27 => ⟨S1x4096, .f32⟩
  | 28 => ⟨S1x4096, .f32⟩
  | 29 => ⟨S4096x4096, .f32⟩
  | 30 => ⟨S4096x4096, .f32⟩
  | 31 => ⟨S4096x4096, .f32⟩
  | 32 => ⟨S_, .f32⟩
  | 33 => ⟨S_, .f32⟩
  | 34 => ⟨S_, .f32⟩
  | 35 => ⟨S_, .f32⟩
  | 36 => ⟨S4096, .f32⟩
  | 37 => ⟨S4096, .f32⟩
  | 38 => ⟨S4096, .f32⟩
  | 39 => ⟨S_, .f32⟩
  | 40 => ⟨S_, .i1⟩
  | 41 => ⟨S_, .f32⟩
  | 42 => ⟨S_, .f32⟩
  | 43 => ⟨S4096, .f32⟩
  | 44 => ⟨S4096, .f32⟩
  | 45 => ⟨S1x4096, .f32⟩
  | 46 => ⟨S4096x4096, .f32⟩
  | 47 => ⟨S4096x4096, .f32⟩
  | 48 => ⟨S_, .f32⟩
  | 49 => ⟨S4096, .f32⟩
  | 50 => ⟨S4096, .f32⟩
  | 51 => ⟨S4096, .f32⟩
  | 52 => ⟨S1x4096, .f32⟩
  | 53 => ⟨S4096x4096, .f32⟩
  | 54 => ⟨S4096x4096, .f32⟩
  | 55 => ⟨S1x4096, .f32⟩
  | 56 => ⟨S4096x4096, .f32⟩
  | 57 => ⟨S4096x4096, .f32⟩
  | 58 => ⟨S1x4096, .f32⟩
  | 59 => ⟨S4096x4096, .f32⟩
  | 60 => ⟨S4096x4096, .f32⟩
  | 61 => ⟨S4096x4096, .f32⟩
  | 62 => ⟨S4096x4096, .bf16⟩
  | 63 => ⟨S4096x4096, .f32⟩
  | 64 => ⟨S4096x4096, .bf16⟩
  | 65 => ⟨S4096x4096, .f32⟩
  | 66 => ⟨S_, .f32⟩
  | 67 => ⟨S4096, .f32⟩
  | 68 => ⟨S_, .f32⟩
  | 69 => ⟨S4096, .f32⟩
  | 70 => ⟨S4096, .f32⟩
  | 71 => ⟨S_, .i32⟩
  | 72 => ⟨S_, .f32⟩
  | 73 => ⟨S4096, .f32⟩
  | 74 => ⟨S1x4096, .f32⟩
  | 75 => ⟨S_, .f32⟩
  | 76 => ⟨S1x4096, .f32⟩
  | 77 => ⟨S1x4096, .f32⟩
  | 78 => ⟨S4096x4096, .f32⟩
  | 79 => ⟨S4096x4096, .f32⟩
  | 80 => ⟨S4096x4096, .f32⟩
  | 81 => ⟨S_, .f32⟩
  | 82 => ⟨S_, .f32⟩
  | 83 => ⟨S_, .f32⟩
  | 84 => ⟨S_, .f32⟩
  | 85 => ⟨S4096, .f32⟩
  | 86 => ⟨S4096, .f32⟩
  | 87 => ⟨S4096, .f32⟩
  | 88 => ⟨S_, .f32⟩
  | 89 => ⟨S_, .i1⟩
  | 90 => ⟨S_, .f32⟩
  | 91 => ⟨S_, .f32⟩
  | 92 => ⟨S4096, .f32⟩
  | 93 => ⟨S4096, .f32⟩
  | 94 => ⟨S1x4096, .f32⟩
  | 95 => ⟨S4096x4096, .f32⟩
  | 96 => ⟨S4096x4096, .f32⟩
  | 97 => ⟨S_, .f32⟩
  | 98 => ⟨S4096, .f32⟩
  | 99 => ⟨S4096, .f32⟩
  | 100 => ⟨S4096, .f32⟩
  | 101 => ⟨S1x4096, .f32⟩
  | 102 => ⟨S4096x4096, .f32⟩
  | 103 => ⟨S4096x4096, .f32⟩
  | 104 => ⟨S1x4096, .f32⟩
  | 105 => ⟨S4096x4096, .f32⟩
  | 106 => ⟨S4096x4096, .f32⟩
  | 107 => ⟨S1x4096, .f32⟩
  | 108 => ⟨S4096x4096, .f32⟩
  | 109 => ⟨S4096x4096, .f32⟩
  | 110 => ⟨S4096x4096, .f32⟩
  | 111 => ⟨S4096x4096, .bf16⟩
  | 112 => ⟨S4096x4096, .f32⟩
  | 113 => ⟨S4096x4096, .bf16⟩
  | 114 => ⟨S4096x4096, .f32⟩
  | 115 => ⟨S_, .f32⟩
  | 116 => ⟨S4096, .f32⟩
  | 117 => ⟨S_, .f32⟩
  | 118 => ⟨S4096, .f32⟩
  | 119 => ⟨S4096, .f32⟩
  | 120 => ⟨S_, .i32⟩
  | 121 => ⟨S_, .f32⟩
  | 122 => ⟨S4096, .f32⟩
  | 123 => ⟨S1x4096, .f32⟩
  | 124 => ⟨S_, .f32⟩
  | 125 => ⟨S1x4096, .f32⟩
  | 126 => ⟨S1x4096, .f32⟩
  | 127 => ⟨S4096x4096, .f32⟩
  | _ => ⟨S4096x4096, .f32⟩

abbrev hbmTy0_1 (i : Nat) : BufTy := match i % 128 with
  | 0 => ⟨S4096x4096, .f32⟩
  | 1 => ⟨S4096x4096, .f32⟩
  | 2 => ⟨S_, .f32⟩
  | 3 => ⟨S_, .f32⟩
  | 4 => ⟨S_, .f32⟩
  | 5 => ⟨S_, .f32⟩
  | 6 => ⟨S4096, .f32⟩
  | 7 => ⟨S4096, .f32⟩
  | 8 => ⟨S4096, .f32⟩
  | 9 => ⟨S_, .f32⟩
  | 10 => ⟨S_, .i1⟩
  | 11 => ⟨S_, .f32⟩
  | 12 => ⟨S_, .f32⟩
  | 13 => ⟨S4096, .f32⟩
  | 14 => ⟨S4096, .f32⟩
  | 15 => ⟨S1x4096, .f32⟩
  | 16 => ⟨S4096x4096, .f32⟩
  | 17 => ⟨S4096x4096, .f32⟩
  | 18 => ⟨S_, .f32⟩
  | 19 => ⟨S4096, .f32⟩
  | 20 => ⟨S4096, .f32⟩
  | 21 => ⟨S4096, .f32⟩
  | 22 => ⟨S1x4096, .f32⟩
  | 23 => ⟨S4096x4096, .f32⟩
  | 24 => ⟨S4096x4096, .f32⟩
  | 25 => ⟨S1x4096, .f32⟩
  | 26 => ⟨S4096x4096, .f32⟩
  | 27 => ⟨S4096x4096, .f32⟩
  | 28 => ⟨S1x4096, .f32⟩
  | 29 => ⟨S4096x4096, .f32⟩
  | 30 => ⟨S4096x4096, .f32⟩
  | 31 => ⟨S4096x4096, .f32⟩
  | 32 => ⟨S4096x4096, .bf16⟩
  | 33 => ⟨S1024x4096, .f32⟩
  | 34 => ⟨S1024x4096, .bf16⟩
  | 35 => ⟨S4096x1024, .f32⟩
  | 36 => ⟨S_, .f32⟩
  | 37 => ⟨S1024, .f32⟩
  | 38 => ⟨S_, .f32⟩
  | 39 => ⟨S1024, .f32⟩
  | 40 => ⟨S1024, .f32⟩
  | 41 => ⟨S_, .i32⟩
  | 42 => ⟨S_, .f32⟩
  | 43 => ⟨S1024, .f32⟩
  | 44 => ⟨S1x1024, .f32⟩
  | 45 => ⟨S_, .f32⟩
  | 46 => ⟨S1x1024, .f32⟩
  | 47 => ⟨S1x1024, .f32⟩
  | 48 => ⟨S4096x1024, .f32⟩
  | 49 => ⟨S4096x1024, .f32⟩
  | 50 => ⟨S4096x1024, .f32⟩
  | 51 => ⟨S_, .f32⟩
  | 52 => ⟨S_, .f32⟩
  | 53 => ⟨S_, .f32⟩
  | 54 => ⟨S_, .f32⟩
  | 55 => ⟨S1024, .f32⟩
  | 56 => ⟨S1024, .f32⟩
  | 57 => ⟨S1024, .f32⟩
  | 58 => ⟨S_, .f32⟩
  | 59 => ⟨S_, .i1⟩
  | 60 => ⟨S_, .f32⟩
  | 61 => ⟨S_, .f32⟩
  | 62 => ⟨S1024, .f32⟩
  | 63 => ⟨S1024, .f32⟩
  | 64 => ⟨S1x1024, .f32⟩
  | 65 => ⟨S4096x1024, .f32⟩
  | 66 => ⟨S4096x1024, .f32⟩
  | 67 => ⟨S_, .f32⟩
  | 68 => ⟨S1024, .f32⟩
  | 69 => ⟨S1024, .f32⟩
  | 70 => ⟨S1024, .f32⟩
  | 71 => ⟨S1x1024, .f32⟩
  | 72 => ⟨S4096x1024, .f32⟩
  | 73 => ⟨S4096x1024, .f32⟩
  | 74 => ⟨S1x1024, .f32⟩
  | 75 => ⟨S4096x1024, .f32⟩
  | 76 => ⟨S4096x1024, .f32⟩
  | 77 => ⟨S1x1024, .f32⟩
  | 78 => ⟨S4096x1024, .f32⟩
  | 79 => ⟨S4096x1024, .f32⟩
  | _ => ⟨S4096x4096, .f32⟩

abbrev hbmTy (i : Nat) : BufTy := match i / 128 with
  | 0 => hbmTy0_0 i
  | 1 => hbmTy0_1 i
  | _ => ⟨S4096x4096, .f32⟩

abbrev bufTy : (tb : Table) → Fin (tcTables nBuf tb) → BufTy
  | .hbm, ⟨i, _⟩ => hbmTy i
  | .local _ .vmem, ⟨0, _⟩ => ⟨S1024x4096, .bf16⟩
  | .local _ .vmem, ⟨1, _⟩ => ⟨S1024x4096, .bf16⟩
  | .local _ .vmem, ⟨2, _⟩ => ⟨S1024x4096, .bf16⟩
  | .local _ .vmem, ⟨3, _⟩ => ⟨S1024x4096, .bf16⟩
  | .local _ .vmem, ⟨4, _⟩ => ⟨S1024x1024, .f32⟩
  | .local _ .vmem, ⟨5, _⟩ => ⟨S1024x1024, .f32⟩
  | .local _ .vmem, ⟨6, _⟩ => ⟨S1024x4096, .bf16⟩
  | .local _ .vmem, ⟨7, _⟩ => ⟨S1024x4096, .bf16⟩
  | .local _ .vmem, ⟨8, _⟩ => ⟨S1024x4096, .bf16⟩
  | .local _ .vmem, ⟨9, _⟩ => ⟨S1024x4096, .bf16⟩
  | .local _ .vmem, ⟨10, _⟩ => ⟨S1024x1024, .f32⟩
  | .local _ .vmem, ⟨11, _⟩ => ⟨S1024x1024, .f32⟩
  | .local _ .vmem, ⟨12, _⟩ => ⟨S1024x4096, .bf16⟩
  | .local _ .vmem, ⟨13, _⟩ => ⟨S1024x4096, .bf16⟩
  | .local _ .vmem, ⟨14, _⟩ => ⟨S1024x4096, .bf16⟩
  | .local _ .vmem, ⟨15, _⟩ => ⟨S1024x4096, .bf16⟩
  | .local _ .vmem, ⟨16, _⟩ => ⟨S1024x1024, .f32⟩
  | .local _ .vmem, ⟨17, _⟩ => ⟨S1024x1024, .f32⟩
  | .local _ .vmem, ⟨18, _⟩ => ⟨S1024x4096, .bf16⟩
  | .local _ .vmem, ⟨19, _⟩ => ⟨S1024x4096, .bf16⟩
  | .local _ .vmem, ⟨20, _⟩ => ⟨S1024x4096, .bf16⟩
  | .local _ .vmem, ⟨21, _⟩ => ⟨S1024x1024, .f32⟩
  | .local _ .vmem, ⟨22, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_c : Ref sig .tc := ⟨.hbm, 22, rfl⟩
abbrev main_call0_cst : Ref sig .tc := ⟨.hbm, 23, rfl⟩
abbrev main_call0_v0 : Ref sig .tc := ⟨.hbm, 24, rfl⟩
abbrev main_call0_v1 : Ref sig .tc := ⟨.hbm, 25, rfl⟩
abbrev main_call0_cst_0 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_v6 : Ref sig .tc := ⟨.hbm, 31, rfl⟩
abbrev main_call0_v7 : Ref sig .tc := ⟨.hbm, 32, rfl⟩
abbrev main_call0_cst_1 : Ref sig .tc := ⟨.hbm, 33, rfl⟩
abbrev main_call0_v8 : Ref sig .tc := ⟨.hbm, 34, rfl⟩
abbrev main_call0_cst_2 : Ref sig .tc := ⟨.hbm, 35, rfl⟩
abbrev main_call0_v9 : Ref sig .tc := ⟨.hbm, 36, rfl⟩
abbrev main_call0_v10 : Ref sig .tc := ⟨.hbm, 37, rfl⟩
abbrev main_call0_v11 : Ref sig .tc := ⟨.hbm, 38, rfl⟩
abbrev main_call0_cst_3 : Ref sig .tc := ⟨.hbm, 39, rfl⟩
abbrev main_call0_v12 : Ref sig .tc := ⟨.hbm, 40, rfl⟩
abbrev main_call0_cst_4 : Ref sig .tc := ⟨.hbm, 41, rfl⟩
abbrev main_call0_call0_v0 : Ref sig .tc := ⟨.hbm, 42, rfl⟩
abbrev main_call0_call0_v1 : Ref sig .tc := ⟨.hbm, 43, rfl⟩
abbrev main_v7 : Ref sig .tc := ⟨.hbm, 44, rfl⟩
abbrev main_v8 : Ref sig .tc := ⟨.hbm, 45, rfl⟩
abbrev main_v9 : Ref sig .tc := ⟨.hbm, 46, rfl⟩
abbrev main_v10 : Ref sig .tc := ⟨.hbm, 47, rfl⟩
abbrev main_cst_1 : Ref sig .tc := ⟨.hbm, 48, rfl⟩
abbrev main_v11 : Ref sig .tc := ⟨.hbm, 49, rfl⟩
abbrev main_v12 : Ref sig .tc := ⟨.hbm, 50, rfl⟩
abbrev main_v13 : Ref sig .tc := ⟨.hbm, 51, rfl⟩
abbrev main_v14 : Ref sig .tc := ⟨.hbm, 52, rfl⟩
abbrev main_v15 : Ref sig .tc := ⟨.hbm, 53, rfl⟩
abbrev main_v16 : Ref sig .tc := ⟨.hbm, 54, rfl⟩
abbrev main_v17 : Ref sig .tc := ⟨.hbm, 55, rfl⟩
abbrev main_v18 : Ref sig .tc := ⟨.hbm, 56, rfl⟩
abbrev main_v19 : Ref sig .tc := ⟨.hbm, 57, rfl⟩
abbrev main_v20 : Ref sig .tc := ⟨.hbm, 58, rfl⟩
abbrev main_v21 : Ref sig .tc := ⟨.hbm, 59, rfl⟩
abbrev main_v22 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_cst_2 : Ref sig .tc := ⟨.hbm, 66, rfl⟩
abbrev main_v28 : Ref sig .tc := ⟨.hbm, 67, rfl⟩
abbrev main_cst_3 : Ref sig .tc := ⟨.hbm, 68, rfl⟩
abbrev main_v29 : Ref sig .tc := ⟨.hbm, 69, rfl⟩
abbrev main_v30 : Ref sig .tc := ⟨.hbm, 70, rfl⟩
abbrev main_c_4 : Ref sig .tc := ⟨.hbm, 71, rfl⟩
abbrev main_call1_cst : Ref sig .tc := ⟨.hbm, 72, rfl⟩
abbrev main_call1_v0 : Ref sig .tc := ⟨.hbm, 73, rfl⟩
abbrev main_call1_v1 : Ref sig .tc := ⟨.hbm, 74, rfl⟩
abbrev main_call1_cst_0 : Ref sig .tc := ⟨.hbm, 75, rfl⟩
abbrev main_call1_v2 : Ref sig .tc := ⟨.hbm, 76, rfl⟩
abbrev main_call1_v3 : Ref sig .tc := ⟨.hbm, 77, rfl⟩
abbrev main_call1_v4 : Ref sig .tc := ⟨.hbm, 78, rfl⟩
abbrev main_call1_v5 : Ref sig .tc := ⟨.hbm, 79, rfl⟩
abbrev main_call1_v6 : Ref sig .tc := ⟨.hbm, 80, rfl⟩
abbrev main_call1_v7 : Ref sig .tc := ⟨.hbm, 81, rfl⟩
abbrev main_call1_cst_1 : Ref sig .tc := ⟨.hbm, 82, rfl⟩
abbrev main_call1_v8 : Ref sig .tc := ⟨.hbm, 83, rfl⟩
abbrev main_call1_cst_2 : Ref sig .tc := ⟨.hbm, 84, rfl⟩
abbrev main_call1_v9 : Ref sig .tc := ⟨.hbm, 85, rfl⟩
abbrev main_call1_v10 : Ref sig .tc := ⟨.hbm, 86, rfl⟩
abbrev main_call1_v11 : Ref sig .tc := ⟨.hbm, 87, rfl⟩
abbrev main_call1_cst_3 : Ref sig .tc := ⟨.hbm, 88, rfl⟩
abbrev main_call1_v12 : Ref sig .tc := ⟨.hbm, 89, rfl⟩
abbrev main_call1_cst_4 : Ref sig .tc := ⟨.hbm, 90, rfl⟩
abbrev main_call1_call0_v0 : Ref sig .tc := ⟨.hbm, 91, rfl⟩
abbrev main_call1_call0_v1 : Ref sig .tc := ⟨.hbm, 92, rfl⟩
abbrev main_v31 : Ref sig .tc := ⟨.hbm, 93, rfl⟩
abbrev main_v32 : Ref sig .tc := ⟨.hbm, 94, rfl⟩
abbrev main_v33 : Ref sig .tc := ⟨.hbm, 95, rfl⟩
abbrev main_v34 : Ref sig .tc := ⟨.hbm, 96, rfl⟩
abbrev main_cst_5 : Ref sig .tc := ⟨.hbm, 97, rfl⟩
abbrev main_v35 : Ref sig .tc := ⟨.hbm, 98, rfl⟩
abbrev main_v36 : Ref sig .tc := ⟨.hbm, 99, rfl⟩
abbrev main_v37 : Ref sig .tc := ⟨.hbm, 100, rfl⟩
abbrev main_v38 : Ref sig .tc := ⟨.hbm, 101, rfl⟩
abbrev main_v39 : Ref sig .tc := ⟨.hbm, 102, rfl⟩
abbrev main_v40 : Ref sig .tc := ⟨.hbm, 103, rfl⟩
abbrev main_v41 : Ref sig .tc := ⟨.hbm, 104, rfl⟩
abbrev main_v42 : Ref sig .tc := ⟨.hbm, 105, rfl⟩
abbrev main_v43 : Ref sig .tc := ⟨.hbm, 106, rfl⟩
abbrev main_v44 : Ref sig .tc := ⟨.hbm, 107, rfl⟩
abbrev main_v45 : Ref sig .tc := ⟨.hbm, 108, rfl⟩
abbrev main_v46 : Ref sig .tc := ⟨.hbm, 109, rfl⟩
abbrev main_v47 : Ref sig .tc := ⟨.hbm, 110, rfl⟩
abbrev main_v48 : Ref sig .tc := ⟨.hbm, 111, rfl⟩
abbrev main_v49 : Ref sig .tc := ⟨.hbm, 112, rfl⟩
abbrev main_v50 : Ref sig .tc := ⟨.hbm, 113, rfl⟩
abbrev main_v51 : Ref sig .tc := ⟨.hbm, 114, rfl⟩
abbrev main_cst_6 : Ref sig .tc := ⟨.hbm, 115, rfl⟩
abbrev main_v52 : Ref sig .tc := ⟨.hbm, 116, rfl⟩
abbrev main_cst_7 : Ref sig .tc := ⟨.hbm, 117, rfl⟩
abbrev main_v53 : Ref sig .tc := ⟨.hbm, 118, rfl⟩
abbrev main_v54 : Ref sig .tc := ⟨.hbm, 119, rfl⟩
abbrev main_c_8 : Ref sig .tc := ⟨.hbm, 120, rfl⟩
abbrev main_call2_cst : Ref sig .tc := ⟨.hbm, 121, rfl⟩
abbrev main_call2_v0 : Ref sig .tc := ⟨.hbm, 122, rfl⟩
abbrev main_call2_v1 : Ref sig .tc := ⟨.hbm, 123, rfl⟩
abbrev main_call2_cst_0 : Ref sig .tc := ⟨.hbm, 124, rfl⟩
abbrev main_call2_v2 : Ref sig .tc := ⟨.hbm, 125, rfl⟩
abbrev main_call2_v3 : Ref sig .tc := ⟨.hbm, 126, rfl⟩
abbrev main_call2_v4 : Ref sig .tc := ⟨.hbm, 127, rfl⟩
abbrev main_call2_v5 : Ref sig .tc := ⟨.hbm, 128, rfl⟩
abbrev main_call2_v6 : Ref sig .tc := ⟨.hbm, 129, rfl⟩
abbrev main_call2_v7 : Ref sig .tc := ⟨.hbm, 130, rfl⟩
abbrev main_call2_cst_1 : Ref sig .tc := ⟨.hbm, 131, rfl⟩
abbrev main_call2_v8 : Ref sig .tc := ⟨.hbm, 132, rfl⟩
abbrev main_call2_cst_2 : Ref sig .tc := ⟨.hbm, 133, rfl⟩
abbrev main_call2_v9 : Ref sig .tc := ⟨.hbm, 134, rfl⟩
abbrev main_call2_v10 : Ref sig .tc := ⟨.hbm, 135, rfl⟩
abbrev main_call2_v11 : Ref sig .tc := ⟨.hbm, 136, rfl⟩
abbrev main_call2_cst_3 : Ref sig .tc := ⟨.hbm, 137, rfl⟩
abbrev main_call2_v12 : Ref sig .tc := ⟨.hbm, 138, rfl⟩
abbrev main_call2_cst_4 : Ref sig .tc := ⟨.hbm, 139, rfl⟩
abbrev main_call2_call0_v0 : Ref sig .tc := ⟨.hbm, 140, rfl⟩
abbrev main_call2_call0_v1 : Ref sig .tc := ⟨.hbm, 141, rfl⟩
abbrev main_v55 : Ref sig .tc := ⟨.hbm, 142, rfl⟩
abbrev main_v56 : Ref sig .tc := ⟨.hbm, 143, rfl⟩
abbrev main_v57 : Ref sig .tc := ⟨.hbm, 144, rfl⟩
abbrev main_v58 : Ref sig .tc := ⟨.hbm, 145, rfl⟩
abbrev main_cst_9 : Ref sig .tc := ⟨.hbm, 146, rfl⟩
abbrev main_v59 : Ref sig .tc := ⟨.hbm, 147, rfl⟩
abbrev main_v60 : Ref sig .tc := ⟨.hbm, 148, rfl⟩
abbrev main_v61 : Ref sig .tc := ⟨.hbm, 149, rfl⟩
abbrev main_v62 : Ref sig .tc := ⟨.hbm, 150, rfl⟩
abbrev main_v63 : Ref sig .tc := ⟨.hbm, 151, rfl⟩
abbrev main_v64 : Ref sig .tc := ⟨.hbm, 152, rfl⟩
abbrev main_v65 : Ref sig .tc := ⟨.hbm, 153, rfl⟩
abbrev main_v66 : Ref sig .tc := ⟨.hbm, 154, rfl⟩
abbrev main_v67 : Ref sig .tc := ⟨.hbm, 155, rfl⟩
abbrev main_v68 : Ref sig .tc := ⟨.hbm, 156, rfl⟩
abbrev main_v69 : Ref sig .tc := ⟨.hbm, 157, rfl⟩
abbrev main_v70 : Ref sig .tc := ⟨.hbm, 158, rfl⟩
abbrev main_v71 : Ref sig .tc := ⟨.hbm, 159, rfl⟩
abbrev main_v72 : Ref sig .tc := ⟨.hbm, 160, rfl⟩
abbrev main_v73 : Ref sig .tc := ⟨.hbm, 161, rfl⟩
abbrev main_v74 : Ref sig .tc := ⟨.hbm, 162, rfl⟩
abbrev main_v75 : Ref sig .tc := ⟨.hbm, 163, rfl⟩
abbrev main_cst_10 : Ref sig .tc := ⟨.hbm, 164, rfl⟩
abbrev main_v76 : Ref sig .tc := ⟨.hbm, 165, rfl⟩
abbrev main_cst_11 : Ref sig .tc := ⟨.hbm, 166, rfl⟩
abbrev main_v77 : Ref sig .tc := ⟨.hbm, 167, rfl⟩
abbrev main_v78 : Ref sig .tc := ⟨.hbm, 168, rfl⟩
abbrev main_c_12 : Ref sig .tc := ⟨.hbm, 169, rfl⟩
abbrev main_call3_cst : Ref sig .tc := ⟨.hbm, 170, rfl⟩
abbrev main_call3_v0 : Ref sig .tc := ⟨.hbm, 171, rfl⟩
abbrev main_call3_v1 : Ref sig .tc := ⟨.hbm, 172, rfl⟩
abbrev main_call3_cst_0 : Ref sig .tc := ⟨.hbm, 173, rfl⟩
abbrev main_call3_v2 : Ref sig .tc := ⟨.hbm, 174, rfl⟩
abbrev main_call3_v3 : Ref sig .tc := ⟨.hbm, 175, rfl⟩
abbrev main_call3_v4 : Ref sig .tc := ⟨.hbm, 176, rfl⟩
abbrev main_call3_v5 : Ref sig .tc := ⟨.hbm, 177, rfl⟩
abbrev main_call3_v6 : Ref sig .tc := ⟨.hbm, 178, rfl⟩
abbrev main_call3_v7 : Ref sig .tc := ⟨.hbm, 179, rfl⟩
abbrev main_call3_cst_1 : Ref sig .tc := ⟨.hbm, 180, rfl⟩
abbrev main_call3_v8 : Ref sig .tc := ⟨.hbm, 181, rfl⟩
abbrev main_call3_cst_2 : Ref sig .tc := ⟨.hbm, 182, rfl⟩
abbrev main_call3_v9 : Ref sig .tc := ⟨.hbm, 183, rfl⟩
abbrev main_call3_v10 : Ref sig .tc := ⟨.hbm, 184, rfl⟩
abbrev main_call3_v11 : Ref sig .tc := ⟨.hbm, 185, rfl⟩
abbrev main_call3_cst_3 : Ref sig .tc := ⟨.hbm, 186, rfl⟩
abbrev main_call3_v12 : Ref sig .tc := ⟨.hbm, 187, rfl⟩
abbrev main_call3_cst_4 : Ref sig .tc := ⟨.hbm, 188, rfl⟩
abbrev main_call3_call0_v0 : Ref sig .tc := ⟨.hbm, 189, rfl⟩
abbrev main_call3_call0_v1 : Ref sig .tc := ⟨.hbm, 190, rfl⟩
abbrev main_v79 : Ref sig .tc := ⟨.hbm, 191, rfl⟩
abbrev main_v80 : Ref sig .tc := ⟨.hbm, 192, rfl⟩
abbrev main_v81 : Ref sig .tc := ⟨.hbm, 193, rfl⟩
abbrev main_v82 : Ref sig .tc := ⟨.hbm, 194, rfl⟩
abbrev main_cst_13 : Ref sig .tc := ⟨.hbm, 195, rfl⟩
abbrev main_v83 : Ref sig .tc := ⟨.hbm, 196, rfl⟩
abbrev main_v84 : Ref sig .tc := ⟨.hbm, 197, rfl⟩
abbrev main_v85 : Ref sig .tc := ⟨.hbm, 198, rfl⟩
abbrev main_v86 : Ref sig .tc := ⟨.hbm, 199, rfl⟩
abbrev main_v87 : Ref sig .tc := ⟨.hbm, 200, rfl⟩
abbrev main_v88 : Ref sig .tc := ⟨.hbm, 201, rfl⟩
abbrev main_v89 : Ref sig .tc := ⟨.hbm, 202, rfl⟩
abbrev main_v90 : Ref sig .tc := ⟨.hbm, 203, rfl⟩
abbrev main_v91 : Ref sig .tc := ⟨.hbm, 204, rfl⟩
abbrev main_v92 : Ref sig .tc := ⟨.hbm, 205, rfl⟩
abbrev main_v93 : Ref sig .tc := ⟨.hbm, 206, rfl⟩
abbrev main_v94 : Ref sig .tc := ⟨.hbm, 207, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg2_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem2_1 : DmaSem sig := 22

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![4, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S1024x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1024x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![4, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage2_0 : Fin 2 → Memref sig .tc .vmem S1024x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S1024x4096 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨2, ![1, 4], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage3_0 : Fin 2 → Memref sig .tc .vmem S1024x4096 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true]

abbrev stage3_1 : Fin 1 → Memref sig .tc .vmem S1024x4096 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![true, false]

abbrev stage3_2 : Fin 2 → Memref sig .tc .vmem S1024x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

class Facts₀ : Prop where
  bitsLt_bf16_f32 : FTy.bits .bf16 < FTy.bits .f32
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  transposes_S1024x4096_p1_0_S4096x1024 : S1024x4096.Transposes [1, 0] S4096x1024
  inb_S1024x1024_S1024x1024_0_0 : ∀ a, (![0, 0] : Fin 2 → Nat) a + S1024x1024.size a ≤ S1024x1024.size a
  h_S1024x1024 : 0 < S1024x1024.numel
  reducesTo_S4096x4096_S4096_d0 : S4096x4096.ReducesTo [0] S4096
  h_S_ : 0 < S_.numel
  bcast_S_S4096 : S_.BroadcastsInDim S4096 (![] : Fin 0 → Fin S4096.rank)
  bcast_S4096_S1x4096_1 : S4096.BroadcastsInDim S1x4096 (![1] : Fin 1 → Fin S1x4096.rank)
  bcast_S_S1x4096 : S_.BroadcastsInDim S1x4096 (![] : Fin 0 → Fin S1x4096.rank)
  bcast_S1x4096_S4096x4096_0_1 : S1x4096.BroadcastsInDim S4096x4096 (![0, 1] : Fin 2 → Fin S4096x4096.rank)
  reducesTo_S4096x1024_S1024_d0 : S4096x1024.ReducesTo [0] S1024
  bcast_S_S1024 : S_.BroadcastsInDim S1024 (![] : Fin 0 → Fin S1024.rank)
  bcast_S1024_S1x1024_1 : S1024.BroadcastsInDim S1x1024 (![1] : Fin 1 → Fin S1x1024.rank)
  bcast_S_S1x1024 : S_.BroadcastsInDim S1x1024 (![] : Fin 0 → Fin S1x1024.rank)
  bcast_S1x1024_S4096x1024_0_1 : S1x1024.BroadcastsInDim S4096x1024 (![0, 1] : Fin 2 → Fin S4096x1024.rank)
  dot_S1024x4096_S4096x1024_S1024x1024_1_0_0_1_n_n_wf : DotDims.WF S1024x4096 S4096x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S4096x4096.size a
  hwx0_0 : ∀ i : grid0.Coords, EltTy.bits .bf16 = 32 ∨ (Rect.block (s := S4096x4096) S1024x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x4096.size a ≤ S4096x4096.size a
  hwx0_1 : ∀ i : grid0.Coords, EltTy.bits .bf16 = 32 ∨ (Rect.block (s := S4096x4096) S1024x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S4096x4096.size a
  hwx0_2 : ∀ i : grid0.Coords, EltTy.bits .f32 = 32 ∨ (Rect.block (s := S4096x4096) S1024x1024.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x4096.size a ≤ S4096x4096.size a
  hwx1_0 : ∀ i : grid1.Coords, EltTy.bits .bf16 = 32 ∨ (Rect.block (s := S4096x4096) S1024x4096.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x4096.size a ≤ S4096x4096.size a
  hwx1_1 : ∀ i : grid1.Coords, EltTy.bits .bf16 = 32 ∨ (Rect.block (s := S4096x4096) S1024x4096.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S4096x4096.size a
  hwx1_2 : ∀ i : grid1.Coords, EltTy.bits .f32 = 32 ∨ (Rect.block (s := S4096x4096) S1024x1024.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x4096.size a ≤ S4096x4096.size a
  hwx2_0 : ∀ i : grid2.Coords, EltTy.bits .bf16 = 32 ∨ (Rect.block (s := S4096x4096) S1024x4096.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x4096.size a ≤ S4096x4096.size a
  hwx2_1 : ∀ i : grid2.Coords, EltTy.bits .bf16 = 32 ∨ (Rect.block (s := S4096x4096) S1024x4096.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x1024.size a ≤ S4096x4096.size a
  hwx2_2 : ∀ i : grid2.Coords, EltTy.bits .f32 = 32 ∨ (Rect.block (s := S4096x4096) S1024x1024.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x4096.size a ≤ S4096x4096.size a
  hwx3_0 : ∀ i : grid3.Coords, EltTy.bits .bf16 = 32 ∨ (Rect.block (s := S4096x4096) S1024x4096.size (cc3_transform_0 i) (hinb3_0 i)).WholeWords (EltTy.packing .bf16)
  hstage3_1 : ∀ j, (stage3_1 j).IsWhole
  nbuf3_1 : grid3.bufCount reads3_1 false = 1
  hreads3_1 : ∀ i i' : grid3.Coords, (∀ a, reads3_1 a = true → i a = i' a) → cc3_transform_1 i = cc3_transform_1 i'
  hinb3_1 : ∀ (i : grid3.Coords) a, (cc3_transform_1 i a + 1) * S1024x4096.size a ≤ S1024x4096.size a
  hwx3_1 : ∀ i : grid3.Coords, EltTy.bits .bf16 = 32 ∨ (Rect.block (s := S1024x4096) S1024x4096.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1024x1024.size a ≤ S4096x1024.size a
  hwx3_2 : ∀ i : grid3.Coords, EltTy.bits .f32 = 32 ∨ (Rect.block (s := S4096x1024) S1024x1024.size (cc3_transform_2 i) (hinb3_2 i)).WholeWords (EltTy.packing .f32)

variable [Facts₀]

def dot_S1024x4096_S4096x1024_S1024x1024_1_0_0_1_n_n : DotDims S1024x4096 S4096x1024 S1024x1024 where
  lhsContracting := [1]
  rhsContracting := [0]
  lhsNonContracting := [0]
  rhsNonContracting := [1]
  lhsBatch := []
  rhsBatch := []
  wf := dot_S1024x4096_S4096x1024_S1024x1024_1_0_0_1_n_n_wf

abbrev win0_0 : Pipeline.Window sig grid0 :=
  Pipeline.Window.ofSpec (Memref.whole main_v0) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v24) S1024x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S1024x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S1024x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v48) S1024x4096.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v50) S1024x4096.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v51) S1024x1024.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v72) S1024x4096.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v74) S1024x4096.size cc3_transform_1 reads3_1 false false 1 stage3_1 sem3_1
    hrank3 hreads3_1 hinb3_1 nbuf3_1 (Memref.isWhole_whole _) hwx3_1 hstage3_1

abbrev win3_2 : Pipeline.Window sig grid3 :=
  Pipeline.Window.ofSpec (Memref.whole main_v75) S1024x1024.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S4096x4096 : Shape := ⟨2, ![4096, 4096]⟩
abbrev S1024x4096 : Shape := ⟨2, ![1024, 4096]⟩
abbrev S4096 : Shape := ⟨1, ![4096]⟩
abbrev S1024 : Shape := ⟨1, ![1024]⟩
abbrev S_ : Shape := ⟨0, ![]⟩
abbrev S1x4096 : Shape := ⟨2, ![1, 4096]⟩
abbrev S4096x1024 : Shape := ⟨2, ![4096, 1024]⟩
abbrev S1x1024 : Shape := ⟨2, ![1, 1024]⟩

abbrev nBuf : Space → Nat
  | .hbm => 204
  | .vmem => 0
  | .smem => 0
  | _ => 0

abbrev hbmTy0_0 (i : Nat) : BufTy := match i % 128 with
  | 0 => ⟨S4096x4096, .f32⟩
  | 1 => ⟨S4096x4096, .f32⟩
  | 2 => ⟨S4096x4096, .f32⟩
  | 3 => ⟨S4096x4096, .f32⟩
  | 4 => ⟨S1024x4096, .f32⟩
  | 5 => ⟨S4096, .f32⟩
  | 6 => ⟨S4096, .f32⟩
  | 7 => ⟨S4096, .f32⟩
  | 8 => ⟨S4096, .f32⟩
  | 9 => ⟨S4096, .f32⟩
  | 10 => ⟨S4096, .f32⟩
  | 11 => ⟨S1024, .f32⟩
  | 12 => ⟨S1024, .f32⟩
  | 13 => ⟨S4096x4096, .f32⟩
  | 14 => ⟨S4096x4096, .f32⟩
  | 15 => ⟨S4096x4096, .f32⟩
  | 16 => ⟨S_, .f32⟩
  | 17 => ⟨S4096, .f32⟩
  | 18 => ⟨S_, .f32⟩
  | 19 => ⟨S4096, .f32⟩
  | 20 => ⟨S4096, .f32⟩
  | 21 => ⟨S_, .i32⟩
  | 22 => ⟨S_, .f32⟩
  | 23 => ⟨S4096, .f32⟩
  | 24 => ⟨S1x4096, .f32⟩
  | 25 => ⟨S_, .f32⟩
  | 26 => ⟨S1x4096, .f32⟩
  | 27 => ⟨S1x4096, .f32⟩
  | 28 => ⟨S4096x4096, .f32⟩
  | 29 => ⟨S4096x4096, .f32⟩
  | 30 => ⟨S4096x4096, .f32⟩
  | 31 => ⟨S_, .f32⟩
  | 32 => ⟨S_, .f32⟩
  | 33 => ⟨S_, .f32⟩
  | 34 => ⟨S_, .f32⟩
  | 35 => ⟨S4096, .f32⟩
  | 36 => ⟨S4096, .f32⟩
  | 37 => ⟨S4096, .f32⟩
  | 38 => ⟨S_, .f32⟩
  | 39 => ⟨S_, .i1⟩
  | 40 => ⟨S_, .f32⟩
  | 41 => ⟨S_, .f32⟩
  | 42 => ⟨S4096, .f32⟩
  | 43 => ⟨S4096, .f32⟩
  | 44 => ⟨S1x4096, .f32⟩
  | 45 => ⟨S4096x4096, .f32⟩
  | 46 => ⟨S4096x4096, .f32⟩
  | 47 => ⟨S_, .f32⟩
  | 48 => ⟨S4096, .f32⟩
  | 49 => ⟨S4096, .f32⟩
  | 50 => ⟨S4096, .f32⟩
  | 51 => ⟨S1x4096, .f32⟩
  | 52 => ⟨S4096x4096, .f32⟩
  | 53 => ⟨S4096x4096, .f32⟩
  | 54 => ⟨S1x4096, .f32⟩
  | 55 => ⟨S4096x4096, .f32⟩
  | 56 => ⟨S4096x4096, .f32⟩
  | 57 => ⟨S1x4096, .f32⟩
  | 58 => ⟨S4096x4096, .f32⟩
  | 59 => ⟨S4096x4096, .f32⟩
  | 60 => ⟨S4096x4096, .f32⟩
  | 61 => ⟨S4096x4096, .f32⟩
  | 62 => ⟨S4096x4096, .f32⟩
  | 63 => ⟨S4096x4096, .f32⟩
  | 64 => ⟨S_, .f32⟩
  | 65 => ⟨S4096, .f32⟩
  | 66 => ⟨S_, .f32⟩
  | 67 => ⟨S4096, .f32⟩
  | 68 => ⟨S4096, .f32⟩
  | 69 => ⟨S_, .i32⟩
  | 70 => ⟨S_, .f32⟩
  | 71 => ⟨S4096, .f32⟩
  | 72 => ⟨S1x4096, .f32⟩
  | 73 => ⟨S_, .f32⟩
  | 74 => ⟨S1x4096, .f32⟩
  | 75 => ⟨S1x4096, .f32⟩
  | 76 => ⟨S4096x4096, .f32⟩
  | 77 => ⟨S4096x4096, .f32⟩
  | 78 => ⟨S4096x4096, .f32⟩
  | 79 => ⟨S_, .f32⟩
  | 80 => ⟨S_, .f32⟩
  | 81 => ⟨S_, .f32⟩
  | 82 => ⟨S_, .f32⟩
  | 83 => ⟨S4096, .f32⟩
  | 84 => ⟨S4096, .f32⟩
  | 85 => ⟨S4096, .f32⟩
  | 86 => ⟨S_, .f32⟩
  | 87 => ⟨S_, .i1⟩
  | 88 => ⟨S_, .f32⟩
  | 89 => ⟨S_, .f32⟩
  | 90 => ⟨S4096, .f32⟩
  | 91 => ⟨S4096, .f32⟩
  | 92 => ⟨S1x4096, .f32⟩
  | 93 => ⟨S4096x4096, .f32⟩
  | 94 => ⟨S4096x4096, .f32⟩
  | 95 => ⟨S_, .f32⟩
  | 96 => ⟨S4096, .f32⟩
  | 97 => ⟨S4096, .f32⟩
  | 98 => ⟨S4096, .f32⟩
  | 99 => ⟨S1x4096, .f32⟩
  | 100 => ⟨S4096x4096, .f32⟩
  | 101 => ⟨S4096x4096, .f32⟩
  | 102 => ⟨S1x4096, .f32⟩
  | 103 => ⟨S4096x4096, .f32⟩
  | 104 => ⟨S4096x4096, .f32⟩
  | 105 => ⟨S1x4096, .f32⟩
  | 106 => ⟨S4096x4096, .f32⟩
  | 107 => ⟨S4096x4096, .f32⟩
  | 108 => ⟨S4096x4096, .f32⟩
  | 109 => ⟨S4096x4096, .f32⟩
  | 110 => ⟨S4096x4096, .f32⟩
  | 111 => ⟨S4096x4096, .f32⟩
  | 112 => ⟨S_, .f32⟩
  | 113 => ⟨S4096, .f32⟩
  | 114 => ⟨S_, .f32⟩
  | 115 => ⟨S4096, .f32⟩
  | 116 => ⟨S4096, .f32⟩
  | 117 => ⟨S_, .i32⟩
  | 118 => ⟨S_, .f32⟩
  | 119 => ⟨S4096, .f32⟩
  | 120 => ⟨S1x4096, .f32⟩
  | 121 => ⟨S_, .f32⟩
  | 122 => ⟨S1x4096, .f32⟩
  | 123 => ⟨S1x4096, .f32⟩
  | 124 => ⟨S4096x4096, .f32⟩
  | 125 => ⟨S4096x4096, .f32⟩
  | 126 => ⟨S4096x4096, .f32⟩
  | 127 => ⟨S_, .f32⟩
  | _ => ⟨S4096x4096, .f32⟩

abbrev hbmTy0_1 (i : Nat) : BufTy := match i % 128 with
  | 0 => ⟨S_, .f32⟩
  | 1 => ⟨S_, .f32⟩
  | 2 => ⟨S_, .f32⟩
  | 3 => ⟨S4096, .f32⟩
  | 4 => ⟨S4096, .f32⟩
  | 5 => ⟨S4096, .f32⟩
  | 6 => ⟨S_, .f32⟩
  | 7 => ⟨S_, .i1⟩
  | 8 => ⟨S_, .f32⟩
  | 9 => ⟨S_, .f32⟩
  | 10 => ⟨S4096, .f32⟩
  | 11 => ⟨S4096, .f32⟩
  | 12 => ⟨S1x4096, .f32⟩
  | 13 => ⟨S4096x4096, .f32⟩
  | 14 => ⟨S4096x4096, .f32⟩
  | 15 => ⟨S_, .f32⟩
  | 16 => ⟨S4096, .f32⟩
  | 17 => ⟨S4096, .f32⟩
  | 18 => ⟨S4096, .f32⟩
  | 19 => ⟨S1x4096, .f32⟩
  | 20 => ⟨S4096x4096, .f32⟩
  | 21 => ⟨S4096x4096, .f32⟩
  | 22 => ⟨S1x4096, .f32⟩
  | 23 => ⟨S4096x4096, .f32⟩
  | 24 => ⟨S4096x4096, .f32⟩
  | 25 => ⟨S1x4096, .f32⟩
  | 26 => ⟨S4096x4096, .f32⟩
  | 27 => ⟨S4096x4096, .f32⟩
  | 28 => ⟨S4096x4096, .f32⟩
  | 29 => ⟨S1024x4096, .f32⟩
  | 30 => ⟨S4096x1024, .f32⟩
  | 31 => ⟨S4096x1024, .f32⟩
  | 32 => ⟨S_, .f32⟩
  | 33 => ⟨S1024, .f32⟩
  | 34 => ⟨S_, .f32⟩
  | 35 => ⟨S1024, .f32⟩
  | 36 => ⟨S1024, .f32⟩
  | 37 => ⟨S_, .i32⟩
  | 38 => ⟨S_, .f32⟩
  | 39 => ⟨S1024, .f32⟩
  | 40 => ⟨S1x1024, .f32⟩
  | 41 => ⟨S_, .f32⟩
  | 42 => ⟨S1x1024, .f32⟩
  | 43 => ⟨S1x1024, .f32⟩
  | 44 => ⟨S4096x1024, .f32⟩
  | 45 => ⟨S4096x1024, .f32⟩
  | 46 => ⟨S4096x1024, .f32⟩
  | 47 => ⟨S_, .f32⟩
  | 48 => ⟨S_, .f32⟩
  | 49 => ⟨S_, .f32⟩
  | 50 => ⟨S_, .f32⟩
  | 51 => ⟨S1024, .f32⟩
  | 52 => ⟨S1024, .f32⟩
  | 53 => ⟨S1024, .f32⟩
  | 54 => ⟨S_, .f32⟩
  | 55 => ⟨S_, .i1⟩
  | 56 => ⟨S_, .f32⟩
  | 57 => ⟨S_, .f32⟩
  | 58 => ⟨S1024, .f32⟩
  | 59 => ⟨S1024, .f32⟩
  | 60 => ⟨S1x1024, .f32⟩
  | 61 => ⟨S4096x1024, .f32⟩
  | 62 => ⟨S4096x1024, .f32⟩
  | 63 => ⟨S_, .f32⟩
  | 64 => ⟨S1024, .f32⟩
  | 65 => ⟨S1024, .f32⟩
  | 66 => ⟨S1024, .f32⟩
  | 67 => ⟨S1x1024, .f32⟩
  | 68 => ⟨S4096x1024, .f32⟩
  | 69 => ⟨S4096x1024, .f32⟩
  | 70 => ⟨S1x1024, .f32⟩
  | 71 => ⟨S4096x1024, .f32⟩
  | 72 => ⟨S4096x1024, .f32⟩
  | 73 => ⟨S1x1024, .f32⟩
  | 74 => ⟨S4096x1024, .f32⟩
  | 75 => ⟨S4096x1024, .f32⟩
  | _ => ⟨S4096x4096, .f32⟩

abbrev hbmTy (i : Nat) : BufTy := match i / 128 with
  | 0 => hbmTy0_0 i
  | 1 => hbmTy0_1 i
  | _ => ⟨S4096x4096, .f32⟩

abbrev bufTy : (tb : Table) → Fin (tcTables nBuf tb) → BufTy
  | .hbm, ⟨i, _⟩ => hbmTy i
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_cst : Ref sig .tc := ⟨.hbm, 16, rfl⟩
abbrev main_v3 : Ref sig .tc := ⟨.hbm, 17, rfl⟩
abbrev main_cst_0 : Ref sig .tc := ⟨.hbm, 18, rfl⟩
abbrev main_v4 : Ref sig .tc := ⟨.hbm, 19, rfl⟩
abbrev main_v5 : Ref sig .tc := ⟨.hbm, 20, rfl⟩
abbrev main_c : Ref sig .tc := ⟨.hbm, 21, rfl⟩
abbrev main_call0_cst : Ref sig .tc := ⟨.hbm, 22, rfl⟩
abbrev main_call0_v0 : Ref sig .tc := ⟨.hbm, 23, rfl⟩
abbrev main_call0_v1 : Ref sig .tc := ⟨.hbm, 24, rfl⟩
abbrev main_call0_cst_0 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_v6 : Ref sig .tc := ⟨.hbm, 30, rfl⟩
abbrev main_call0_v7 : Ref sig .tc := ⟨.hbm, 31, rfl⟩
abbrev main_call0_cst_1 : Ref sig .tc := ⟨.hbm, 32, rfl⟩
abbrev main_call0_v8 : Ref sig .tc := ⟨.hbm, 33, rfl⟩
abbrev main_call0_cst_2 : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_cst_3 : Ref sig .tc := ⟨.hbm, 38, rfl⟩
abbrev main_call0_v12 : Ref sig .tc := ⟨.hbm, 39, rfl⟩
abbrev main_call0_cst_4 : Ref sig .tc := ⟨.hbm, 40, rfl⟩
abbrev main_call0_call0_v0 : Ref sig .tc := ⟨.hbm, 41, rfl⟩
abbrev main_call0_call0_v1 : Ref sig .tc := ⟨.hbm, 42, rfl⟩
abbrev main_v6 : Ref sig .tc := ⟨.hbm, 43, rfl⟩
abbrev main_v7 : Ref sig .tc := ⟨.hbm, 44, rfl⟩
abbrev main_v8 : Ref sig .tc := ⟨.hbm, 45, rfl⟩
abbrev main_v9 : Ref sig .tc := ⟨.hbm, 46, rfl⟩
abbrev main_cst_1 : Ref sig .tc := ⟨.hbm, 47, rfl⟩
abbrev main_v10 : Ref sig .tc := ⟨.hbm, 48, rfl⟩
abbrev main_v11 : Ref sig .tc := ⟨.hbm, 49, rfl⟩
abbrev main_v12 : Ref sig .tc := ⟨.hbm, 50, rfl⟩
abbrev main_v13 : Ref sig .tc := ⟨.hbm, 51, rfl⟩
abbrev main_v14 : Ref sig .tc := ⟨.hbm, 52, rfl⟩
abbrev main_v15 : Ref sig .tc := ⟨.hbm, 53, rfl⟩
abbrev main_v16 : Ref sig .tc := ⟨.hbm, 54, rfl⟩
abbrev main_v17 : Ref sig .tc := ⟨.hbm, 55, rfl⟩
abbrev main_v18 : Ref sig .tc := ⟨.hbm, 56, rfl⟩
abbrev main_v19 : Ref sig .tc := ⟨.hbm, 57, rfl⟩
abbrev main_v20 : Ref sig .tc := ⟨.hbm, 58, rfl⟩
abbrev main_v21 : Ref sig .tc := ⟨.hbm, 59, rfl⟩
abbrev main_v22 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_cst_2 : Ref sig .tc := ⟨.hbm, 64, rfl⟩
abbrev main_v26 : Ref sig .tc := ⟨.hbm, 65, rfl⟩
abbrev main_cst_3 : Ref sig .tc := ⟨.hbm, 66, rfl⟩
abbrev main_v27 : Ref sig .tc := ⟨.hbm, 67, rfl⟩
abbrev main_v28 : Ref sig .tc := ⟨.hbm, 68, rfl⟩
abbrev main_c_4 : Ref sig .tc := ⟨.hbm, 69, rfl⟩
abbrev main_call1_cst : Ref sig .tc := ⟨.hbm, 70, rfl⟩
abbrev main_call1_v0 : Ref sig .tc := ⟨.hbm, 71, rfl⟩
abbrev main_call1_v1 : Ref sig .tc := ⟨.hbm, 72, rfl⟩
abbrev main_call1_cst_0 : Ref sig .tc := ⟨.hbm, 73, rfl⟩
abbrev main_call1_v2 : Ref sig .tc := ⟨.hbm, 74, rfl⟩
abbrev main_call1_v3 : Ref sig .tc := ⟨.hbm, 75, rfl⟩
abbrev main_call1_v4 : Ref sig .tc := ⟨.hbm, 76, rfl⟩
abbrev main_call1_v5 : Ref sig .tc := ⟨.hbm, 77, rfl⟩
abbrev main_call1_v6 : Ref sig .tc := ⟨.hbm, 78, rfl⟩
abbrev main_call1_v7 : Ref sig .tc := ⟨.hbm, 79, rfl⟩
abbrev main_call1_cst_1 : Ref sig .tc := ⟨.hbm, 80, rfl⟩
abbrev main_call1_v8 : Ref sig .tc := ⟨.hbm, 81, rfl⟩
abbrev main_call1_cst_2 : Ref sig .tc := ⟨.hbm, 82, rfl⟩
abbrev main_call1_v9 : Ref sig .tc := ⟨.hbm, 83, rfl⟩
abbrev main_call1_v10 : Ref sig .tc := ⟨.hbm, 84, rfl⟩
abbrev main_call1_v11 : Ref sig .tc := ⟨.hbm, 85, rfl⟩
abbrev main_call1_cst_3 : Ref sig .tc := ⟨.hbm, 86, rfl⟩
abbrev main_call1_v12 : Ref sig .tc := ⟨.hbm, 87, rfl⟩
abbrev main_call1_cst_4 : Ref sig .tc := ⟨.hbm, 88, rfl⟩
abbrev main_call1_call0_v0 : Ref sig .tc := ⟨.hbm, 89, rfl⟩
abbrev main_call1_call0_v1 : Ref sig .tc := ⟨.hbm, 90, rfl⟩
abbrev main_v29 : Ref sig .tc := ⟨.hbm, 91, rfl⟩
abbrev main_v30 : Ref sig .tc := ⟨.hbm, 92, rfl⟩
abbrev main_v31 : Ref sig .tc := ⟨.hbm, 93, rfl⟩
abbrev main_v32 : Ref sig .tc := ⟨.hbm, 94, rfl⟩
abbrev main_cst_5 : Ref sig .tc := ⟨.hbm, 95, rfl⟩
abbrev main_v33 : Ref sig .tc := ⟨.hbm, 96, rfl⟩
abbrev main_v34 : Ref sig .tc := ⟨.hbm, 97, rfl⟩
abbrev main_v35 : Ref sig .tc := ⟨.hbm, 98, rfl⟩
abbrev main_v36 : Ref sig .tc := ⟨.hbm, 99, rfl⟩
abbrev main_v37 : Ref sig .tc := ⟨.hbm, 100, rfl⟩
abbrev main_v38 : Ref sig .tc := ⟨.hbm, 101, rfl⟩
abbrev main_v39 : Ref sig .tc := ⟨.hbm, 102, rfl⟩
abbrev main_v40 : Ref sig .tc := ⟨.hbm, 103, rfl⟩
abbrev main_v41 : Ref sig .tc := ⟨.hbm, 104, rfl⟩
abbrev main_v42 : Ref sig .tc := ⟨.hbm, 105, rfl⟩
abbrev main_v43 : Ref sig .tc := ⟨.hbm, 106, rfl⟩
abbrev main_v44 : Ref sig .tc := ⟨.hbm, 107, rfl⟩
abbrev main_v45 : Ref sig .tc := ⟨.hbm, 108, rfl⟩
abbrev main_v46 : Ref sig .tc := ⟨.hbm, 109, rfl⟩
abbrev main_v47 : Ref sig .tc := ⟨.hbm, 110, rfl⟩
abbrev main_v48 : Ref sig .tc := ⟨.hbm, 111, rfl⟩
abbrev main_cst_6 : Ref sig .tc := ⟨.hbm, 112, rfl⟩
abbrev main_v49 : Ref sig .tc := ⟨.hbm, 113, rfl⟩
abbrev main_cst_7 : Ref sig .tc := ⟨.hbm, 114, rfl⟩
abbrev main_v50 : Ref sig .tc := ⟨.hbm, 115, rfl⟩
abbrev main_v51 : Ref sig .tc := ⟨.hbm, 116, rfl⟩
abbrev main_c_8 : Ref sig .tc := ⟨.hbm, 117, rfl⟩
abbrev main_call2_cst : Ref sig .tc := ⟨.hbm, 118, rfl⟩
abbrev main_call2_v0 : Ref sig .tc := ⟨.hbm, 119, rfl⟩
abbrev main_call2_v1 : Ref sig .tc := ⟨.hbm, 120, rfl⟩
abbrev main_call2_cst_0 : Ref sig .tc := ⟨.hbm, 121, rfl⟩
abbrev main_call2_v2 : Ref sig .tc := ⟨.hbm, 122, rfl⟩
abbrev main_call2_v3 : Ref sig .tc := ⟨.hbm, 123, rfl⟩
abbrev main_call2_v4 : Ref sig .tc := ⟨.hbm, 124, rfl⟩
abbrev main_call2_v5 : Ref sig .tc := ⟨.hbm, 125, rfl⟩
abbrev main_call2_v6 : Ref sig .tc := ⟨.hbm, 126, rfl⟩
abbrev main_call2_v7 : Ref sig .tc := ⟨.hbm, 127, rfl⟩
abbrev main_call2_cst_1 : Ref sig .tc := ⟨.hbm, 128, rfl⟩
abbrev main_call2_v8 : Ref sig .tc := ⟨.hbm, 129, rfl⟩
abbrev main_call2_cst_2 : Ref sig .tc := ⟨.hbm, 130, rfl⟩
abbrev main_call2_v9 : Ref sig .tc := ⟨.hbm, 131, rfl⟩
abbrev main_call2_v10 : Ref sig .tc := ⟨.hbm, 132, rfl⟩
abbrev main_call2_v11 : Ref sig .tc := ⟨.hbm, 133, rfl⟩
abbrev main_call2_cst_3 : Ref sig .tc := ⟨.hbm, 134, rfl⟩
abbrev main_call2_v12 : Ref sig .tc := ⟨.hbm, 135, rfl⟩
abbrev main_call2_cst_4 : Ref sig .tc := ⟨.hbm, 136, rfl⟩
abbrev main_call2_call0_v0 : Ref sig .tc := ⟨.hbm, 137, rfl⟩
abbrev main_call2_call0_v1 : Ref sig .tc := ⟨.hbm, 138, rfl⟩
abbrev main_v52 : Ref sig .tc := ⟨.hbm, 139, rfl⟩
abbrev main_v53 : Ref sig .tc := ⟨.hbm, 140, rfl⟩
abbrev main_v54 : Ref sig .tc := ⟨.hbm, 141, rfl⟩
abbrev main_v55 : Ref sig .tc := ⟨.hbm, 142, rfl⟩
abbrev main_cst_9 : Ref sig .tc := ⟨.hbm, 143, rfl⟩
abbrev main_v56 : Ref sig .tc := ⟨.hbm, 144, rfl⟩
abbrev main_v57 : Ref sig .tc := ⟨.hbm, 145, rfl⟩
abbrev main_v58 : Ref sig .tc := ⟨.hbm, 146, rfl⟩
abbrev main_v59 : Ref sig .tc := ⟨.hbm, 147, rfl⟩
abbrev main_v60 : Ref sig .tc := ⟨.hbm, 148, rfl⟩
abbrev main_v61 : Ref sig .tc := ⟨.hbm, 149, rfl⟩
abbrev main_v62 : Ref sig .tc := ⟨.hbm, 150, rfl⟩
abbrev main_v63 : Ref sig .tc := ⟨.hbm, 151, rfl⟩
abbrev main_v64 : Ref sig .tc := ⟨.hbm, 152, rfl⟩
abbrev main_v65 : Ref sig .tc := ⟨.hbm, 153, rfl⟩
abbrev main_v66 : Ref sig .tc := ⟨.hbm, 154, rfl⟩
abbrev main_v67 : Ref sig .tc := ⟨.hbm, 155, rfl⟩
abbrev main_v68 : Ref sig .tc := ⟨.hbm, 156, rfl⟩
abbrev main_v69 : Ref sig .tc := ⟨.hbm, 157, rfl⟩
abbrev main_v70 : Ref sig .tc := ⟨.hbm, 158, rfl⟩
abbrev main_v71 : Ref sig .tc := ⟨.hbm, 159, rfl⟩
abbrev main_cst_10 : Ref sig .tc := ⟨.hbm, 160, rfl⟩
abbrev main_v72 : Ref sig .tc := ⟨.hbm, 161, rfl⟩
abbrev main_cst_11 : Ref sig .tc := ⟨.hbm, 162, rfl⟩
abbrev main_v73 : Ref sig .tc := ⟨.hbm, 163, rfl⟩
abbrev main_v74 : Ref sig .tc := ⟨.hbm, 164, rfl⟩
abbrev main_c_12 : Ref sig .tc := ⟨.hbm, 165, rfl⟩
abbrev main_call3_cst : Ref sig .tc := ⟨.hbm, 166, rfl⟩
abbrev main_call3_v0 : Ref sig .tc := ⟨.hbm, 167, rfl⟩
abbrev main_call3_v1 : Ref sig .tc := ⟨.hbm, 168, rfl⟩
abbrev main_call3_cst_0 : Ref sig .tc := ⟨.hbm, 169, rfl⟩
abbrev main_call3_v2 : Ref sig .tc := ⟨.hbm, 170, rfl⟩
abbrev main_call3_v3 : Ref sig .tc := ⟨.hbm, 171, rfl⟩
abbrev main_call3_v4 : Ref sig .tc := ⟨.hbm, 172, rfl⟩
abbrev main_call3_v5 : Ref sig .tc := ⟨.hbm, 173, rfl⟩
abbrev main_call3_v6 : Ref sig .tc := ⟨.hbm, 174, rfl⟩
abbrev main_call3_v7 : Ref sig .tc := ⟨.hbm, 175, rfl⟩
abbrev main_call3_cst_1 : Ref sig .tc := ⟨.hbm, 176, rfl⟩
abbrev main_call3_v8 : Ref sig .tc := ⟨.hbm, 177, rfl⟩
abbrev main_call3_cst_2 : Ref sig .tc := ⟨.hbm, 178, rfl⟩
abbrev main_call3_v9 : Ref sig .tc := ⟨.hbm, 179, rfl⟩
abbrev main_call3_v10 : Ref sig .tc := ⟨.hbm, 180, rfl⟩
abbrev main_call3_v11 : Ref sig .tc := ⟨.hbm, 181, rfl⟩
abbrev main_call3_cst_3 : Ref sig .tc := ⟨.hbm, 182, rfl⟩
abbrev main_call3_v12 : Ref sig .tc := ⟨.hbm, 183, rfl⟩
abbrev main_call3_cst_4 : Ref sig .tc := ⟨.hbm, 184, rfl⟩
abbrev main_call3_call0_v0 : Ref sig .tc := ⟨.hbm, 185, rfl⟩
abbrev main_call3_call0_v1 : Ref sig .tc := ⟨.hbm, 186, rfl⟩
abbrev main_v75 : Ref sig .tc := ⟨.hbm, 187, rfl⟩
abbrev main_v76 : Ref sig .tc := ⟨.hbm, 188, rfl⟩
abbrev main_v77 : Ref sig .tc := ⟨.hbm, 189, rfl⟩
abbrev main_v78 : Ref sig .tc := ⟨.hbm, 190, rfl⟩
abbrev main_cst_13 : Ref sig .tc := ⟨.hbm, 191, rfl⟩
abbrev main_v79 : Ref sig .tc := ⟨.hbm, 192, rfl⟩
abbrev main_v80 : Ref sig .tc := ⟨.hbm, 193, rfl⟩
abbrev main_v81 : Ref sig .tc := ⟨.hbm, 194, rfl⟩
abbrev main_v82 : Ref sig .tc := ⟨.hbm, 195, rfl⟩
abbrev main_v83 : Ref sig .tc := ⟨.hbm, 196, rfl⟩
abbrev main_v84 : Ref sig .tc := ⟨.hbm, 197, rfl⟩
abbrev main_v85 : Ref sig .tc := ⟨.hbm, 198, rfl⟩
abbrev main_v86 : Ref sig .tc := ⟨.hbm, 199, rfl⟩
abbrev main_v87 : Ref sig .tc := ⟨.hbm, 200, rfl⟩
abbrev main_v88 : Ref sig .tc := ⟨.hbm, 201, rfl⟩
abbrev main_v89 : Ref sig .tc := ⟨.hbm, 202, rfl⟩
abbrev main_v90 : Ref sig .tc := ⟨.hbm, 203, rfl⟩

abbrev nD : Nat := 1
abbrev τ : Topo := Topo.v7x

variable {F : FTy → Type} [FloatOps F]

class Facts₀ : Prop where
  transposes_S4096x4096_S4096x4096_1_0 : S4096x4096.Transposes [1, 0] S4096x4096
  reducesTo_S4096x4096_S4096_d0 : S4096x4096.ReducesTo [0] S4096
  h_S_ : 0 < S_.numel
  bcast_S_S4096 : S_.BroadcastsInDim S4096 (![] : Fin 0 → Fin S4096.rank)
  bcast_S4096_S1x4096_1 : S4096.BroadcastsInDim S1x4096 (![1] : Fin 1 → Fin S1x4096.rank)
  bcast_S_S1x4096 : S_.BroadcastsInDim S1x4096 (![] : Fin 0 → Fin S1x4096.rank)
  bcast_S1x4096_S4096x4096_0_1 : S1x4096.BroadcastsInDim S4096x4096 (![0, 1] : Fin 2 → Fin S4096x4096.rank)
  transposes_S1024x4096_S4096x1024_1_0 : S1024x4096.Transposes [1, 0] S4096x1024
  reducesTo_S4096x1024_S1024_d0 : S4096x1024.ReducesTo [0] S1024
  bcast_S_S1024 : S_.BroadcastsInDim S1024 (![] : Fin 0 → Fin S1024.rank)
  bcast_S1024_S1x1024_1 : S1024.BroadcastsInDim S1x1024 (![1] : Fin 1 → Fin S1x1024.rank)
  bcast_S_S1x1024 : S_.BroadcastsInDim S1x1024 (![] : Fin 0 → Fin S1x1024.rank)
  bcast_S1x1024_S4096x1024_0_1 : S1x1024.BroadcastsInDim S4096x1024 (![0, 1] : Fin 2 → Fin S4096x1024.rank)
  dot_S4096x4096_S4096x4096_S4096x4096_1_0_0_1_n_n_wf : DotDims.WF S4096x4096 S4096x4096 S4096x4096 [1] [0] [0] [1] [] []
  dot_S4096x4096_S4096x1024_S4096x1024_1_0_0_1_n_n_wf : DotDims.WF S4096x4096 S4096x1024 S4096x1024 [1] [0] [0] [1] [] []

variable [Facts₀]

def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf
def dot_S4096x4096_S4096x1024_S4096x1024_1_0_0_1_n_n : DotDims S4096x4096 S4096x1024 S4096x1024 where
  lhsContracting := [1]
  rhsContracting := [0]
  lhsNonContracting := [0]
  rhsNonContracting := [1]
  lhsBatch := []
  rhsBatch := []
  wf := dot_S4096x4096_S4096x1024_S4096x1024_1_0_0_1_n_n_wf

class Facts : Prop extends Facts₀ where

variable [Facts]
-- ==== Proof.KRun.lean ====
/-
  The idealized kernel program's run with EVERY unscoped TensorCore buffer read at the end: every weakly fair execution
  of @main terminates without a fault, and each such buffer then holds the last boundary's contents `Gen.W17` — the fold
  of the host stretches and of the four regions' write-backs from the launch memory.  It is the several-regions launch
  theorem applied to @main's seventeen segments exactly as the frame applies it; only the final reading differs: the frame
  keeps the thirteen argument buffers, this keeps all of them, the result among them.
-/
import proofs.«161644_j58961311039944_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem run_all : θ_run defs (onTc (τ := τ) (main (F := F))) ⟨m, fun _ => 0, ρ⟩ (fun r => ∀ (c : Dev nD) (b : Ref sig .tc),
      ¬ (Proc.devRef .tc b : DevRef τ sig).isScoped →
      r.2.mem ((c.tc : Thread nD τ).loc b) = W17 m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W17 m ρ c b)
    (hfin := fun c s' => by
      iintro ⟨⟨Hh, -⟩, HSI⟩
      unfold StableHlo.held
      imodintro
      iapply (pointsTo_read_all (Pipeline.ucRefs τ sig) (fun b => (((c : Thread nD τ)).1, b)) (W17 m ρ c) s')
      isplitl [Hh] <;> iassumption)
    (hQ := fun s h c b hb => h c _ (mem_uc b hb))

end Cert.KernelIdeal.KRun

end
-- ==== Proof.Spec.lean ====
/-
  The network both programs compute, as functions of arrays of extended reals.

  One layer takes an activation matrix h : [4096, K] and a weight matrix W : [C, K] and forms
      M(p, q) = Σ_k h(p, k) · sign(W)(q, k)                      (`mm`: a product against the transposed signs)
  then normalises every column of M by its batch statistics:
      mean(q) = (Σ_p M(p, q)) / 4096,
      var(q)  = (Σ_p (M(p, q) − mean(q))²) / (4096 − ddof)       (ddof = 0; the quotient guarded by 4096 − ddof > 0),
      N(p, q) = (M(p, q) − mean(q)) · rsqrt(var(q) + ε) · g(q) + b(q),
  and hands sign(N) to the next layer; the last layer returns N itself.  The statistics and the normalisation are
  written here ONCE (`mean`, `variance`, `normCore`, `normTail`) with exactly the host operations both programs
  apply, so that the two programs are compared through the matrix products only and this text is never opened.
  The side conditions of the shape operations (a reduction over axis 0, the broadcasts of a scalar, of a vector to a
  row and of a row to the matrix) are collected in `Wit C` and decided for the two widths 4096 and 1024.
-/
import Idealize.ShloMosaic.PureOps.Ideal
import Idealize.ShloMosaic.Lib.ValueIdx

noncomputable section

namespace Cert.Bnn

open Idealize.ShloMosaic Idealize.ShloMosaic.ValueIdx
open scoped BigOperators

abbrev S0 : Shape := ⟨0, ![]⟩
abbrev SV (C : Nat) : Shape := ⟨1, ![C]⟩
abbrev SR (C : Nat) : Shape := ⟨2, ![1, C]⟩
abbrev SM (R C : Nat) : Shape := ⟨2, ![R, C]⟩

/-- The shape side conditions of one layer's statistics at width `C` (4096 rows). -/
structure Wit (C : Nat) : Prop where
  red : (SM 4096 C).ReducesTo [0] (SV C)
  pos : 0 < S0.numel
  b0v : S0.BroadcastsInDim (SV C) (![] : Fin 0 → Fin (SV C).rank)
  bvr : (SV C).BroadcastsInDim (SR C) (![1] : Fin 1 → Fin (SR C).rank)
  b0r : S0.BroadcastsInDim (SR C) (![] : Fin 0 → Fin (SR C).rank)
  brm : (SR C).BroadcastsInDim (SM 4096 C) (![0, 1] : Fin 2 → Fin (SM 4096 C).rank)

theorem wit4096 : Wit 4096 := ⟨by decide, by decide, by decide, by decide, by decide, by decide⟩
theorem wit1024 : Wit 1024 := ⟨by decide, by decide, by decide, by decide, by decide, by decide⟩

variable {C : Nat} (w : Wit C)

/-- A vector of width `C` repeated down the 4096 rows. -/
def rows (v : FVec Ideal (SV C) .f32) : FVec Ideal (SM 4096 C) .f32 :=
  broadcastInDim (SM 4096 C) ![0, 1] w.brm (broadcastInDim (SR C) ![1] w.bvr v)

/-- The column means: the column sums divided by 4096. -/
def mean (M : FVec Ideal (SM 4096 C) .f32) : FVec Ideal (SV C) .f32 :=
  Host.divf (Host.reduceAdd M (constant S0 .f32 0x00000000#32) w.red w.pos)
    (broadcastInDim (SV C) ![] w.b0v (constant S0 .f32 0x45800000#32))

/-- The matrix with its column means (computed as a row) subtracted. -/
def centred (M : FVec Ideal (SM 4096 C) .f32) : FVec Ideal (SM 4096 C) .f32 :=
  subf M (broadcastInDim (SM 4096 C) ![0, 1] w.brm
    (Host.divf (broadcastInDim (SR C) ![1] w.bvr (Host.reduceAdd M (constant S0 .f32 0x00000000#32) w.red w.pos))
      (broadcastInDim (SR C) ![] w.b0r (constant S0 .f32 0x45800000#32))))

/-- The count the squared deviations are divided by: 4096 minus the correction `z`. -/
def count (z : Vec Ideal S0 .i32) : FVec Ideal S0 .f32 :=
  subf (constant S0 .f32 0x45800000#32) (sitofp .f32 z)

/-- The column variances with correction `z`: the mean squared deviation where the count is positive. -/
def variance (M : FVec Ideal (SM 4096 C) .f32) (z : Vec Ideal S0 .i32) : FVec Ideal (SV C) .f32 :=
  select (broadcastInDim (SV C) ![] w.b0v (cmpf .ogt (count z) (constant S0 .f32 0x00000000#32)))
    (Host.divf (Host.reduceAdd (mulf (centred w M) (centred w M)) (constant S0 .f32 0x00000000#32) w.red w.pos)
      (broadcastInDim (SV C) ![] w.b0v (count z)))
    (broadcastInDim (SV C) ![] w.b0v (id (constant S0 .f32 0x7FC00000#32)))

/-- The normalisation from given statistics: (M − μ) · rsqrt(σ² + ε) · g + b, column by column. -/
def normCore (M : FVec Ideal (SM 4096 C) .f32) (mu var g b : FVec Ideal (SV C) .f32) : FVec Ideal (SM 4096 C) .f32 :=
  addf (mulf (mulf (subf M (rows w mu))
      (rows w (Host.rsqrt (addf var (broadcastInDim (SV C) ![] w.b0v (constant S0 .f32 0x3727C5AC#32))))))
    (rows w g)) (rows w b)

/-- One layer's batch normalisation of the product matrix `M`. -/
def normTail (M : FVec Ideal (SM 4096 C) .f32) (g b : FVec Ideal (SV C) .f32) : FVec Ideal (SM 4096 C) .f32 :=
  normCore w M (mean w M) (variance w M (constantI S0 32 0#32)) g b

/-- The product of an activation matrix with the transpose of a matrix `s` (the signs of the weights):
    entry (p, q) is Σ_k h(p, k) · s(q, k). The operands' float formats do not matter at the ideal values. -/
def mm {R K C' : Nat} {φ₁ φ₂ : FTy} (h : FVec Ideal (SM R K) φ₁) (s : FVec Ideal (SM C' K) φ₂) :
    FVec Ideal (SM R C') .f32 :=
  fun i => ∑ k : Fin K, h (ix2 (⟨(i 0).val, idx2_lt0 i⟩ : Fin R) k) * s (ix2 (⟨(i 1).val, idx2_lt1 i⟩ : Fin C') k)

theorem mm_apply {R K C' : Nat} {φ₁ φ₂ : FTy} (h : FVec Ideal (SM R K) φ₁) (s : FVec Ideal (SM C' K) φ₂)
    (p : Fin R) (q : Fin C') : mm h s (ix2 p q) = ∑ k : Fin K, h (ix2 p k) * s (ix2 q k) := rfl

/-- A product of blocks is a block of the product: if `x` is the 1024 rows of `X` from row `a · 1024` and `y` the 1024 rows
    of `Y` from row `b · 1024`, then entry `j` of `mm x y` is entry (a · 1024 + j₀, b · 1024 + j₁) of `mm X Y`. -/
theorem mm_block {R K C' : Nat} {φ₁ φ₂ : FTy} (X : FVec Ideal (SM R K) φ₁) (Y : FVec Ideal (SM C' K) φ₂)
    (x : FVec Ideal (SM 1024 K) φ₁) (y' : FVec Ideal (SM 1024 K) φ₂) (a b : Nat)
    (i : (SM R C').Idx) (j : (SM 1024 1024).Idx)
    (hx : ∀ (p : Fin 1024) (k : Fin K) (P : Fin R), P.val = a * 1024 + p.val → x (ix2 p k) = X (ix2 P k))
    (hy : ∀ (q : Fin 1024) (k : Fin K) (Q : Fin C'), Q.val = b * 1024 + q.val → y' (ix2 q k) = Y (ix2 Q k))
    (hi0 : (i 0).val = a * 1024 + (j 0).val) (hi1 : (i 1).val = b * 1024 + (j 1).val) :
    mm x y' j = mm X Y i := by
  unfold mm
  refine Finset.sum_congr rfl fun k _ => ?_
  exact congrArg₂ (· * ·) (hx ⟨(j 0).val, idx2_lt0 j⟩ k ⟨(i 0).val, idx2_lt0 i⟩ hi0)
    (hy ⟨(j 1).val, idx2_lt1 j⟩ k ⟨(i 1).val, idx2_lt1 i⟩ hi1)

/-- A matrix handed to the matrix unit's input format: the same extended reals. -/
def toBf (R K : Nat) (X : FVec Ideal (SM R K) .f32) : FVec Ideal (SM R K) .bf16 := truncf .bf16 X (by decide)

/-- The entrywise sign of a matrix. -/
def sgn (R K : Nat) (X : FVec Ideal (SM R K) .f32) : FVec Ideal (SM R K) .f32 := Host.sign X

/-- The format change does not change a product. -/
theorem mm_toBf {R K C' : Nat} (X : FVec Ideal (SM R K) .f32) (Y : FVec Ideal (SM C' K) .f32) :
    mm (toBf R K X) (toBf C' K Y) = mm X Y := rfl

/-- One layer before its activation: the product with the transposed weight signs, normalised column by column. -/
def layer {C' : Nat} (w : Wit C') (h : FVec Ideal (SM 4096 4096) .f32) (W : FVec Ideal (SM C' 4096) .f32)
    (g b : FVec Ideal (SV C') .f32) : FVec Ideal (SM 4096 C') .f32 :=
  normTail w (mm h (sgn C' 4096 W)) g b

/-- A hidden layer: the sign of the normalised product. -/
def hidden (h W : FVec Ideal (SM 4096 4096) .f32) (g b : FVec Ideal (SV 4096) .f32) : FVec Ideal (SM 4096 4096) .f32 :=
  sgn 4096 4096 (layer wit4096 h W g b)

/-- The whole network: three hidden layers of width 4096 and the output layer of width 1024. -/
def net (x W0 W1 W2 : FVec Ideal (SM 4096 4096) .f32) (W3 : FVec Ideal (SM 1024 4096) .f32)
    (g0 b0 g1 b1 g2 b2 : FVec Ideal (SV 4096) .f32) (g3 b3 : FVec Ideal (SV 1024) .f32) :
    FVec Ideal (SM 4096 1024) .f32 :=
  layer wit1024 (hidden (hidden (hidden x W0 g0 b0) W1 g1 b1) W2 g2 b2) W3 g3 b3

end Cert.Bnn

end
-- ==== Proof.KHead.lean ====
/-
  The host operations before the first matrix product: the input activations handed to the matrix unit's format
  (the identity on ideal values) and the signs of the first weight matrix, likewise.
-/
import proofs.«161644_j58961311039944_1_alg».proof.Proof.Gen.KernelIdeal.Launch
import proofs.«161644_j58961311039944_1_alg».proof.Proof.Spec
import Idealize.ShloMosaic.Lib.StableHlo.Run

noncomputable section

namespace Cert.KernelIdeal.KHead

open Cert.KernelIdeal Cert.KernelIdeal.Gen Idealize.ShloMosaic Idealize.ShloMosaic.TcCoe Idealize.SL.Sem Idealize.ShloMosaic.StableHlo
open Cert.Bnn

/-- The references the operations of `hostOps0` write, one per operation. -/
abbrev hostOps0_W : List (Ref sig .tc) := [main_v0, main_v1, main_v2]
theorem hostOps0_writes : (hostOps0 : List (HloOp τ sig (Elt Ideal))).Forall fun op => op.writes ⊆ (hostOps0_W.map (Proc.devRef (τ := τ) .tc)).toFinset := by
  simp only [List.Forall]
  repeat' apply And.intro
  all_goals (simp only [StableHlo.nullary_writes, StableHlo.unary_writes, StableHlo.binary_writes, StableHlo.ternary_writes, Finset.singleton_subset_iff, List.mem_toFinset]; exact List.mem_map_of_mem (by decide))
/-- A buffer none of them writes keeps its contents through `hostOps0`. -/
theorem hostOps0_keep (W : Valuation τ sig (Elt Ideal)) (r : Ref sig .tc) (h : r ∉ hostOps0_W) :
    after hostOps0 W (Proc.devRef .tc r) = W (Proc.devRef .tc r) :=
  after_of_writes_sub hostOps0 W hostOps0_writes h

/-- The first product's left operand: the input activations. -/
theorem input (W : Valuation τ sig (Elt Ideal)) :
    after hostOps0 W (Proc.devRef .tc main_v0) = toBf 4096 4096 (W (Proc.devRef .tc main_arg0)) := by
  after_results
  try rfl

/-- The first product's right operand: the signs of the first weight matrix. -/
theorem weight (W : Valuation τ sig (Elt Ideal)) :
    after hostOps0 W (Proc.devRef .tc main_v2) = toBf 4096 4096 (sgn 4096 4096 (W (Proc.devRef .tc main_arg1))) := by
  after_results
  try rfl

end Cert.KernelIdeal.KHead

end
-- ==== Proof.KTail1.lean ====
/-
  The host operations between matrix product 0 and matrix product 1, read as functions of the buffers they start from.

  Three stretches of operations follow the product M (buffer `main_v3`, 4096 × 4096): the column means (the column
  sums over 4096), the column variances (the outlined variance: deviations from the mean, squared, summed, divided by
  the count 4096 − 0 where that is positive), and the normalisation (M − mean) · rsqrt(var + ε) · g + b, whose sign, in
  the matrix unit's input format, is the next product's left operand; the next weight matrix's signs are its right operand.
  Each stretch is read at the buffer it produces, from ANY contents `W` of the buffers before it, as the
  corresponding function of `Spec`; every buffer a stretch does not write keeps its contents (`*_keep`: one list of
  written references per stretch).  Composed: the activation buffer holds sign(`normTail` M g b).
-/
import proofs.«161644_j58961311039944_1_alg».proof.Proof.Gen.KernelIdeal.Launch
import proofs.«161644_j58961311039944_1_alg».proof.Proof.Spec
import Idealize.ShloMosaic.Lib.StableHlo.Run

noncomputable section

namespace Cert.KernelIdeal.KTail1

open Cert.KernelIdeal Cert.KernelIdeal.Gen Idealize.ShloMosaic Idealize.ShloMosaic.TcCoe Idealize.SL.Sem Idealize.ShloMosaic.StableHlo
open Cert.Bnn

/-! ## What each stretch writes, and what it leaves alone -/

/-- The references the operations of `hostOps1` write, one per operation. -/
abbrev hostOps1_W : List (Ref sig .tc) := [main_cst, main_v4, main_cst_0, main_v5, main_v6, main_c]
theorem hostOps1_writes : (hostOps1 : List (HloOp τ sig (Elt Ideal))).Forall fun op => op.writes ⊆ (hostOps1_W.map (Proc.devRef (τ := τ) .tc)).toFinset := by
  simp only [List.Forall]
  repeat' apply And.intro
  all_goals (simp only [StableHlo.nullary_writes, StableHlo.unary_writes, StableHlo.binary_writes, StableHlo.ternary_writes, Finset.singleton_subset_iff, List.mem_toFinset]; exact List.mem_map_of_mem (by decide))
/-- A buffer none of them writes keeps its contents through `hostOps1`. -/
theorem hostOps1_keep (W : Valuation τ sig (Elt Ideal)) (r : Ref sig .tc) (h : r ∉ hostOps1_W) :
    after hostOps1 W (Proc.devRef .tc r) = W (Proc.devRef .tc r) :=
  after_of_writes_sub hostOps1 W hostOps1_writes h

/-- The references the operations of `hostOps1_1` write, one per operation. -/
abbrev hostOps1_1_W : List (Ref sig .tc) := [main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v7]
theorem hostOps1_1_writes : (hostOps1_1 : List (HloOp τ sig (Elt Ideal))).Forall fun op => op.writes ⊆ (hostOps1_1_W.map (Proc.devRef (τ := τ) .tc)).toFinset := by
  simp only [List.Forall]
  repeat' apply And.intro
  all_goals (simp only [StableHlo.nullary_writes, StableHlo.unary_writes, StableHlo.binary_writes, StableHlo.ternary_writes, Finset.singleton_subset_iff, List.mem_toFinset]; exact List.mem_map_of_mem (by decide))
/-- A buffer none of them writes keeps its contents through `hostOps1_1`. -/
theorem hostOps1_1_keep (W : Valuation τ sig (Elt Ideal)) (r : Ref sig .tc) (h : r ∉ hostOps1_1_W) :
    after hostOps1_1 W (Proc.devRef .tc r) = W (Proc.devRef .tc r) :=
  after_of_writes_sub hostOps1_1 W hostOps1_1_writes h

/-- The references the operations of `hostOps1_2` write, one per operation. -/
abbrev hostOps1_2_W : List (Ref sig .tc) := [main_v8, main_v9, main_v10, main_cst_1, main_v11, main_v12, main_v13, main_v14, main_v15, main_v16, main_v17, main_v18, main_v19, main_v20, main_v21, main_v22, main_v23, main_v24, main_v25, main_v26]
theorem hostOps1_2_writes : (hostOps1_2 : List (HloOp τ sig (Elt Ideal))).Forall fun op => op.writes ⊆ (hostOps1_2_W.map (Proc.devRef (τ := τ) .tc)).toFinset := by
  simp only [List.Forall]
  repeat' apply And.intro
  all_goals (simp only [StableHlo.nullary_writes, StableHlo.unary_writes, StableHlo.binary_writes, StableHlo.ternary_writes, Finset.singleton_subset_iff, List.mem_toFinset]; exact List.mem_map_of_mem (by decide))
/-- A buffer none of them writes keeps its contents through `hostOps1_2`. -/
theorem hostOps1_2_keep (W : Valuation τ sig (Elt Ideal)) (r : Ref sig .tc) (h : r ∉ hostOps1_2_W) :
    after hostOps1_2 W (Proc.devRef .tc r) = W (Proc.devRef .tc r) :=
  after_of_writes_sub hostOps1_2 W hostOps1_2_writes h

/-! ## Each stretch at the buffer it produces -/

/-- The column means of the product. -/
theorem a_mean (W : Valuation τ sig (Elt Ideal)) :
    after hostOps1 W (Proc.devRef .tc main_v6) = mean wit4096 (W (Proc.devRef .tc main_v3)) := by
  after_results
  try rfl

/-- The variance's correction: the integer zero. -/
theorem a_zero (W : Valuation τ sig (Elt Ideal)) :
    after hostOps1 W (Proc.devRef .tc main_c) = constantI S0 32 0#32 := by
  after_results
  try rfl

/-- The column variances of the product, at the correction found in `main_c`. -/
theorem b_var (W : Valuation τ sig (Elt Ideal)) :
    after hostOps1_1 W (Proc.devRef .tc main_v7) = variance wit4096 (W (Proc.devRef .tc main_v3)) (W (Proc.devRef .tc main_c)) := by
  after_results_simp
  try rfl

/-- The normalisation from the statistics found in `main_v6` and `main_v7`, its sign taken and handed to the matrix unit's format. -/
theorem c_norm (W : Valuation τ sig (Elt Ideal)) :
    after hostOps1_2 W (Proc.devRef .tc main_v24) = toBf 4096 4096 (sgn 4096 4096 (normCore wit4096 (W (Proc.devRef .tc main_v3)) (W (Proc.devRef .tc main_v6)) (W (Proc.devRef .tc main_v7)) (W (Proc.devRef .tc main_arg5)) (W (Proc.devRef .tc main_arg6)))) := by
  after_results_simp
  try rfl

/-- The next weight matrix's signs, in the matrix unit's format. -/
theorem c_weight (W : Valuation τ sig (Elt Ideal)) :
    after hostOps1_2 W (Proc.devRef .tc main_v26) = toBf 4096 4096 (sgn 4096 4096 (W (Proc.devRef .tc main_arg2))) := by
  after_results_simp
  try rfl

/-! ## The three stretches composed -/

/-- The next product's left operand: the sign of the product normalised by its own column statistics. -/
theorem norm (W : Valuation τ sig (Elt Ideal)) :
    after hostOps1_2 (after hostOps1_1 (after hostOps1 W)) (Proc.devRef .tc main_v24) = toBf 4096 4096 (sgn 4096 4096 (normTail wit4096 (W (Proc.devRef .tc main_v3)) (W (Proc.devRef .tc main_arg5)) (W (Proc.devRef .tc main_arg6)))) := by
  rw [c_norm, hostOps1_1_keep _ main_v3 (by decide), hostOps1_keep _ main_v3 (by decide), hostOps1_1_keep _ main_v6 (by decide), a_mean, b_var, hostOps1_keep _ main_v3 (by decide), a_zero,
    hostOps1_1_keep _ main_arg5 (by decide), hostOps1_keep _ main_arg5 (by decide), hostOps1_1_keep _ main_arg6 (by decide), hostOps1_keep _ main_arg6 (by decide)]
  try rfl

/-- The next product's right operand: the signs of the next weight matrix. -/
theorem weight (W : Valuation τ sig (Elt Ideal)) :
    after hostOps1_2 (after hostOps1_1 (after hostOps1 W)) (Proc.devRef .tc main_v26) = toBf 4096 4096 (sgn 4096 4096 (W (Proc.devRef .tc main_arg2))) := by
  rw [c_weight, hostOps1_1_keep _ main_arg2 (by decide), hostOps1_keep _ main_arg2 (by decide)]

/-- A buffer none of the three stretches writes comes through unchanged. -/
theorem keep (W : Valuation τ sig (Elt Ideal)) (r : Ref sig .tc) (h0 : r ∉ hostOps1_W) (h1 : r ∉ hostOps1_1_W) (h2 : r ∉ hostOps1_2_W) :
    after hostOps1_2 (after hostOps1_1 (after hostOps1 W)) (Proc.devRef .tc r) = W (Proc.devRef .tc r) := by
  rw [hostOps1_2_keep _ r h2, hostOps1_1_keep _ r h1, hostOps1_keep _ r h0]

end Cert.KernelIdeal.KTail1

end
-- ==== Proof.KTail2.lean ====
/-
  The host operations between matrix product 1 and matrix product 2, read as functions of the buffers they start from.

  Three stretches of operations follow the product M (buffer `main_v27`, 4096 × 4096): the column means (the column
  sums over 4096), the column variances (the outlined variance: deviations from the mean, squared, summed, divided by
  the count 4096 − 0 where that is positive), and the normalisation (M − mean) · rsqrt(var + ε) · g + b, whose sign, in
  the matrix unit's input format, is the next product's left operand; the next weight matrix's signs are its right operand.
  Each stretch is read at the buffer it produces, from ANY contents `W` of the buffers before it, as the
  corresponding function of `Spec`; every buffer a stretch does not write keeps its contents (`*_keep`: one list of
  written references per stretch).  Composed: the activation buffer holds sign(`normTail` M g b).
-/
import proofs.«161644_j58961311039944_1_alg».proof.Proof.Gen.KernelIdeal.Launch
import proofs.«161644_j58961311039944_1_alg».proof.Proof.Spec
import Idealize.ShloMosaic.Lib.StableHlo.Run

noncomputable section

namespace Cert.KernelIdeal.KTail2

open Cert.KernelIdeal Cert.KernelIdeal.Gen Idealize.ShloMosaic Idealize.ShloMosaic.TcCoe Idealize.SL.Sem Idealize.ShloMosaic.StableHlo
open Cert.Bnn

/-! ## What each stretch writes, and what it leaves alone -/

/-- The references the operations of `hostOps2` write, one per operation. -/
abbrev hostOps2_W : List (Ref sig .tc) := [main_cst_2, main_v28, main_cst_3, main_v29, main_v30, main_c_4]
theorem hostOps2_writes : (hostOps2 : List (HloOp τ sig (Elt Ideal))).Forall fun op => op.writes ⊆ (hostOps2_W.map (Proc.devRef (τ := τ) .tc)).toFinset := by
  simp only [List.Forall]
  repeat' apply And.intro
  all_goals (simp only [StableHlo.nullary_writes, StableHlo.unary_writes, StableHlo.binary_writes, StableHlo.ternary_writes, Finset.singleton_subset_iff, List.mem_toFinset]; exact List.mem_map_of_mem (by decide))
/-- A buffer none of them writes keeps its contents through `hostOps2`. -/
theorem hostOps2_keep (W : Valuation τ sig (Elt Ideal)) (r : Ref sig .tc) (h : r ∉ hostOps2_W) :
    after hostOps2 W (Proc.devRef .tc r) = W (Proc.devRef .tc r) :=
  after_of_writes_sub hostOps2 W hostOps2_writes h

/-- The references the operations of `hostOps2_1` write, one per operation. -/
abbrev hostOps2_1_W : List (Ref sig .tc) := [main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_cst_3, main_call1_v12, main_call1_cst_4, main_call1_call0_v0, main_call1_call0_v1, main_v31]
theorem hostOps2_1_writes : (hostOps2_1 : List (HloOp τ sig (Elt Ideal))).Forall fun op => op.writes ⊆ (hostOps2_1_W.map (Proc.devRef (τ := τ) .tc)).toFinset := by
  simp only [List.Forall]
  repeat' apply And.intro
  all_goals (simp only [StableHlo.nullary_writes, StableHlo.unary_writes, StableHlo.binary_writes, StableHlo.ternary_writes, Finset.singleton_subset_iff, List.mem_toFinset]; exact List.mem_map_of_mem (by decide))
/-- A buffer none of them writes keeps its contents through `hostOps2_1`. -/
theorem hostOps2_1_keep (W : Valuation τ sig (Elt Ideal)) (r : Ref sig .tc) (h : r ∉ hostOps2_1_W) :
    after hostOps2_1 W (Proc.devRef .tc r) = W (Proc.devRef .tc r) :=
  after_of_writes_sub hostOps2_1 W hostOps2_1_writes h

/-- The references the operations of `hostOps2_2` write, one per operation. -/
abbrev hostOps2_2_W : List (Ref sig .tc) := [main_v32, main_v33, main_v34, main_cst_5, main_v35, main_v36, main_v37, main_v38, main_v39, main_v40, main_v41, main_v42, main_v43, main_v44, main_v45, main_v46, main_v47, main_v48, main_v49, main_v50]
theorem hostOps2_2_writes : (hostOps2_2 : List (HloOp τ sig (Elt Ideal))).Forall fun op => op.writes ⊆ (hostOps2_2_W.map (Proc.devRef (τ := τ) .tc)).toFinset := by
  simp only [List.Forall]
  repeat' apply And.intro
  all_goals (simp only [StableHlo.nullary_writes, StableHlo.unary_writes, StableHlo.binary_writes, StableHlo.ternary_writes, Finset.singleton_subset_iff, List.mem_toFinset]; exact List.mem_map_of_mem (by decide))
/-- A buffer none of them writes keeps its contents through `hostOps2_2`. -/
theorem hostOps2_2_keep (W : Valuation τ sig (Elt Ideal)) (r : Ref sig .tc) (h : r ∉ hostOps2_2_W) :
    after hostOps2_2 W (Proc.devRef .tc r) = W (Proc.devRef .tc r) :=
  after_of_writes_sub hostOps2_2 W hostOps2_2_writes h

/-! ## Each stretch at the buffer it produces -/

/-- The column means of the product. -/
theorem a_mean (W : Valuation τ sig (Elt Ideal)) :
    after hostOps2 W (Proc.devRef .tc main_v30) = mean wit4096 (W (Proc.devRef .tc main_v27)) := by
  after_results
  try rfl

/-- The variance's correction: the integer zero. -/
theorem a_zero (W : Valuation τ sig (Elt Ideal)) :
    after hostOps2 W (Proc.devRef .tc main_c_4) = constantI S0 32 0#32 := by
  after_results
  try rfl

/-- The column variances of the product, at the correction found in `main_c_4`. -/
theorem b_var (W : Valuation τ sig (Elt Ideal)) :
    after hostOps2_1 W (Proc.devRef .tc main_v31) = variance wit4096 (W (Proc.devRef .tc main_v27)) (W (Proc.devRef .tc main_c_4)) := by
  after_results_simp
  try rfl

/-- The normalisation from the statistics found in `main_v30` and `main_v31`, its sign taken and handed to the matrix unit's format. -/
theorem c_norm (W : Valuation τ sig (Elt Ideal)) :
    after hostOps2_2 W (Proc.devRef .tc main_v48) = toBf 4096 4096 (sgn 4096 4096 (normCore wit4096 (W (Proc.devRef .tc main_v27)) (W (Proc.devRef .tc main_v30)) (W (Proc.devRef .tc main_v31)) (W (Proc.devRef .tc main_arg7)) (W (Proc.devRef .tc main_arg8)))) := by
  after_results_simp
  try rfl

/-- The next weight matrix's signs, in the matrix unit's format. -/
theorem c_weight (W : Valuation τ sig (Elt Ideal)) :
    after hostOps2_2 W (Proc.devRef .tc main_v50) = toBf 4096 4096 (sgn 4096 4096 (W (Proc.devRef .tc main_arg3))) := by
  after_results_simp
  try rfl

/-! ## The three stretches composed -/

/-- The next product's left operand: the sign of the product normalised by its own column statistics. -/
theorem norm (W : Valuation τ sig (Elt Ideal)) :
    after hostOps2_2 (after hostOps2_1 (after hostOps2 W)) (Proc.devRef .tc main_v48) = toBf 4096 4096 (sgn 4096 4096 (normTail wit4096 (W (Proc.devRef .tc main_v27)) (W (Proc.devRef .tc main_arg7)) (W (Proc.devRef .tc main_arg8)))) := by
  rw [c_norm, hostOps2_1_keep _ main_v27 (by decide), hostOps2_keep _ main_v27 (by decide), hostOps2_1_keep _ main_v30 (by decide), a_mean, b_var, hostOps2_keep _ main_v27 (by decide), a_zero,
    hostOps2_1_keep _ main_arg7 (by decide), hostOps2_keep _ main_arg7 (by decide), hostOps2_1_keep _ main_arg8 (by decide), hostOps2_keep _ main_arg8 (by decide)]
  try rfl

/-- The next product's right operand: the signs of the next weight matrix. -/
theorem weight (W : Valuation τ sig (Elt Ideal)) :
    after hostOps2_2 (after hostOps2_1 (after hostOps2 W)) (Proc.devRef .tc main_v50) = toBf 4096 4096 (sgn 4096 4096 (W (Proc.devRef .tc main_arg3))) := by
  rw [c_weight, hostOps2_1_keep _ main_arg3 (by decide), hostOps2_keep _ main_arg3 (by decide)]

/-- A buffer none of the three stretches writes comes through unchanged. -/
theorem keep (W : Valuation τ sig (Elt Ideal)) (r : Ref sig .tc) (h0 : r ∉ hostOps2_W) (h1 : r ∉ hostOps2_1_W) (h2 : r ∉ hostOps2_2_W) :
    after hostOps2_2 (after hostOps2_1 (after hostOps2 W)) (Proc.devRef .tc r) = W (Proc.devRef .tc r) := by
  rw [hostOps2_2_keep _ r h2, hostOps2_1_keep _ r h1, hostOps2_keep _ r h0]

end Cert.KernelIdeal.KTail2

end
-- ==== Proof.KTail3.lean ====
/-
  The host operations between matrix product 2 and matrix product 3, read as functions of the buffers they start from.

  Three stretches of operations follow the product M (buffer `main_v51`, 4096 × 4096): the column means (the column
  sums over 4096), the column variances (the outlined variance: deviations from the mean, squared, summed, divided by
  the count 4096 − 0 where that is positive), and the normalisation (M − mean) · rsqrt(var + ε) · g + b, whose sign, in
  the matrix unit's input format, is the next product's left operand; the next weight matrix's signs are its right operand.
  Each stretch is read at the buffer it produces, from ANY contents `W` of the buffers before it, as the
  corresponding function of `Spec`; every buffer a stretch does not write keeps its contents (`*_keep`: one list of
  written references per stretch).  Composed: the activation buffer holds sign(`normTail` M g b).
-/
import proofs.«161644_j58961311039944_1_alg».proof.Proof.Gen.KernelIdeal.Launch
import proofs.«161644_j58961311039944_1_alg».proof.Proof.Spec
import Idealize.ShloMosaic.Lib.StableHlo.Run

noncomputable section

namespace Cert.KernelIdeal.KTail3

open Cert.KernelIdeal Cert.KernelIdeal.Gen Idealize.ShloMosaic Idealize.ShloMosaic.TcCoe Idealize.SL.Sem Idealize.ShloMosaic.StableHlo
open Cert.Bnn

/-! ## What each stretch writes, and what it leaves alone -/

/-- The references the operations of `hostOps3` write, one per operation. -/
abbrev hostOps3_W : List (Ref sig .tc) := [main_cst_6, main_v52, main_cst_7, main_v53, main_v54, main_c_8]
theorem hostOps3_writes : (hostOps3 : List (HloOp τ sig (Elt Ideal))).Forall fun op => op.writes ⊆ (hostOps3_W.map (Proc.devRef (τ := τ) .tc)).toFinset := by
  simp only [List.Forall]
  repeat' apply And.intro
  all_goals (simp only [StableHlo.nullary_writes, StableHlo.unary_writes, StableHlo.binary_writes, StableHlo.ternary_writes, Finset.singleton_subset_iff, List.mem_toFinset]; exact List.mem_map_of_mem (by decide))
/-- A buffer none of them writes keeps its contents through `hostOps3`. -/
theorem hostOps3_keep (W : Valuation τ sig (Elt Ideal)) (r : Ref sig .tc) (h : r ∉ hostOps3_W) :
    after hostOps3 W (Proc.devRef .tc r) = W (Proc.devRef .tc r) :=
  after_of_writes_sub hostOps3 W hostOps3_writes h

/-- The references the operations of `hostOps3_1` write, one per operation. -/
abbrev hostOps3_1_W : List (Ref sig .tc) := [main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v55]
theorem hostOps3_1_writes : (hostOps3_1 : List (HloOp τ sig (Elt Ideal))).Forall fun op => op.writes ⊆ (hostOps3_1_W.map (Proc.devRef (τ := τ) .tc)).toFinset := by
  simp only [List.Forall]
  repeat' apply And.intro
  all_goals (simp only [StableHlo.nullary_writes, StableHlo.unary_writes, StableHlo.binary_writes, StableHlo.ternary_writes, Finset.singleton_subset_iff, List.mem_toFinset]; exact List.mem_map_of_mem (by decide))
/-- A buffer none of them writes keeps its contents through `hostOps3_1`. -/
theorem hostOps3_1_keep (W : Valuation τ sig (Elt Ideal)) (r : Ref sig .tc) (h : r ∉ hostOps3_1_W) :
    after hostOps3_1 W (Proc.devRef .tc r) = W (Proc.devRef .tc r) :=
  after_of_writes_sub hostOps3_1 W hostOps3_1_writes h

/-- The references the operations of `hostOps3_2` write, one per operation. -/
abbrev hostOps3_2_W : List (Ref sig .tc) := [main_v56, main_v57, main_v58, main_cst_9, main_v59, main_v60, main_v61, main_v62, main_v63, main_v64, main_v65, main_v66, main_v67, main_v68, main_v69, main_v70, main_v71, main_v72, main_v73, main_v74]
theorem hostOps3_2_writes : (hostOps3_2 : List (HloOp τ sig (Elt Ideal))).Forall fun op => op.writes ⊆ (hostOps3_2_W.map (Proc.devRef (τ := τ) .tc)).toFinset := by
  simp only [List.Forall]
  repeat' apply And.intro
  all_goals (simp only [StableHlo.nullary_writes, StableHlo.unary_writes, StableHlo.binary_writes, StableHlo.ternary_writes, Finset.singleton_subset_iff, List.mem_toFinset]; exact List.mem_map_of_mem (by decide))
/-- A buffer none of them writes keeps its contents through `hostOps3_2`. -/
theorem hostOps3_2_keep (W : Valuation τ sig (Elt Ideal)) (r : Ref sig .tc) (h : r ∉ hostOps3_2_W) :
    after hostOps3_2 W (Proc.devRef .tc r) = W (Proc.devRef .tc r) :=
  after_of_writes_sub hostOps3_2 W hostOps3_2_writes h

/-! ## Each stretch at the buffer it produces -/

/-- The column means of the product. -/
theorem a_mean (W : Valuation τ sig (Elt Ideal)) :
    after hostOps3 W (Proc.devRef .tc main_v54) = mean wit4096 (W (Proc.devRef .tc main_v51)) := by
  after_results
  try rfl

/-- The variance's correction: the integer zero. -/
theorem a_zero (W : Valuation τ sig (Elt Ideal)) :
    after hostOps3 W (Proc.devRef .tc main_c_8) = constantI S0 32 0#32 := by
  after_results
  try rfl

/-- The column variances of the product, at the correction found in `main_c_8`. -/
theorem b_var (W : Valuation τ sig (Elt Ideal)) :
    after hostOps3_1 W (Proc.devRef .tc main_v55) = variance wit4096 (W (Proc.devRef .tc main_v51)) (W (Proc.devRef .tc main_c_8)) := by
  after_results_simp
  try rfl

/-- The normalisation from the statistics found in `main_v54` and `main_v55`, its sign taken and handed to the matrix unit's format. -/
theorem c_norm (W : Valuation τ sig (Elt Ideal)) :
    after hostOps3_2 W (Proc.devRef .tc main_v72) = toBf 4096 4096 (sgn 4096 4096 (normCore wit4096 (W (Proc.devRef .tc main_v51)) (W (Proc.devRef .tc main_v54)) (W (Proc.devRef .tc main_v55)) (W (Proc.devRef .tc main_arg9)) (W (Proc.devRef .tc main_arg10)))) := by
  after_results_simp
  try rfl

/-- The next weight matrix's signs, in the matrix unit's format. -/
theorem c_weight (W : Valuation τ sig (Elt Ideal)) :
    after hostOps3_2 W (Proc.devRef .tc main_v74) = toBf 1024 4096 (sgn 1024 4096 (W (Proc.devRef .tc main_arg4))) := by
  after_results_simp
  try rfl

/-! ## The three stretches composed -/

/-- The next product's left operand: the sign of the product normalised by its own column statistics. -/
theorem norm (W : Valuation τ sig (Elt Ideal)) :
    after hostOps3_2 (after hostOps3_1 (after hostOps3 W)) (Proc.devRef .tc main_v72) = toBf 4096 4096 (sgn 4096 4096 (normTail wit4096 (W (Proc.devRef .tc main_v51)) (W (Proc.devRef .tc main_arg9)) (W (Proc.devRef .tc main_arg10)))) := by
  rw [c_norm, hostOps3_1_keep _ main_v51 (by decide), hostOps3_keep _ main_v51 (by decide), hostOps3_1_keep _ main_v54 (by decide), a_mean, b_var, hostOps3_keep _ main_v51 (by decide), a_zero,
    hostOps3_1_keep _ main_arg9 (by decide), hostOps3_keep _ main_arg9 (by decide), hostOps3_1_keep _ main_arg10 (by decide), hostOps3_keep _ main_arg10 (by decide)]
  try rfl

/-- The next product's right operand: the signs of the next weight matrix. -/
theorem weight (W : Valuation τ sig (Elt Ideal)) :
    after hostOps3_2 (after hostOps3_1 (after hostOps3 W)) (Proc.devRef .tc main_v74) = toBf 1024 4096 (sgn 1024 4096 (W (Proc.devRef .tc main_arg4))) := by
  rw [c_weight, hostOps3_1_keep _ main_arg4 (by decide), hostOps3_keep _ main_arg4 (by decide)]

/-- A buffer none of the three stretches writes comes through unchanged. -/
theorem keep (W : Valuation τ sig (Elt Ideal)) (r : Ref sig .tc) (h0 : r ∉ hostOps3_W) (h1 : r ∉ hostOps3_1_W) (h2 : r ∉ hostOps3_2_W) :
    after hostOps3_2 (after hostOps3_1 (after hostOps3 W)) (Proc.devRef .tc r) = W (Proc.devRef .tc r) := by
  rw [hostOps3_2_keep _ r h2, hostOps3_1_keep _ r h1, hostOps3_keep _ r h0]

end Cert.KernelIdeal.KTail3

end
-- ==== Proof.KTail4.lean ====
/-
  The host operations between matrix product 3 and the result, read as functions of the buffers they start from.

  Three stretches of operations follow the product M (buffer `main_v75`, 4096 × 1024): the column means (the column
  sums over 4096), the column variances (the outlined variance: deviations from the mean, squared, summed, divided by
  the count 4096 − 0 where that is positive), and the normalisation (M − mean) · rsqrt(var + ε) · g + b.
  Each stretch is read at the buffer it produces, from ANY contents `W` of the buffers before it, as the
  corresponding function of `Spec`; every buffer a stretch does not write keeps its contents (`*_keep`: one list of
  written references per stretch).  Composed: the result buffer holds `normTail` of M and the last scale and shift vectors.
-/
import proofs.«161644_j58961311039944_1_alg».proof.Proof.Gen.KernelIdeal.Launch
import proofs.«161644_j58961311039944_1_alg».proof.Proof.Spec
import Idealize.ShloMosaic.Lib.StableHlo.Run

noncomputable section

namespace Cert.KernelIdeal.KTail4

open Cert.KernelIdeal Cert.KernelIdeal.Gen Idealize.ShloMosaic Idealize.ShloMosaic.TcCoe Idealize.SL.Sem Idealize.ShloMosaic.StableHlo
open Cert.Bnn

/-! ## What each stretch writes, and what it leaves alone -/

/-- The references the operations of `hostOps4` write, one per operation. -/
abbrev hostOps4_W : List (Ref sig .tc) := [main_cst_10, main_v76, main_cst_11, main_v77, main_v78, main_c_12]
theorem hostOps4_writes : (hostOps4 : List (HloOp τ sig (Elt Ideal))).Forall fun op => op.writes ⊆ (hostOps4_W.map (Proc.devRef (τ := τ) .tc)).toFinset := by
  simp only [List.Forall]
  repeat' apply And.intro
  all_goals (simp only [StableHlo.nullary_writes, StableHlo.unary_writes, StableHlo.binary_writes, StableHlo.ternary_writes, Finset.singleton_subset_iff, List.mem_toFinset]; exact List.mem_map_of_mem (by decide))
/-- A buffer none of them writes keeps its contents through `hostOps4`. -/
theorem hostOps4_keep (W : Valuation τ sig (Elt Ideal)) (r : Ref sig .tc) (h : r ∉ hostOps4_W) :
    after hostOps4 W (Proc.devRef .tc r) = W (Proc.devRef .tc r) :=
  after_of_writes_sub hostOps4 W hostOps4_writes h

/-- The references the operations of `hostOps4_1` write, one per operation. -/
abbrev hostOps4_1_W : List (Ref sig .tc) := [main_call3_cst, main_call3_v0, main_call3_v1, main_call3_cst_0, main_call3_v2, main_call3_v3, main_call3_v4, main_call3_v5, main_call3_v6, main_call3_v7, main_call3_cst_1, main_call3_v8, main_call3_cst_2, main_call3_v9, main_call3_v10, main_call3_v11, main_call3_cst_3, main_call3_v12, main_call3_cst_4, main_call3_call0_v0, main_call3_call0_v1, main_v79]
theorem hostOps4_1_writes : (hostOps4_1 : List (HloOp τ sig (Elt Ideal))).Forall fun op => op.writes ⊆ (hostOps4_1_W.map (Proc.devRef (τ := τ) .tc)).toFinset := by
  simp only [List.Forall]
  repeat' apply And.intro
  all_goals (simp only [StableHlo.nullary_writes, StableHlo.unary_writes, StableHlo.binary_writes, StableHlo.ternary_writes, Finset.singleton_subset_iff, List.mem_toFinset]; exact List.mem_map_of_mem (by decide))
/-- A buffer none of them writes keeps its contents through `hostOps4_1`. -/
theorem hostOps4_1_keep (W : Valuation τ sig (Elt Ideal)) (r : Ref sig .tc) (h : r ∉ hostOps4_1_W) :
    after hostOps4_1 W (Proc.devRef .tc r) = W (Proc.devRef .tc r) :=
  after_of_writes_sub hostOps4_1 W hostOps4_1_writes h

/-- The references the operations of `hostOps4_2` write, one per operation. -/
abbrev hostOps4_2_W : List (Ref sig .tc) := [main_v80, main_v81, main_v82, main_cst_13, main_v83, main_v84, main_v85, main_v86, main_v87, main_v88, main_v89, main_v90, main_v91, main_v92, main_v93, main_v94]
theorem hostOps4_2_writes : (hostOps4_2 : List (HloOp τ sig (Elt Ideal))).Forall fun op => op.writes ⊆ (hostOps4_2_W.map (Proc.devRef (τ := τ) .tc)).toFinset := by
  simp only [List.Forall]
  repeat' apply And.intro
  all_goals (simp only [StableHlo.nullary_writes, StableHlo.unary_writes, StableHlo.binary_writes, StableHlo.ternary_writes, Finset.singleton_subset_iff, List.mem_toFinset]; exact List.mem_map_of_mem (by decide))
/-- A buffer none of them writes keeps its contents through `hostOps4_2`. -/
theorem hostOps4_2_keep (W : Valuation τ sig (Elt Ideal)) (r : Ref sig .tc) (h : r ∉ hostOps4_2_W) :
    after hostOps4_2 W (Proc.devRef .tc r) = W (Proc.devRef .tc r) :=
  after_of_writes_sub hostOps4_2 W hostOps4_2_writes h

/-! ## Each stretch at the buffer it produces -/

/-- The column means of the product. -/
theorem a_mean (W : Valuation τ sig (Elt Ideal)) :
    after hostOps4 W (Proc.devRef .tc main_v78) = mean wit1024 (W (Proc.devRef .tc main_v75)) := by
  after_results
  try rfl

/-- The variance's correction: the integer zero. -/
theorem a_zero (W : Valuation τ sig (Elt Ideal)) :
    after hostOps4 W (Proc.devRef .tc main_c_12) = constantI S0 32 0#32 := by
  after_results
  try rfl

/-- The column variances of the product, at the correction found in `main_c_12`. -/
theorem b_var (W : Valuation τ sig (Elt Ideal)) :
    after hostOps4_1 W (Proc.devRef .tc main_v79) = variance wit1024 (W (Proc.devRef .tc main_v75)) (W (Proc.devRef .tc main_c_12)) := by
  after_results_simp
  try rfl

/-- The normalisation from the statistics found in `main_v78` and `main_v79`. -/
theorem c_norm (W : Valuation τ sig (Elt Ideal)) :
    after hostOps4_2 W (Proc.devRef .tc main_v94) = normCore wit1024 (W (Proc.devRef .tc main_v75)) (W (Proc.devRef .tc main_v78)) (W (Proc.devRef .tc main_v79)) (W (Proc.devRef .tc main_arg11)) (W (Proc.devRef .tc main_arg12)) := by
  after_results_simp
  try rfl

/-! ## The three stretches composed -/

/-- The result: the product normalised by its own column statistics. -/
theorem norm (W : Valuation τ sig (Elt Ideal)) :
    after hostOps4_2 (after hostOps4_1 (after hostOps4 W)) (Proc.devRef .tc main_v94) = normTail wit1024 (W (Proc.devRef .tc main_v75)) (W (Proc.devRef .tc main_arg11)) (W (Proc.devRef .tc main_arg12)) := by
  rw [c_norm, hostOps4_1_keep _ main_v75 (by decide), hostOps4_keep _ main_v75 (by decide), hostOps4_1_keep _ main_v78 (by decide), a_mean, b_var, hostOps4_keep _ main_v75 (by decide), a_zero,
    hostOps4_1_keep _ main_arg11 (by decide), hostOps4_keep _ main_arg11 (by decide), hostOps4_1_keep _ main_arg12 (by decide), hostOps4_keep _ main_arg12 (by decide)]
  try rfl

/-- A buffer none of the three stretches writes comes through unchanged. -/
theorem keep (W : Valuation τ sig (Elt Ideal)) (r : Ref sig .tc) (h0 : r ∉ hostOps4_W) (h1 : r ∉ hostOps4_1_W) (h2 : r ∉ hostOps4_2_W) :
    after hostOps4_2 (after hostOps4_1 (after hostOps4 W)) (Proc.devRef .tc r) = W (Proc.devRef .tc r) := by
  rw [hostOps4_2_keep _ r h2, hostOps4_1_keep _ r h1, hostOps4_keep _ r h0]

end Cert.KernelIdeal.KTail4

end
-- ==== Proof.LibMatmulZero.lean ====
/-
  A matrix product into the zero accumulator, read at one entry, at the ideal values.

  For ANY dimension numbers of an [R, K] × [K, C] → [R, C] product that contract the left operand's axis 1 with the
  right operand's axis 0 (one contracted axis, of extent K) and carry the left's axis 0 and the right's axis 1 to the
  result, any operand formats and any precision attribute: at the ideal values, `matmul` with the all-zero f32
  accumulator has, at entry (p, q), the value
      Σ_{k < K} l(p, k) · r(k, q).
  The sum over the contraction shape's one-axis index type is re-indexed over `Fin K`, and the operand indices the
  dimension numbers read at result entry (p, q) and contracted position k are (p, k) and (k, q).

  The two hypotheses `hl0` and `hr1` say that the result's axis 0 is the left operand's axis 0 and the result's axis 1
  the right operand's axis 1; for a printed record `D` (no batch axes) each is four lines:
      fun i c => by
        unfold DotDims.lhsIdx
        rw [dif_neg (show ¬(0 : Fin _) ∈ D.lhsBatch by decide), dif_pos (show (0 : Fin _) ∈ D.lhsNonContracting by decide)]
        rfl
  (and the same with `rhsIdx`, `1`, `rhsBatch`, `rhsNonContracting`); `hlc`, `hrc`, `hr`, `hs` are `rfl`.
  Imports only the library.
-/
import Idealize.ShloMosaic.PureOps.Ideal.Laws
import Idealize.ShloMosaic.Lib.ValueIdx

noncomputable section

namespace Cert.LibMatmulZero

open Idealize.ShloMosaic Idealize.ShloMosaic.ValueIdx

/-- `matmul D prec l r 0 (p, q) = Σ_k l(p, k) · r(k, q)` at the ideal values, for two-dimensional operands with one
    contracted axis. -/
theorem matmul_zero_ix2 {R K C : Nat} {φ₁ φ₂ : FTy} (D : DotDims ⟨2, ![R, K]⟩ ⟨2, ![K, C]⟩ ⟨2, ![R, C]⟩)
    (hlc : D.lhsContracting = [1]) (hrc : D.rhsContracting = [0]) (hr : D.contr.rank = 1)
    (hs : D.contr.size ⟨0, by omega⟩ = K)
    (hl0 : ∀ (i : (⟨2, ![R, C]⟩ : Shape).Idx) (c : D.contr.Idx), (D.lhsIdx i c 0).val = (i 0).val)
    (hr1 : ∀ (i : (⟨2, ![R, C]⟩ : Shape).Idx) (c : D.contr.Idx), (D.rhsIdx i c 1).val = (i 1).val)
    (prec : Option ContractPrecision)
    (l : FVec Ideal ⟨2, ![R, K]⟩ φ₁) (r : FVec Ideal ⟨2, ![K, C]⟩ φ₂) (p : Fin R) (q : Fin C) :
    matmul D prec l r (constant ⟨2, ![R, C]⟩ .f32 0x00000000#32) (ix2 p q) = ∑ k : Fin K, l (ix2 p k) * r (ix2 k q) := by
  refine (Ideal.matmul_constant_zero_apply D prec l r (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k :=
    funext fun a => Fin.ext (by
      match a with
      | ⟨0, _⟩ => exact hl0 _ _
      | ⟨1, _⟩ => exact (D.lhsIdx_val_of_single hlc _ _).trans hk)
  have er : D.rhsIdx (ix2 p q) ((contrEquiv1 D K hr hs).symm k) = ix2 k q :=
    funext fun a => Fin.ext (by
      match a with
      | ⟨0, _⟩ => exact (D.rhsIdx_val_of_single hrc _ _).trans hk
      | ⟨1, _⟩ => exact hr1 _ _)
  rw [el, er]

end Cert.LibMatmulZero

end
-- ==== Proof.KPay.lean ====
/-
  What one grid point of each matrix-product kernel computes, at the ideal values: the body loads a 1024 × 4096 block
  of activations x and a 1024 × 4096 block of weight signs s, transposes the second, and multiplies into a zero
  accumulator; entry (p, q) of the 1024 × 1024 result is Σ_k x(p, k) · s(q, k) — the product `mm x s` of the two blocks.
  (The four kernels are one text; the lemma is stated once for the body's term and cited for each.)
-/
import proofs.«161644_j58961311039944_1_alg».proof.Proof.Gen.KernelIdeal.Skeleton
import proofs.«161644_j58961311039944_1_alg».proof.Proof.Spec
import proofs.«161644_j58961311039944_1_alg».proof.Proof.LibMatmulZero
import Idealize.ShloMosaic.Lib.Pipeline.Value

noncomputable section

namespace Cert.KernelIdeal.KPay

open Cert.KernelIdeal Cert.KernelIdeal.Gen Idealize.ShloMosaic Idealize.ShloMosaic.ValueIdx
open Cert.Bnn Cert.LibMatmulZero
open scoped BigOperators

/-- The result's row is the left operand's row (no batch axes: the free axis 0). -/
theorem lhs_row (i : S1024x1024.Idx) (c : dot_S1024x4096_S4096x1024_S1024x1024_1_0_0_1_n_n.contr.Idx) :
    (dot_S1024x4096_S4096x1024_S1024x1024_1_0_0_1_n_n.lhsIdx i c 0).val = (i 0).val := by
  unfold DotDims.lhsIdx
  rw [dif_neg (show ¬(0 : Fin _) ∈ dot_S1024x4096_S4096x1024_S1024x1024_1_0_0_1_n_n.lhsBatch by decide),
    dif_pos (show (0 : Fin _) ∈ dot_S1024x4096_S4096x1024_S1024x1024_1_0_0_1_n_n.lhsNonContracting by decide)]
  rfl

/-- The result's column is the right operand's column (the free axis 1). -/
theorem rhs_col (i : S1024x1024.Idx) (c : dot_S1024x4096_S4096x1024_S1024x1024_1_0_0_1_n_n.contr.Idx) :
    (dot_S1024x4096_S4096x1024_S1024x1024_1_0_0_1_n_n.rhsIdx i c 1).val = (i 1).val := by
  unfold DotDims.rhsIdx
  rw [dif_neg (show ¬(1 : Fin _) ∈ dot_S1024x4096_S4096x1024_S1024x1024_1_0_0_1_n_n.rhsBatch by decide),
    dif_pos (show (1 : Fin _) ∈ dot_S1024x4096_S4096x1024_S1024x1024_1_0_0_1_n_n.rhsNonContracting by decide)]
  rfl

/-- The body's term: the product of the first block with the transposed second block into zero is `mm`. -/
theorem body_eq (x0 x1 : FVec Ideal S1024x4096 .bf16) :
    matmul dot_S1024x4096_S4096x1024_S1024x1024_1_0_0_1_n_n none
        (shapeCast S1024x4096 x0 Facts₀.shapeCasts_S1024x4096_S1024x4096)
        (transpose S4096x1024 [1, 0] (shapeCast S1024x4096 x1 Facts₀.shapeCasts_S1024x4096_S1024x4096) Facts₀.transposes_S1024x4096_p1_0_S4096x1024)
        (constant S1024x1024 .f32 0x00000000#32)
      = mm x0 x1 := by
  funext j
  obtain ⟨p, q, rfl⟩ : ∃ (p : Fin 1024) (q : Fin 1024), j = ix2 p q := ⟨j 0, j 1, eq_ix2 j⟩
  refine (matmul_zero_ix2 dot_S1024x4096_S4096x1024_S1024x1024_1_0_0_1_n_n rfl rfl rfl rfl lhs_row rhs_col none _ _ p q).trans ?_
  rw [mm_apply]
  refine Finset.sum_congr rfl fun k _ => ?_
  rw [shapeCast_self, shapeCast_self]
  refine congrArg _ ?_
  exact transpose_apply _ _ _ (ix2 k q) (ix2 q k) (fun b => by match b with | ⟨0, _⟩ => rfl | ⟨1, _⟩ => rfl)

theorem pay0 (x0 x1 : Vec Ideal S1024x4096 .bf16) : k0_pay1 (F := Ideal) x0 x1 = mm (φ₁ := .bf16) (φ₂ := .bf16) x0 x1 := by
  unfold k0_pay1; exact body_eq x0 x1
theorem pay1 (x0 x1 : Vec Ideal S1024x4096 .bf16) : k1_pay1 (F := Ideal) x0 x1 = mm (φ₁ := .bf16) (φ₂ := .bf16) x0 x1 := by
  unfold k1_pay1; exact body_eq x0 x1
theorem pay2 (x0 x1 : Vec Ideal S1024x4096 .bf16) : k2_pay1 (F := Ideal) x0 x1 = mm (φ₁ := .bf16) (φ₂ := .bf16) x0 x1 := by
  unfold k2_pay1; exact body_eq x0 x1
theorem pay3 (x0 x1 : Vec Ideal S1024x4096 .bf16) : k3_pay1 (F := Ideal) x0 x1 = mm (φ₁ := .bf16) (φ₂ := .bf16) x0 x1 := by
  unfold k3_pay1; exact body_eq x0 x1

end Cert.KernelIdeal.KPay

end
-- ==== Proof.KRegion0.lean ====
/-
  The array matrix product 0 leaves, at the ideal values, from ANY contents `V` of the buffers when its region is entered.

  The grid is 4 × 4 (column block j outer, row block i inner); at point t the kernel reads row block i(t) of the activations (1024 rows, all 4096 columns),
  row block j(t) of the weight signs (1024 rows, all 4096 columns) and writes block (i(t), j(t)) of the result
  (1024 × 1024).  What a point writes is the product `mm` of its two input blocks, and entry (p, q) of `mm x s` depends on
  row p of x and row q of s only, so the block a point writes IS the corresponding block of `mm` of the two whole arrays;
  the blocks (i, j) cover the result, so the result array ends as `mm` of the two input arrays.
-/
import proofs.«161644_j58961311039944_1_alg».proof.Proof.Gen.KernelIdeal.Frame
import proofs.«161644_j58961311039944_1_alg».proof.Proof.KPay

set_option maxRecDepth 16384

noncomputable section

namespace Cert.KernelIdeal.KRegion0

open Cert.KernelIdeal Cert.KernelIdeal.Gen Idealize.ShloMosaic Idealize.ShloMosaic.TcCoe Idealize.ShloMosaic.ValueIdx Idealize.SL.Sem
open Idealize.ShloMosaic.Pipeline (Dat Cfg Window)
open Cert.Bnn
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the activations' row block is the result's row block, the weights' row block
    the result's column block, both inputs take all columns, and the result's block indices stay in range. -/
theorem idx_facts : ∀ t : Fin cfg0.N,
    win0_0.index t (0 : Fin 2) = win0_2.index t (0 : Fin 2) ∧ win0_0.index t (1 : Fin 2) = 0
    ∧ win0_1.index t (0 : Fin 2) = win0_2.index t (1 : Fin 2) ∧ win0_1.index t (1 : Fin 2) = 0
    ∧ win0_2.index t (0 : Fin 2) ≤ 3 ∧ win0_2.index t (1 : Fin 2) ≤ 3 :=
  (by decide +kernel : ∀ t : Fin grid0.N, _)

/-- Every block of the result is some point's. -/
theorem idx_onto : ∀ (q0 : Fin 4) (q1 : Fin 4), ∃ t : Fin cfg0.N, win0_2.index t = ![q0.val, q1.val] :=
  (by decide +kernel : ∀ (q0 : Fin 4) (q1 : Fin 4), ∃ t : Fin grid0.N, win0_2.index t = ![q0.val, q1.val])

/-- What point `t` writes back is block `t` of the product of the two whole input arrays. -/
theorem flushed_eq (c : Dev nD) (t : Fin cfg0.N) :
    (dat0 (F := Ideal) V c).flushed 2 t
      = ((cfg0.win 2).blk t).view.read (Elt Ideal) (mm (φ₁ := .bf16) (φ₂ := .bf16) (V c main_v0) (V c main_v2)) := by
  show (cfg0.win 2).cut (grid0.coords t) ((dat0 (F := Ideal) V c).after 2 t) = _
  rw [after0_2]
  unfold out0_2
  rw [View.canon_unit_zero hz]
  simp only [View.ld_unit_zero (S := S1024x4096) hz]
  rw [KPay.pay0]
  obtain ⟨e0, e1, e2, e3, -, -⟩ := idx_facts t
  funext j
  show mm (φ₁ := .bf16) (φ₂ := .bf16) (iblk0 V c 0 t) (iblk0 V c 1 t) j
    = mm (φ₁ := .bf16) (φ₂ := .bf16) (V c main_v0) (V c main_v2) (((cfg0.win 2).blk t).view.emb j)
  refine mm_block (φ₁ := .bf16) (φ₂ := .bf16) (V c main_v0) (V c main_v2) (iblk0 V c 0 t) (iblk0 V c 1 t)
    (win0_2.index t (0 : Fin 2)) (win0_2.index t (1 : Fin 2)) _ j ?_ ?_ ?_ ?_
  · intro p k P hP
    show V c main_v0 (((cfg0.win 0).blk t).view.emb (ix2 p k)) = V c main_v0 (ix2 P k)
    refine congrArg _ (funext fun a => Fin.ext ?_)
    match a with
    | ⟨0, _⟩ => show win0_0.index t (0 : Fin 2) * 1024 + 1 * p.val = P.val; omega
    | ⟨1, _⟩ => show win0_0.index t (1 : Fin 2) * 4096 + 1 * k.val = k.val; omega
  · intro q k Q hQ
    show V c main_v2 (((cfg0.win 1).blk t).view.emb (ix2 q k)) = V c main_v2 (ix2 Q k)
    refine congrArg _ (funext fun a => Fin.ext ?_)
    match a with
    | ⟨0, _⟩ => show win0_1.index t (0 : Fin 2) * 1024 + 1 * q.val = Q.val; omega
    | ⟨1, _⟩ => show win0_1.index t (1 : Fin 2) * 4096 + 1 * k.val = k.val; omega
  · show win0_2.index t (0 : Fin 2) * 1024 + 1 * (j 0).val = win0_2.index t (0 : Fin 2) * 1024 + (j 0).val; omega
  · show win0_2.index t (1 : Fin 2) * 1024 + 1 * (j 1).val = win0_2.index t (1 : Fin 2) * 1024 + (j 1).val; omega

/-- An index of the result is in point `t`'s block iff each coordinate is in the block's range on its axis. -/
theorem mem_blk (t : Fin cfg0.N) (i : S4096x4096.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v3).slice (win0_2.rect t)).set ↔ _
  rw [View.set_slice_whole, Rect.mem_set_unit]
  exact Iff.rfl

/-- Every index of the result is in the block of the point whose block indices are its coordinates divided by 1024. -/
theorem cover (i : S4096x4096.Idx) :
    ∃ t : Fin cfg0.N, (cfg0.win 2).flush t = true ∧ i ∈ ((cfg0.win 2).blk t).view.set := by
  have hi0 : (i 0).val < 4096 := (i 0).isLt
  have hi1 : (i 1).val < 4096 := (i 1).isLt
  obtain ⟨t, ht⟩ := idx_onto ⟨(i 0).val / 1024, by omega⟩ ⟨(i 1).val / 1024, by omega⟩
  have q0 : win0_2.index t (0 : Fin 2) = (i 0).val / 1024 := congrFun ht 0
  have q1 : win0_2.index t (1 : Fin 2) = (i 1).val / 1024 := congrFun ht 1
  refine ⟨t, flush0_2 t, ?_⟩
  rw [mem_blk]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 1024 ≤ (i 1).val ∧ (i 1).val < win0_2.index t (1 : Fin 2) * 1024 + 1024; omega

/-- The result array after the region: the product of the two input arrays as the region found them. -/
theorem final (c : Dev nD) :
    (dat0 (F := Ideal) V c).arrAt 2 cfg0.N = mm (φ₁ := .bf16) (φ₂ := .bf16) (V c main_v0) (V c main_v2) :=
  (dat0 (F := Ideal) V c).arrAt_eq_of_cover 2 _ (fun t _ => flushed_eq V c t) cover

end Cert.KernelIdeal.KRegion0

end
-- ==== Proof.KRegion1.lean ====
/-
  The array matrix product 1 leaves, at the ideal values, from ANY contents `V` of the buffers when its region is entered.

  The grid is 4 × 4 (column block j outer, row block i inner); at point t the kernel reads row block i(t) of the activations (1024 rows, all 4096 columns),
  row block j(t) of the weight signs (1024 rows, all 4096 columns) and writes block (i(t), j(t)) of the result
  (1024 × 1024).  What a point writes is the product `mm` of its two input blocks, and entry (p, q) of `mm x s` depends on
  row p of x and row q of s only, so the block a point writes IS the corresponding block of `mm` of the two whole arrays;
  the blocks (i, j) cover the result, so the result array ends as `mm` of the two input arrays.
-/
import proofs.«161644_j58961311039944_1_alg».proof.Proof.Gen.KernelIdeal.Frame
import proofs.«161644_j58961311039944_1_alg».proof.Proof.KPay

set_option maxRecDepth 16384

noncomputable section

namespace Cert.KernelIdeal.KRegion1

open Cert.KernelIdeal Cert.KernelIdeal.Gen Idealize.ShloMosaic Idealize.ShloMosaic.TcCoe Idealize.ShloMosaic.ValueIdx Idealize.SL.Sem
open Idealize.ShloMosaic.Pipeline (Dat Cfg Window)
open Cert.Bnn
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the activations' row block is the result's row block, the weights' row block
    the result's column block, both inputs take all columns, and the result's block indices stay in range. -/
theorem idx_facts : ∀ t : Fin cfg1.N,
    win1_0.index t (0 : Fin 2) = win1_2.index t (0 : Fin 2) ∧ win1_0.index t (1 : Fin 2) = 0
    ∧ win1_1.index t (0 : Fin 2) = win1_2.index t (1 : Fin 2) ∧ win1_1.index t (1 : Fin 2) = 0
    ∧ win1_2.index t (0 : Fin 2) ≤ 3 ∧ win1_2.index t (1 : Fin 2) ≤ 3 :=
  (by decide +kernel : ∀ t : Fin grid1.N, _)

/-- Every block of the result is some point's. -/
theorem idx_onto : ∀ (q0 : Fin 4) (q1 : Fin 4), ∃ t : Fin cfg1.N, win1_2.index t = ![q0.val, q1.val] :=
  (by decide +kernel : ∀ (q0 : Fin 4) (q1 : Fin 4), ∃ t : Fin grid1.N, win1_2.index t = ![q0.val, q1.val])

/-- What point `t` writes back is block `t` of the product of the two whole input arrays. -/
theorem flushed_eq (c : Dev nD) (t : Fin cfg1.N) :
    (dat1 (F := Ideal) V c).flushed 2 t
      = ((cfg1.win 2).blk t).view.read (Elt Ideal) (mm (φ₁ := .bf16) (φ₂ := .bf16) (V c main_v24) (V c main_v26)) := by
  show (cfg1.win 2).cut (grid1.coords t) ((dat1 (F := Ideal) V c).after 2 t) = _
  rw [after1_2]
  unfold out1_2
  rw [View.canon_unit_zero hz]
  simp only [View.ld_unit_zero (S := S1024x4096) hz]
  rw [KPay.pay1]
  obtain ⟨e0, e1, e2, e3, -, -⟩ := idx_facts t
  funext j
  show mm (φ₁ := .bf16) (φ₂ := .bf16) (iblk1 V c 0 t) (iblk1 V c 1 t) j
    = mm (φ₁ := .bf16) (φ₂ := .bf16) (V c main_v24) (V c main_v26) (((cfg1.win 2).blk t).view.emb j)
  refine mm_block (φ₁ := .bf16) (φ₂ := .bf16) (V c main_v24) (V c main_v26) (iblk1 V c 0 t) (iblk1 V c 1 t)
    (win1_2.index t (0 : Fin 2)) (win1_2.index t (1 : Fin 2)) _ j ?_ ?_ ?_ ?_
  · intro p k P hP
    show V c main_v24 (((cfg1.win 0).blk t).view.emb (ix2 p k)) = V c main_v24 (ix2 P k)
    refine congrArg _ (funext fun a => Fin.ext ?_)
    match a with
    | ⟨0, _⟩ => show win1_0.index t (0 : Fin 2) * 1024 + 1 * p.val = P.val; omega
    | ⟨1, _⟩ => show win1_0.index t (1 : Fin 2) * 4096 + 1 * k.val = k.val; omega
  · intro q k Q hQ
    show V c main_v26 (((cfg1.win 1).blk t).view.emb (ix2 q k)) = V c main_v26 (ix2 Q k)
    refine congrArg _ (funext fun a => Fin.ext ?_)
    match a with
    | ⟨0, _⟩ => show win1_1.index t (0 : Fin 2) * 1024 + 1 * q.val = Q.val; omega
    | ⟨1, _⟩ => show win1_1.index t (1 : Fin 2) * 4096 + 1 * k.val = k.val; omega
  · show win1_2.index t (0 : Fin 2) * 1024 + 1 * (j 0).val = win1_2.index t (0 : Fin 2) * 1024 + (j 0).val; omega
  · show win1_2.index t (1 : Fin 2) * 1024 + 1 * (j 1).val = win1_2.index t (1 : Fin 2) * 1024 + (j 1).val; omega

/-- An index of the result is in point `t`'s block iff each coordinate is in the block's range on its axis. -/
theorem mem_blk (t : Fin cfg1.N) (i : S4096x4096.Idx) :
    i ∈ ((cfg1.win 2).blk t).view.set ↔ ∀ a : Fin 2, win1_2.index t a * S1024x1024.size a ≤ (i a).val ∧ (i a).val < win1_2.index t a * S1024x1024.size a + S1024x1024.size a := by
  show i ∈ ((View.whole main_v27).slice (win1_2.rect t)).set ↔ _
  rw [View.set_slice_whole, Rect.mem_set_unit]
  exact Iff.rfl

/-- Every index of the result is in the block of the point whose block indices are its coordinates divided by 1024. -/
theorem cover (i : S4096x4096.Idx) :
    ∃ t : Fin cfg1.N, (cfg1.win 2).flush t = true ∧ i ∈ ((cfg1.win 2).blk t).view.set := by
  have hi0 : (i 0).val < 4096 := (i 0).isLt
  have hi1 : (i 1).val < 4096 := (i 1).isLt
  obtain ⟨t, ht⟩ := idx_onto ⟨(i 0).val / 1024, by omega⟩ ⟨(i 1).val / 1024, by omega⟩
  have q0 : win1_2.index t (0 : Fin 2) = (i 0).val / 1024 := congrFun ht 0
  have q1 : win1_2.index t (1 : Fin 2) = (i 1).val / 1024 := congrFun ht 1
  refine ⟨t, flush1_2 t, ?_⟩
  rw [mem_blk]
  intro a
  match a with
  | ⟨0, _⟩ => show win1_2.index t (0 : Fin 2) * 1024 ≤ (i 0).val ∧ (i 0).val < win1_2.index t (0 : Fin 2) * 1024 + 1024; omega
  | ⟨1, _⟩ => show win1_2.index t (1 : Fin 2) * 1024 ≤ (i 1).val ∧ (i 1).val < win1_2.index t (1 : Fin 2) * 1024 + 1024; omega

/-- The result array after the region: the product of the two input arrays as the region found them. -/
theorem final (c : Dev nD) :
    (dat1 (F := Ideal) V c).arrAt 2 cfg1.N = mm (φ₁ := .bf16) (φ₂ := .bf16) (V c main_v24) (V c main_v26) :=
  (dat1 (F := Ideal) V c).arrAt_eq_of_cover 2 _ (fun t _ => flushed_eq V c t) cover

end Cert.KernelIdeal.KRegion1

end
-- ==== Proof.KRegion2.lean ====
/-
  The array matrix product 2 leaves, at the ideal values, from ANY contents `V` of the buffers when its region is entered.

  The grid is 4 × 4 (column block j outer, row block i inner); at point t the kernel reads row block i(t) of the activations (1024 rows, all 4096 columns),
  row block j(t) of the weight signs (1024 rows, all 4096 columns) and writes block (i(t), j(t)) of the result
  (1024 × 1024).  What a point writes is the product `mm` of its two input blocks, and entry (p, q) of `mm x s` depends on
  row p of x and row q of s only, so the block a point writes IS the corresponding block of `mm` of the two whole arrays;
  the blocks (i, j) cover the result, so the result array ends as `mm` of the two input arrays.
-/
import proofs.«161644_j58961311039944_1_alg».proof.Proof.Gen.KernelIdeal.Frame
import proofs.«161644_j58961311039944_1_alg».proof.Proof.KPay

set_option maxRecDepth 16384

noncomputable section

namespace Cert.KernelIdeal.KRegion2

open Cert.KernelIdeal Cert.KernelIdeal.Gen Idealize.ShloMosaic Idealize.ShloMosaic.TcCoe Idealize.ShloMosaic.ValueIdx Idealize.SL.Sem
open Idealize.ShloMosaic.Pipeline (Dat Cfg Window)
open Cert.Bnn
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the activations' row block is the result's row block, the weights' row block
    the result's column block, both inputs take all columns, and the result's block indices stay in range. -/
theorem idx_facts : ∀ t : Fin cfg2.N,
    win2_0.index t (0 : Fin 2) = win2_2.index t (0 : Fin 2) ∧ win2_0.index t (1 : Fin 2) = 0
    ∧ win2_1.index t (0 : Fin 2) = win2_2.index t (1 : Fin 2) ∧ win2_1.index t (1 : Fin 2) = 0
    ∧ win2_2.index t (0 : Fin 2) ≤ 3 ∧ win2_2.index t (1 : Fin 2) ≤ 3 :=
  (by decide +kernel : ∀ t : Fin grid2.N, _)

/-- Every block of the result is some point's. -/
theorem idx_onto : ∀ (q0 : Fin 4) (q1 : Fin 4), ∃ t : Fin cfg2.N, win2_2.index t = ![q0.val, q1.val] :=
  (by decide +kernel : ∀ (q0 : Fin 4) (q1 : Fin 4), ∃ t : Fin grid2.N, win2_2.index t = ![q0.val, q1.val])

/-- What point `t` writes back is block `t` of the product of the two whole input arrays. -/
theorem flushed_eq (c : Dev nD) (t : Fin cfg2.N) :
    (dat2 (F := Ideal) V c).flushed 2 t
      = ((cfg2.win 2).blk t).view.read (Elt Ideal) (mm (φ₁ := .bf16) (φ₂ := .bf16) (V c main_v48) (V c main_v50)) := by
  show (cfg2.win 2).cut (grid2.coords t) ((dat2 (F := Ideal) V c).after 2 t) = _
  rw [after2_2]
  unfold out2_2
  rw [View.canon_unit_zero hz]
  simp only [View.ld_unit_zero (S := S1024x4096) hz]
  rw [KPay.pay2]
  obtain ⟨e0, e1, e2, e3, -, -⟩ := idx_facts t
  funext j
  show mm (φ₁ := .bf16) (φ₂ := .bf16) (iblk2 V c 0 t) (iblk2 V c 1 t) j
    = mm (φ₁ := .bf16) (φ₂ := .bf16) (V c main_v48) (V c main_v50) (((cfg2.win 2).blk t).view.emb j)
  refine mm_block (φ₁ := .bf16) (φ₂ := .bf16) (V c main_v48) (V c main_v50) (iblk2 V c 0 t) (iblk2 V c 1 t)
    (win2_2.index t (0 : Fin 2)) (win2_2.index t (1 : Fin 2)) _ j ?_ ?_ ?_ ?_
  · intro p k P hP
    show V c main_v48 (((cfg2.win 0).blk t).view.emb (ix2 p k)) = V c main_v48 (ix2 P k)
    refine congrArg _ (funext fun a => Fin.ext ?_)
    match a with
    | ⟨0, _⟩ => show win2_0.index t (0 : Fin 2) * 1024 + 1 * p.val = P.val; omega
    | ⟨1, _⟩ => show win2_0.index t (1 : Fin 2) * 4096 + 1 * k.val = k.val; omega
  · intro q k Q hQ
    show V c main_v50 (((cfg2.win 1).blk t).view.emb (ix2 q k)) = V c main_v50 (ix2 Q k)
    refine congrArg _ (funext fun a => Fin.ext ?_)
    match a with
    | ⟨0, _⟩ => show win2_1.index t (0 : Fin 2) * 1024 + 1 * q.val = Q.val; omega
    | ⟨1, _⟩ => show win2_1.index t (1 : Fin 2) * 4096 + 1 * k.val = k.val; omega
  · show win2_2.index t (0 : Fin 2) * 1024 + 1 * (j 0).val = win2_2.index t (0 : Fin 2) * 1024 + (j 0).val; omega
  · show win2_2.index t (1 : Fin 2) * 1024 + 1 * (j 1).val = win2_2.index t (1 : Fin 2) * 1024 + (j 1).val; omega

/-- An index of the result is in point `t`'s block iff each coordinate is in the block's range on its axis. -/
theorem mem_blk (t : Fin cfg2.N) (i : S4096x4096.Idx) :
    i ∈ ((cfg2.win 2).blk t).view.set ↔ ∀ a : Fin 2, win2_2.index t a * S1024x1024.size a ≤ (i a).val ∧ (i a).val < win2_2.index t a * S1024x1024.size a + S1024x1024.size a := by
  show i ∈ ((View.whole main_v51).slice (win2_2.rect t)).set ↔ _
  rw [View.set_slice_whole, Rect.mem_set_unit]
  exact Iff.rfl

/-- Every index of the result is in the block of the point whose block indices are its coordinates divided by 1024. -/
theorem cover (i : S4096x4096.Idx) :
    ∃ t : Fin cfg2.N, (cfg2.win 2).flush t = true ∧ i ∈ ((cfg2.win 2).blk t).view.set := by
  have hi0 : (i 0).val < 4096 := (i 0).isLt
  have hi1 : (i 1).val < 4096 := (i 1).isLt
  obtain ⟨t, ht⟩ := idx_onto ⟨(i 0).val / 1024, by omega⟩ ⟨(i 1).val / 1024, by omega⟩
  have q0 : win2_2.index t (0 : Fin 2) = (i 0).val / 1024 := congrFun ht 0
  have q1 : win2_2.index t (1 : Fin 2) = (i 1).val / 1024 := congrFun ht 1
  refine ⟨t, flush2_2 t, ?_⟩
  rw [mem_blk]
  intro a
  match a with
  | ⟨0, _⟩ => show win2_2.index t (0 : Fin 2) * 1024 ≤ (i 0).val ∧ (i 0).val < win2_2.index t (0 : Fin 2) * 1024 + 1024; omega
  | ⟨1, _⟩ => show win2_2.index t (1 : Fin 2) * 1024 ≤ (i 1).val ∧ (i 1).val < win2_2.index t (1 : Fin 2) * 1024 + 1024; omega

/-- The result array after the region: the product of the two input arrays as the region found them. -/
theorem final (c : Dev nD) :
    (dat2 (F := Ideal) V c).arrAt 2 cfg2.N = mm (φ₁ := .bf16) (φ₂ := .bf16) (V c main_v48) (V c main_v50) :=
  (dat2 (F := Ideal) V c).arrAt_eq_of_cover 2 _ (fun t _ => flushed_eq V c t) cover

end Cert.KernelIdeal.KRegion2

end
-- ==== Proof.KRegion3.lean ====
/-
  The array matrix product 3 leaves, at the ideal values, from ANY contents `V` of the buffers when its region is entered.

  The grid is 1 × 4 (one column block, row block i inner); at point t the kernel reads row block i(t) of the activations (1024 rows, all 4096 columns),
  row block j(t) of the weight signs (1024 rows, all 4096 columns) and writes block (i(t), j(t)) of the result
  (1024 × 1024).  What a point writes is the product `mm` of its two input blocks, and entry (p, q) of `mm x s` depends on
  row p of x and row q of s only, so the block a point writes IS the corresponding block of `mm` of the two whole arrays;
  the blocks (i, j) cover the result, so the result array ends as `mm` of the two input arrays.
-/
import proofs.«161644_j58961311039944_1_alg».proof.Proof.Gen.KernelIdeal.Frame
import proofs.«161644_j58961311039944_1_alg».proof.Proof.KPay

set_option maxRecDepth 16384

noncomputable section

namespace Cert.KernelIdeal.KRegion3

open Cert.KernelIdeal Cert.KernelIdeal.Gen Idealize.ShloMosaic Idealize.ShloMosaic.TcCoe Idealize.ShloMosaic.ValueIdx Idealize.SL.Sem
open Idealize.ShloMosaic.Pipeline (Dat Cfg Window)
open Cert.Bnn
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the activations' row block is the result's row block, the weights' row block
    the result's column block, both inputs take all columns, and the result's block indices stay in range. -/
theorem idx_facts : ∀ t : Fin cfg3.N,
    win3_0.index t (0 : Fin 2) = win3_2.index t (0 : Fin 2) ∧ win3_0.index t (1 : Fin 2) = 0
    ∧ win3_1.index t (0 : Fin 2) = win3_2.index t (1 : Fin 2) ∧ win3_1.index t (1 : Fin 2) = 0
    ∧ win3_2.index t (0 : Fin 2) ≤ 3 ∧ win3_2.index t (1 : Fin 2) ≤ 0 :=
  (by decide +kernel : ∀ t : Fin grid3.N, _)

/-- Every block of the result is some point's. -/
theorem idx_onto : ∀ (q0 : Fin 4) (q1 : Fin 1), ∃ t : Fin cfg3.N, win3_2.index t = ![q0.val, q1.val] :=
  (by decide +kernel : ∀ (q0 : Fin 4) (q1 : Fin 1), ∃ t : Fin grid3.N, win3_2.index t = ![q0.val, q1.val])

/-- What point `t` writes back is block `t` of the product of the two whole input arrays. -/
theorem flushed_eq (c : Dev nD) (t : Fin cfg3.N) :
    (dat3 (F := Ideal) V c).flushed 2 t
      = ((cfg3.win 2).blk t).view.read (Elt Ideal) (mm (φ₁ := .bf16) (φ₂ := .bf16) (V c main_v72) (V c main_v74)) := by
  show (cfg3.win 2).cut (grid3.coords t) ((dat3 (F := Ideal) V c).after 2 t) = _
  rw [after3_2]
  unfold out3_2
  rw [View.canon_unit_zero hz]
  simp only [View.ld_unit_zero (S := S1024x4096) hz]
  rw [KPay.pay3]
  obtain ⟨e0, e1, e2, e3, -, -⟩ := idx_facts t
  funext j
  show mm (φ₁ := .bf16) (φ₂ := .bf16) (iblk3 V c 0 t) (iblk3 V c 1 t) j
    = mm (φ₁ := .bf16) (φ₂ := .bf16) (V c main_v72) (V c main_v74) (((cfg3.win 2).blk t).view.emb j)
  refine mm_block (φ₁ := .bf16) (φ₂ := .bf16) (V c main_v72) (V c main_v74) (iblk3 V c 0 t) (iblk3 V c 1 t)
    (win3_2.index t (0 : Fin 2)) (win3_2.index t (1 : Fin 2)) _ j ?_ ?_ ?_ ?_
  · intro p k P hP
    show V c main_v72 (((cfg3.win 0).blk t).view.emb (ix2 p k)) = V c main_v72 (ix2 P k)
    refine congrArg _ (funext fun a => Fin.ext ?_)
    match a with
    | ⟨0, _⟩ => show win3_0.index t (0 : Fin 2) * 1024 + 1 * p.val = P.val; omega
    | ⟨1, _⟩ => show win3_0.index t (1 : Fin 2) * 4096 + 1 * k.val = k.val; omega
  · intro q k Q hQ
    show V c main_v74 (((cfg3.win 1).blk t).view.emb (ix2 q k)) = V c main_v74 (ix2 Q k)
    refine congrArg _ (funext fun a => Fin.ext ?_)
    match a with
    | ⟨0, _⟩ => show win3_1.index t (0 : Fin 2) * 1024 + 1 * q.val = Q.val; omega
    | ⟨1, _⟩ => show win3_1.index t (1 : Fin 2) * 4096 + 1 * k.val = k.val; omega
  · show win3_2.index t (0 : Fin 2) * 1024 + 1 * (j 0).val = win3_2.index t (0 : Fin 2) * 1024 + (j 0).val; omega
  · show win3_2.index t (1 : Fin 2) * 1024 + 1 * (j 1).val = win3_2.index t (1 : Fin 2) * 1024 + (j 1).val; omega

/-- An index of the result is in point `t`'s block iff each coordinate is in the block's range on its axis. -/
theorem mem_blk (t : Fin cfg3.N) (i : S4096x1024.Idx) :
    i ∈ ((cfg3.win 2).blk t).view.set ↔ ∀ a : Fin 2, win3_2.index t a * S1024x1024.size a ≤ (i a).val ∧ (i a).val < win3_2.index t a * S1024x1024.size a + S1024x1024.size a := by
  show i ∈ ((View.whole main_v75).slice (win3_2.rect t)).set ↔ _
  rw [View.set_slice_whole, Rect.mem_set_unit]
  exact Iff.rfl

/-- Every index of the result is in the block of the point whose block indices are its coordinates divided by 1024. -/
theorem cover (i : S4096x1024.Idx) :
    ∃ t : Fin cfg3.N, (cfg3.win 2).flush t = true ∧ i ∈ ((cfg3.win 2).blk t).view.set := by
  have hi0 : (i 0).val < 4096 := (i 0).isLt
  have hi1 : (i 1).val < 1024 := (i 1).isLt
  obtain ⟨t, ht⟩ := idx_onto ⟨(i 0).val / 1024, by omega⟩ ⟨(i 1).val / 1024, by omega⟩
  have q0 : win3_2.index t (0 : Fin 2) = (i 0).val / 1024 := congrFun ht 0
  have q1 : win3_2.index t (1 : Fin 2) = (i 1).val / 1024 := congrFun ht 1
  refine ⟨t, flush3_2 t, ?_⟩
  rw [mem_blk]
  intro a
  match a with
  | ⟨0, _⟩ => show win3_2.index t (0 : Fin 2) * 1024 ≤ (i 0).val ∧ (i 0).val < win3_2.index t (0 : Fin 2) * 1024 + 1024; omega
  | ⟨1, _⟩ => show win3_2.index t (1 : Fin 2) * 1024 ≤ (i 1).val ∧ (i 1).val < win3_2.index t (1 : Fin 2) * 1024 + 1024; omega

/-- The result array after the region: the product of the two input arrays as the region found them. -/
theorem final (c : Dev nD) :
    (dat3 (F := Ideal) V c).arrAt 2 cfg3.N = mm (φ₁ := .bf16) (φ₂ := .bf16) (V c main_v72) (V c main_v74) :=
  (dat3 (F := Ideal) V c).arrAt_eq_of_cover 2 _ (fun t _ => flushed_eq V c t) cover

end Cert.KernelIdeal.KRegion3

end
-- ==== Proof.KValue.lean ====
/-
  The idealized kernel program's result buffer as the network `Spec.net` of the argument arrays.

  The last boundary's contents are read back through @main: each stretch of host operations by its stage lemmas, each
  region's result array by its product lemma at the region's entry contents, the argument buffers unchanged all the
  way (no stretch and no region writes one).  Layer by layer: the product array of layer ℓ is `mm` of the previous
  activation with the signs of the layer's weights (the change to the matrix unit's format is the identity on ideal
  values), the activation after it the sign of its normalisation, and the result the last layer's normalisation.
-/
import proofs.«161644_j58961311039944_1_alg».proof.Proof.Gen.KernelIdeal.Frame
import proofs.«161644_j58961311039944_1_alg».proof.Proof.KHead
import proofs.«161644_j58961311039944_1_alg».proof.Proof.KTail1
import proofs.«161644_j58961311039944_1_alg».proof.Proof.KTail2
import proofs.«161644_j58961311039944_1_alg».proof.Proof.KTail3
import proofs.«161644_j58961311039944_1_alg».proof.Proof.KTail4
import proofs.«161644_j58961311039944_1_alg».proof.Proof.KRegion0
import proofs.«161644_j58961311039944_1_alg».proof.Proof.KRegion1
import proofs.«161644_j58961311039944_1_alg».proof.Proof.KRegion2
import proofs.«161644_j58961311039944_1_alg».proof.Proof.KRegion3

set_option maxRecDepth 16384

noncomputable section

namespace Cert.KernelIdeal.KValue

open Cert.KernelIdeal Cert.KernelIdeal.Gen Idealize.ShloMosaic Idealize.ShloMosaic.TcCoe Idealize.SL.Sem Idealize.ShloMosaic.StableHlo
open Cert.Bnn

variable (m : (ℓ : Loc nD τ sig) → Buf (Elt Ideal) ℓ) (ρ : Dev nD → PrngReg) (c : Dev nD)

/-- The thirteen argument buffers. -/
abbrev argL : List (Ref sig .tc) := [main_arg0, main_arg1, main_arg2, main_arg3, main_arg4, main_arg5, main_arg6, main_arg7, main_arg8, main_arg9, main_arg10, main_arg11, main_arg12]

/-- The activations after each hidden layer, as functions of the argument arrays at launch. -/
def H1 : FVec Ideal (SM 4096 4096) .f32 := hidden (m ((c : Thread nD τ).loc main_arg0)) (m ((c : Thread nD τ).loc main_arg1)) (m ((c : Thread nD τ).loc main_arg5)) (m ((c : Thread nD τ).loc main_arg6))
def H2 : FVec Ideal (SM 4096 4096) .f32 := hidden (H1 m c) (m ((c : Thread nD τ).loc main_arg2)) (m ((c : Thread nD τ).loc main_arg7)) (m ((c : Thread nD τ).loc main_arg8))
def H3 : FVec Ideal (SM 4096 4096) .f32 := hidden (H2 m c) (m ((c : Thread nD τ).loc main_arg3)) (m ((c : Thread nD τ).loc main_arg9)) (m ((c : Thread nD τ).loc main_arg10))

/-! ## Before and through the first product -/

theorem keepW1 (r : Ref sig .tc) (hr : r ∈ argL) : W1 m ρ c (Proc.devRef .tc r) = m ((c : Thread nD τ).loc r) :=
  KHead.hostOps0_keep (W0 m ρ c) r ((by decide : ∀ r ∈ argL, r ∉ KHead.hostOps0_W) r hr)

theorem keepW2 (r : Ref sig .tc) (hr : r ∈ argL) : W2 m ρ c (Proc.devRef .tc r) = m ((c : Thread nD τ).loc r) :=
  (W2_of_ne m ρ c r ((by decide : ∀ r ∈ argL, ∀ w, Pipeline.arrRef spec0 w ≠ r) r hr)).trans (keepW1 m ρ c r hr)

theorem in0 : V1 m ρ c main_v0 = toBf 4096 4096 (m ((c : Thread nD τ).loc main_arg0)) := KHead.input (W0 m ρ c)
theorem wt0 : V1 m ρ c main_v2 = toBf 4096 4096 (sgn 4096 4096 (m ((c : Thread nD τ).loc main_arg1))) := KHead.weight (W0 m ρ c)

/-- The first product array. -/
theorem prod0 : W2 m ρ c (Proc.devRef .tc main_v3) = mm (φ₁ := .f32) (m ((c : Thread nD τ).loc main_arg0)) (sgn 4096 4096 (m ((c : Thread nD τ).loc main_arg1))) := by
  refine (W2_arr m ρ c 2).trans ?_
  rw [KRegion0.final (V1 m ρ) c, in0, wt0, mm_toBf]

/-! ## Layer 0's normalisation and product 1 -/

theorem keepW5 (r : Ref sig .tc) (hr : r ∈ argL) : W5 m ρ c (Proc.devRef .tc r) = m ((c : Thread nD τ).loc r) :=
  (KTail1.keep (W2 m ρ c) r ((by decide : ∀ r ∈ argL, r ∉ KTail1.hostOps1_W) r hr)
    ((by decide : ∀ r ∈ argL, r ∉ KTail1.hostOps1_1_W) r hr) ((by decide : ∀ r ∈ argL, r ∉ KTail1.hostOps1_2_W) r hr)).trans
    (keepW2 m ρ c r hr)

theorem keepW6 (r : Ref sig .tc) (hr : r ∈ argL) : W6 m ρ c (Proc.devRef .tc r) = m ((c : Thread nD τ).loc r) :=
  (W6_of_ne m ρ c r ((by decide : ∀ r ∈ argL, ∀ w, Pipeline.arrRef spec1 w ≠ r) r hr)).trans (keepW5 m ρ c r hr)

/-- The activation after layer 0, in the matrix unit's format. -/
theorem act1 : V5 m ρ c main_v24 = toBf 4096 4096 (H1 m c) := by
  refine (KTail1.norm (W2 m ρ c)).trans ?_
  rw [prod0, keepW2 m ρ c main_arg5 (by decide), keepW2 m ρ c main_arg6 (by decide)]
  rfl

/-- The signs of layer 1's weights, in the matrix unit's format. -/
theorem wt1 : V5 m ρ c main_v26 = toBf 4096 4096 (sgn 4096 4096 (m ((c : Thread nD τ).loc main_arg2))) := by
  refine (KTail1.weight (W2 m ρ c)).trans ?_
  rw [keepW2 m ρ c main_arg2 (by decide)]

/-- Product array 1. -/
theorem prod1 : W6 m ρ c (Proc.devRef .tc main_v27) = mm (H1 m c) (sgn 4096 4096 (m ((c : Thread nD τ).loc main_arg2))) := by
  refine (W6_arr m ρ c 2).trans ?_
  rw [KRegion1.final (V5 m ρ) c, act1, wt1, mm_toBf]

/-! ## Layer 1's normalisation and product 2 -/

theorem keepW9 (r : Ref sig .tc) (hr : r ∈ argL) : W9 m ρ c (Proc.devRef .tc r) = m ((c : Thread nD τ).loc r) :=
  (KTail2.keep (W6 m ρ c) r ((by decide : ∀ r ∈ argL, r ∉ KTail2.hostOps2_W) r hr)
    ((by decide : ∀ r ∈ argL, r ∉ KTail2.hostOps2_1_W) r hr) ((by decide : ∀ r ∈ argL, r ∉ KTail2.hostOps2_2_W) r hr)).trans
    (keepW6 m ρ c r hr)

theorem keepW10 (r : Ref sig .tc) (hr : r ∈ argL) : W10 m ρ c (Proc.devRef .tc r) = m ((c : Thread nD τ).loc r) :=
  (W10_of_ne m ρ c r ((by decide : ∀ r ∈ argL, ∀ w, Pipeline.arrRef spec2 w ≠ r) r hr)).trans (keepW9 m ρ c r hr)

/-- The activation after layer 1, in the matrix unit's format. -/
theorem act2 : V9 m ρ c main_v48 = toBf 4096 4096 (H2 m c) := by
  refine (KTail2.norm (W6 m ρ c)).trans ?_
  rw [prod1, keepW6 m ρ c main_arg7 (by decide), keepW6 m ρ c main_arg8 (by decide)]
  rfl

/-- The signs of layer 2's weights, in the matrix unit's format. -/
theorem wt2 : V9 m ρ c main_v50 = toBf 4096 4096 (sgn 4096 4096 (m ((c : Thread nD τ).loc main_arg3))) := by
  refine (KTail2.weight (W6 m ρ c)).trans ?_
  rw [keepW6 m ρ c main_arg3 (by decide)]

/-- Product array 2. -/
theorem prod2 : W10 m ρ c (Proc.devRef .tc main_v51) = mm (H2 m c) (sgn 4096 4096 (m ((c : Thread nD τ).loc main_arg3))) := by
  refine (W10_arr m ρ c 2).trans ?_
  rw [KRegion2.final (V9 m ρ) c, act2, wt2, mm_toBf]

/-! ## Layer 2's normalisation and product 3 -/

theorem keepW13 (r : Ref sig .tc) (hr : r ∈ argL) : W13 m ρ c (Proc.devRef .tc r) = m ((c : Thread nD τ).loc r) :=
  (KTail3.keep (W10 m ρ c) r ((by decide : ∀ r ∈ argL, r ∉ KTail3.hostOps3_W) r hr)
    ((by decide : ∀ r ∈ argL, r ∉ KTail3.hostOps3_1_W) r hr) ((by decide : ∀ r ∈ argL, r ∉ KTail3.hostOps3_2_W) r hr)).trans
    (keepW10 m ρ c r hr)

theorem keepW14 (r : Ref sig .tc) (hr : r ∈ argL) : W14 m ρ c (Proc.devRef .tc r) = m ((c : Thread nD τ).loc r) :=
  (W14_of_ne m ρ c r ((by decide : ∀ r ∈ argL, ∀ w, Pipeline.arrRef spec3 w ≠ r) r hr)).trans (keepW13 m ρ c r hr)

/-- The activation after layer 2, in the matrix unit's format. -/
theorem act3 : V13 m ρ c main_v72 = toBf 4096 4096 (H3 m c) := by
  refine (KTail3.norm (W10 m ρ c)).trans ?_
  rw [prod2, keepW10 m ρ c main_arg9 (by decide), keepW10 m ρ c main_arg10 (by decide)]
  rfl

/-- The signs of layer 3's weights, in the matrix unit's format. -/
theorem wt3 : V13 m ρ c main_v74 = toBf 1024 4096 (sgn 1024 4096 (m ((c : Thread nD τ).loc main_arg4))) := by
  refine (KTail3.weight (W10 m ρ c)).trans ?_
  rw [keepW10 m ρ c main_arg4 (by decide)]

/-- Product array 3. -/
theorem prod3 : W14 m ρ c (Proc.devRef .tc main_v75) = mm (H3 m c) (sgn 1024 4096 (m ((c : Thread nD τ).loc main_arg4))) := by
  refine (W14_arr m ρ c 2).trans ?_
  rw [KRegion3.final (V13 m ρ) c, act3, wt3, mm_toBf]

/-! ## The last normalisation: the result -/

/-- The result buffer at the last boundary is the network of the argument arrays. -/
theorem result : W17 m ρ c (Proc.devRef .tc main_v94)
    = net (m ((c : Thread nD τ).loc main_arg0))
        (m ((c : Thread nD τ).loc main_arg1))
        (m ((c : Thread nD τ).loc main_arg2))
        (m ((c : Thread nD τ).loc main_arg3))
        (m ((c : Thread nD τ).loc main_arg4))
        (m ((c : Thread nD τ).loc main_arg5))
        (m ((c : Thread nD τ).loc main_arg6))
        (m ((c : Thread nD τ).loc main_arg7))
        (m ((c : Thread nD τ).loc main_arg8))
        (m ((c : Thread nD τ).loc main_arg9))
        (m ((c : Thread nD τ).loc main_arg10))
        (m ((c : Thread nD τ).loc main_arg11))
        (m ((c : Thread nD τ).loc main_arg12)) := by
  refine (KTail4.norm (W14 m ρ c)).trans ?_
  rw [prod3, keepW14 m ρ c main_arg11 (by decide), keepW14 m ρ c main_arg12 (by decide)]
  rfl

end Cert.KernelIdeal.KValue

end
-- ==== Proof.ROps.lean ====
/-
  The idealized reference program's @main as lists of host operations, one list per mathematical stage of each layer
  (the product with the transposed weight signs; the column means; the column variances — the outlined variance's
  operations written at its call, the guarded select of its own outlined helper included —; the normalisation and the
  sign), and its run: every weakly fair execution terminates with every buffer at the fold of these operations over
  the launch memory.  @main is printed in two consecutive windows of statements; each window is its stretch of the
  lists, run in order, and the two stretches appended are the whole line.
-/
import proofs.«161644_j58961311039944_1_alg».proof.Proof.Gen.ReferenceIdeal
import Idealize.ShloMosaic.Lib.StableHlo.Run

noncomputable section

namespace Cert.ReferenceIdeal.ROps

open Cert.ReferenceIdeal Cert.ReferenceIdeal.Gen Idealize.ShloMosaic Idealize.ShloMosaic.TcCoe Idealize.SL.Sem Idealize.ShloMosaic.StableHlo

variable {F : FTy → Type} [FloatOps F]

/-- A property of every element of two lists holds of every element of their concatenation. -/
theorem forall_append {α : Type} {p : α → Prop} {l₁ l₂ : List α} (h₁ : l₁.Forall p) (h₂ : l₂.Forall p) : (l₁ ++ l₂).Forall p :=
  List.forall_iff_forall_mem.mpr fun x hx =>
    (List.mem_append.mp hx).elim (List.forall_iff_forall_mem.mp h₁ x) (List.forall_iff_forall_mem.mp h₂ x)

/-! ## The stages -/

/-- Layer 0's product: the weight signs, their transpose, the contraction with the activations. -/
abbrev A0 : List (HloOp τ sig (Elt F)) :=
  [ StableHlo.unary main_arg1 main_v0 (Host.sign : (⟨S4096x4096, .f32⟩ : BufTy).Contents (Elt F) → (⟨S4096x4096, .f32⟩ : BufTy).Contents (Elt F)),
    StableHlo.unary main_v0 main_v1 ((transpose S4096x4096 [1, 0] · transposes_S4096x4096_S4096x4096_1_0) : (⟨S4096x4096, .f32⟩ : BufTy).Contents (Elt F) → (⟨S4096x4096, .f32⟩ : BufTy).Contents (Elt F)),
    StableHlo.binary main_arg0 main_v1 main_v2 ((fun l r => Host.dotGeneral dot_S4096x4096_S4096x4096_S4096x4096_1_0_0_1_n_n none l r) : (⟨S4096x4096, .f32⟩ : BufTy).Contents (Elt F) → (⟨S4096x4096, .f32⟩ : BufTy).Contents (Elt F) → (⟨S4096x4096, .f32⟩ : BufTy).Contents (Elt F)) ]
theorem A0_sub : (A0 : List (HloOp τ sig (Elt F))).Forall fun op => op.bufs ⊆ tcRefs τ sig :=
  ⟨unary_bufs_sub .., unary_bufs_sub .., binary_bufs_sub ..⟩
theorem A0_fresh : (A0 : List (HloOp τ sig (Elt F))).Forall fun op => op.fresh = ∅ := by
  simp only [List.Forall]; repeat' constructor

/-- Layer 0's column means. -/
abbrev B0 : List (HloOp τ sig (Elt F)) :=
  [ StableHlo.nullary main_cst (constant S_ .f32 0x00000000#32),
    StableHlo.binary main_v2 main_cst main_v3 ((fun x v => Host.reduceAdd x v reducesTo_S4096x4096_S4096_d0 h_S_) : (⟨S4096x4096, .f32⟩ : BufTy).Contents (Elt F) → (⟨S_, .f32⟩ : BufTy).Contents (Elt F) → (⟨S4096, .f32⟩ : BufTy).Contents (Elt F)),
    StableHlo.nullary main_cst_0 (constant S_ .f32 0x45800000#32),
    StableHlo.unary main_cst_0 main_v4 (broadcastInDim S4096 ![] bcast_S_S4096 : (⟨S_, .f32⟩ : BufTy).Contents (Elt F) → (⟨S4096, .f32⟩ : BufTy).Contents (Elt F)),
    StableHlo.binary main_v3 main_v4 main_v5 (Host.divf : (⟨S4096, .f32⟩ : BufTy).Contents (Elt F) → (⟨S4096, .f32⟩ : BufTy).Contents (Elt F) → (⟨S4096, .f32⟩ : BufTy).Contents (Elt F)),
    StableHlo.nullary main_c (constantI S_ 32 0#32) ]
theorem B0_sub : (B0 : List (HloOp τ sig (Elt F))).Forall fun op => op.bufs ⊆ tcRefs τ sig :=
  ⟨nullary_bufs_sub .., binary_bufs_sub .., nullary_bufs_sub .., unary_bufs_sub .., binary_bufs_sub .., nullary_bufs_sub ..⟩
theorem B0_fresh : (B0 : List (HloOp τ sig (Elt F))).Forall fun op => op.fresh = ∅ := by
  simp only [List.Forall]; repeat' constructor

/-- Layer 0's column variances: the outlined variance's operations at its call, in order. -/
abbrev C0 : List (HloOp τ sig (Elt F)) :=
  [ StableHlo.TRef.nullary (.of main_call0_cst : StableHlo.TRef sig ⟨S_, .f32⟩) (constant S_ .f32 0x00000000#32),
    StableHlo.TRef.binary (.of main_v2 : StableHlo.TRef sig ⟨S4096x4096, .f32⟩) (.of main_call0_cst : StableHlo.TRef sig ⟨S_, .f32⟩) (.of main_call0_v0 : StableHlo.TRef sig ⟨S4096, .f32⟩) (fun x v => Host.reduceAdd x v reducesTo_S4096x4096_S4096_d0 h_S_),
    StableHlo.TRef.unary (.of main_call0_v0 : StableHlo.TRef sig ⟨S4096, .f32⟩) (.of main_call0_v1 : StableHlo.TRef sig ⟨S1x4096, .f32⟩) (broadcastInDim S1x4096 ![1] bcast_S4096_S1x4096_1),
    StableHlo.TRef.nullary (.of main_call0_cst_0 : StableHlo.TRef sig ⟨S_, .f32⟩) (constant S_ .f32 0x45800000#32),
    StableHlo.TRef.unary (.of main_call0_cst_0 : StableHlo.TRef sig ⟨S_, .f32⟩) (.of main_call0_v2 : StableHlo.TRef sig ⟨S1x4096, .f32⟩) (broadcastInDim S1x4096 ![] bcast_S_S1x4096),
    StableHlo.TRef.binary (.of main_call0_v1 : StableHlo.TRef sig ⟨S1x4096, .f32⟩) (.of main_call0_v2 : StableHlo.TRef sig ⟨S1x4096, .f32⟩) (.of main_call0_v3 : StableHlo.TRef sig ⟨S1x4096, .f32⟩) Host.divf,
    StableHlo.TRef.unary (.of main_call0_v3 : StableHlo.TRef sig ⟨S1x4096, .f32⟩) (.of main_call0_v4 : StableHlo.TRef sig ⟨S4096x4096, .f32⟩) (broadcastInDim S4096x4096 ![0, 1] bcast_S1x4096_S4096x4096_0_1),
    StableHlo.TRef.binary (.of main_v2 : StableHlo.TRef sig ⟨S4096x4096, .f32⟩) (.of main_call0_v4 : StableHlo.TRef sig ⟨S4096x4096, .f32⟩) (.of main_call0_v5 : StableHlo.TRef sig ⟨S4096x4096, .f32⟩) subf,
    StableHlo.TRef.binary (.of main_call0_v5 : StableHlo.TRef sig ⟨S4096x4096, .f32⟩) (.of main_call0_v5 : StableHlo.TRef sig ⟨S4096x4096, .f32⟩) (.of main_call0_v6 : StableHlo.TRef sig ⟨S4096x4096, .f32⟩) mulf,
    StableHlo.TRef.unary (.of main_c : StableHlo.TRef sig ⟨S_, .i32⟩) (.of main_call0_v7 : StableHlo.TRef sig ⟨S_, .f32⟩) (sitofp .f32),
    StableHlo.TRef.nullary (.of main_call0_cst_1 : StableHlo.TRef sig ⟨S_, .f32⟩) (constant S_ .f32 0x45800000#32),
    StableHlo.TRef.binary (.of main_call0_cst_1 : StableHlo.TRef sig ⟨S_, .f32⟩) (.of main_call0_v7 : StableHlo.TRef sig ⟨S_, .f32⟩) (.of main_call0_v8 : StableHlo.TRef sig ⟨S_, .f32⟩) subf,
    StableHlo.TRef.nullary (.of main_call0_cst_2 : StableHlo.TRef sig ⟨S_, .f32⟩) (constant S_ .f32 0x00000000#32),
    StableHlo.TRef.binary (.of main_call0_v6 : StableHlo.TRef sig ⟨S4096x4096, .f32⟩) (.of main_call0_cst_2 : StableHlo.TRef sig ⟨S_, .f32⟩) (.of main_call0_v9 : StableHlo.TRef sig ⟨S4096, .f32⟩) (fun x v => Host.reduceAdd x v reducesTo_S4096x4096_S4096_d0 h_S_),
    StableHlo.TRef.unary (.of main_call0_v8 : StableHlo.TRef sig ⟨S_, .f32⟩) (.of main_call0_v10 : StableHlo.TRef sig ⟨S4096, .f32⟩) (broadcastInDim S4096 ![] bcast_S_S4096),
    StableHlo.TRef.binary (.of main_call0_v9 : StableHlo.TRef sig ⟨S4096, .f32⟩) (.of main_call0_v10 : StableHlo.TRef sig ⟨S4096, .f32⟩) (.of main_call0_v11 : StableHlo.TRef sig ⟨S4096, .f32⟩) Host.divf,
    StableHlo.TRef.nullary (.of main_call0_cst_3 : StableHlo.TRef sig ⟨S_, .f32⟩) (constant S_ .f32 0x00000000#32),
    StableHlo.TRef.binary (.of main_call0_v8 : StableHlo.TRef sig ⟨S_, .f32⟩) (.of main_call0_cst_3 : StableHlo.TRef sig ⟨S_, .f32⟩) (.of main_call0_v12 : StableHlo.TRef sig ⟨S_, .i1⟩) (cmpf .ogt),
    StableHlo.TRef.nullary (.of main_call0_cst_4 : StableHlo.TRef sig ⟨S_, .f32⟩) (constant S_ .f32 0x7FC00000#32),
    StableHlo.TRef.unary (.of main_call0_cst_4 : StableHlo.TRef sig ⟨S_, .f32⟩) (.of main_call0_call0_v0 : StableHlo.TRef sig ⟨S_, .f32⟩) id,
    StableHlo.TRef.unary (.of main_call0_call0_v0 : StableHlo.TRef sig ⟨S_, .f32⟩) (.of main_call0_call0_v1 : StableHlo.TRef sig ⟨S4096, .f32⟩) (broadcastInDim S4096 ![] bcast_S_S4096),
    StableHlo.TRef.ternary (.of main_call0_v12 : StableHlo.TRef sig ⟨S_, .i1⟩) (.of main_call0_v11 : StableHlo.TRef sig ⟨S4096, .f32⟩) (.of main_call0_call0_v1 : StableHlo.TRef sig ⟨S4096, .f32⟩) (.of main_v6 : StableHlo.TRef sig ⟨S4096, .f32⟩) (fun p a b => select (broadcastInDim S4096 ![] bcast_S_S4096 p) a b) ]
theorem C0_sub : (C0 : List (HloOp τ sig (Elt F))).Forall fun op => op.bufs ⊆ tcRefs τ sig :=
  ⟨nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩
theorem C0_fresh : (C0 : List (HloOp τ sig (Elt F))).Forall fun op => op.fresh = ∅ := by
  simp only [List.Forall]; repeat' constructor

/-- Layer 0's normalisation and its sign. -/
abbrev D0 : List (HloOp τ sig (Elt F)) :=
  [ StableHlo.unary main_v5 main_v7 (broadcastInDim S1x4096 ![1] bcast_S4096_S1x4096_1 : (⟨S4096, .f32⟩ : BufTy).Contents (Elt F) → (⟨S1x4096, .f32⟩ : BufTy).Contents (Elt F)),
    StableHlo.unary main_v7 main_v8 (broadcastInDim S4096x4096 ![0, 1] bcast_S1x4096_S4096x4096_0_1 : (⟨S1x4096, .f32⟩ : BufTy).Contents (Elt F) → (⟨S4096x4096, .f32⟩ : BufTy).Contents (Elt F)),
    StableHlo.binary main_v2 main_v8 main_v9 (subf : (⟨S4096x4096, .f32⟩ : BufTy).Contents (Elt F) → (⟨S4096x4096, .f32⟩ : BufTy).Contents (Elt F) → (⟨S4096x4096, .f32⟩ : BufTy).Contents (Elt F)),
    StableHlo.nullary main_cst_1 (constant S_ .f32 0x3727C5AC#32),
    StableHlo.unary main_cst_1 main_v10 (broadcastInDim S4096 ![] bcast_S_S4096 : (⟨S_, .f32⟩ : BufTy).Contents (Elt F) → (⟨S4096, .f32⟩ : BufTy).Contents (Elt F)),
    StableHlo.binary main_v6 main_v10 main_v11 (addf : (⟨S4096, .f32⟩ : BufTy).Contents (Elt F) → (⟨S4096, .f32⟩ : BufTy).Contents (Elt F) → (⟨S4096, .f32⟩ : BufTy).Contents (Elt F)),
    StableHlo.unary main_v11 main_v12 (Host.rsqrt : (⟨S4096, .f32⟩ : BufTy).Contents (Elt F) → (⟨S4096, .f32⟩ : BufTy).Contents (Elt F)),
    StableHlo.unary main_v12 main_v13 (broadcastInDim S1x4096 ![1] bcast_S4096_S1x4096_1 : (⟨S4096, .f32⟩ : BufTy).Contents (Elt F) → (⟨S1x4096, .f32⟩ : BufTy).Contents (Elt F)),
    StableHlo.unary main_v13 main_v14 (broadcastInDim S4096x4096 ![0, 1] bcast_S1x4096_S4096x4096_0_1 : (⟨S1x4096, .f32⟩ : BufTy).Contents (Elt F) → (⟨S4096x4096, .f32⟩ : BufTy).Contents (Elt F)),
    StableHlo.binary main_v9 main_v14 main_v15 (mulf : (⟨S4096x4096, .f32⟩ : BufTy).Contents (Elt F) → (⟨S4096x4096, .f32⟩ : BufTy).Contents (Elt F) → (⟨S4096x4096, .f32⟩ : BufTy).Contents (Elt F)),
    StableHlo.unary main_arg5 main_v16 (broadcastInDim S1x4096 ![1] bcast_S4096_S1x4096_1 : (⟨S4096, .f32⟩ : BufTy).Contents (Elt F) → (⟨S1x4096, .f32⟩ : BufTy).Contents (Elt F)),
    StableHlo.unary main_v16 main_v17 (broadcastInDim S4096x4096 ![0, 1] bcast_S1x4096_S4096x4096_0_1 : (⟨S1x4096, .f32⟩ : BufTy).Contents (Elt F) → (⟨S4096x4096, .f32⟩ : BufTy).Contents (Elt F)),
    StableHlo.binary main_v15 main_v17 main_v18 (mulf : (⟨S4096x4096, .f32⟩ : BufTy).Contents (Elt F) → (⟨S4096x4096, .f32⟩ : BufTy).Contents (Elt F) → (⟨S4096x4096, .f32⟩ : BufTy).Contents (Elt F)),
    StableHlo.unary main_arg6 main_v19 (broadcastInDim S1x4096 ![1] bcast_S4096_S1x4096_1 : (⟨S4096, .f32⟩ : BufTy).Contents (Elt F) → (⟨S1x4096, .f32⟩ : BufTy).Contents (Elt F)),
    StableHlo.unary main_v19 main_v20 (broadcastInDim S4096x4096 ![0, 1] bcast_S1x4096_S4096x4096_0_1 : (⟨S1x4096, .f32⟩ : BufTy).Contents (Elt F) → (⟨S4096x4096, .f32⟩ : BufTy).Contents (Elt F)),
    StableHlo.binary main_v18 main_v20 main_v21 (addf : (⟨S4096x4096, .f32⟩ : BufTy).Contents (Elt F) → (⟨S4096x4096, .f32⟩ : BufTy).Contents (Elt F) → (⟨S4096x4096, .f32⟩ : BufTy).Contents (Elt F)),
    StableHlo.unary main_v21 main_v22 (Host.sign : (⟨S4096x4096, .f32⟩ : BufTy).Contents (Elt F) → (⟨S4096x4096, .f32⟩ : BufTy).Contents (Elt F)) ]
theorem D0_sub : (D0 : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., unary_bufs_sub ..⟩
theorem D0_fresh : (D0 : List (HloOp τ sig (Elt F))).Forall fun op => op.fresh = ∅ := by
  simp only [List.Forall]; repeat' constructor

/-- Layer 1's product: the weight signs, their transpose, the contraction with the activations. -/
abbrev A1 : List (HloOp τ sig (Elt F)) :=
  [ StableHlo.unary main_arg2 main_v23 (Host.sign : (⟨S4096x4096, .f32⟩ : BufTy).Contents (Elt F) → (⟨S4096x4096, .f32⟩ : BufTy).Contents (Elt F)),
    StableHlo.unary main_v23 main_v24 ((transpose S4096x4096 [1, 0] · transposes_S4096x4096_S4096x4096_1_0) : (⟨S4096x4096, .f32⟩ : BufTy).Contents (Elt F) → (⟨S4096x4096, .f32⟩ : BufTy).Contents (Elt F)),
    StableHlo.binary main_v22 main_v24 main_v25 ((fun l r => Host.dotGeneral dot_S4096x4096_S4096x4096_S4096x4096_1_0_0_1_n_n none l r) : (⟨S4096x4096, .f32⟩ : BufTy).Contents (Elt F) → (⟨S4096x4096, .f32⟩ : BufTy).Contents (Elt F) → (⟨S4096x4096, .f32⟩ : BufTy).Contents (Elt F)) ]
theorem A1_sub : (A1 : List (HloOp τ sig (Elt F))).Forall fun op => op.bufs ⊆ tcRefs τ sig :=
  ⟨unary_bufs_sub .., unary_bufs_sub .., binary_bufs_sub ..⟩
theorem A1_fresh : (A1 : List (HloOp τ sig (Elt F))).Forall fun op => op.fresh = ∅ := by
  simp only [List.Forall]; repeat' constructor

/-- Layer 1's column means. -/
abbrev B1 : List (HloOp τ sig (Elt F)) :=
  [ StableHlo.nullary main_cst_2 (constant S_ .f32 0x00000000#32),
    StableHlo.binary main_v25 main_cst_2 main_v26 ((fun x v => Host.reduceAdd x v reducesTo_S4096x4096_S4096_d0 h_S_) : (⟨S4096x4096, .f32⟩ : BufTy).Contents (Elt F) → (⟨S_, .f32⟩ : BufTy).Contents (Elt F) → (⟨S4096, .f32⟩ : BufTy).Contents (Elt F)),
    StableHlo.nullary main_cst_3 (constant S_ .f32 0x45800000#32),
    StableHlo.unary main_cst_3 main_v27 (broadcastInDim S4096 ![] bcast_S_S4096 : (⟨S_, .f32⟩ : BufTy).Contents (Elt F) → (⟨S4096, .f32⟩ : BufTy).Contents (Elt F)),
    StableHlo.binary main_v26 main_v27 main_v28 (Host.divf : (⟨S4096, .f32⟩ : BufTy).Contents (Elt F) → (⟨S4096, .f32⟩ : BufTy).Contents (Elt F) → (⟨S4096, .f32⟩ : BufTy).Contents (Elt F)),
    StableHlo.nullary main_c_4 (constantI S_ 32 0#32) ]
theorem B1_sub : (B1 : List (HloOp τ sig (Elt F))).Forall fun op => op.bufs ⊆ tcRefs τ sig :=
  ⟨nullary_bufs_sub .., binary_bufs_sub .., nullary_bufs_sub .., unary_bufs_sub .., binary_bufs_sub .., nullary_bufs_sub ..⟩
theorem B1_fresh : (B1 : List (HloOp τ sig (Elt F))).Forall fun op => op.fresh = ∅ := by
  simp only [List.Forall]; repeat' constructor

/-- Layer 1's column variances: the outlined variance's operations at its call, in order. -/
abbrev C1 : List (HloOp τ sig (Elt F)) :=
  [ StableHlo.TRef.nullary (.of main_call1_cst : StableHlo.TRef sig ⟨S_, .f32⟩) (constant S_ .f32 0x00000000#32),
    StableHlo.TRef.binary (.of main_v25 : StableHlo.TRef sig ⟨S4096x4096, .f32⟩) (.of main_call1_cst : StableHlo.TRef sig ⟨S_, .f32⟩) (.of main_call1_v0 : StableHlo.TRef sig ⟨S4096, .f32⟩) (fun x v => Host.reduceAdd x v reducesTo_S4096x4096_S4096_d0 h_S_),
    StableHlo.TRef.unary (.of main_call1_v0 : StableHlo.TRef sig ⟨S4096, .f32⟩) (.of main_call1_v1 : StableHlo.TRef sig ⟨S1x4096, .f32⟩) (broadcastInDim S1x4096 ![1] bcast_S4096_S1x4096_1),
    StableHlo.TRef.nullary (.of main_call1_cst_0 : StableHlo.TRef sig ⟨S_, .f32⟩) (constant S_ .f32 0x45800000#32),
    StableHlo.TRef.unary (.of main_call1_cst_0 : StableHlo.TRef sig ⟨S_, .f32⟩) (.of main_call1_v2 : StableHlo.TRef sig ⟨S1x4096, .f32⟩) (broadcastInDim S1x4096 ![] bcast_S_S1x4096),
    StableHlo.TRef.binary (.of main_call1_v1 : StableHlo.TRef sig ⟨S1x4096, .f32⟩) (.of main_call1_v2 : StableHlo.TRef sig ⟨S1x4096, .f32⟩) (.of main_call1_v3 : StableHlo.TRef sig ⟨S1x4096, .f32⟩) Host.divf,
    StableHlo.TRef.unary (.of main_call1_v3 : StableHlo.TRef sig ⟨S1x4096, .f32⟩) (.of main_call1_v4 : StableHlo.TRef sig ⟨S4096x4096, .f32⟩) (broadcastInDim S4096x4096 ![0, 1] bcast_S1x4096_S4096x4096_0_1),
    StableHlo.TRef.binary (.of main_v25 : StableHlo.TRef sig ⟨S4096x4096, .f32⟩) (.of main_call1_v4 : StableHlo.TRef sig ⟨S4096x4096, .f32⟩) (.of main_call1_v5 : StableHlo.TRef sig ⟨S4096x4096, .f32⟩) subf,
    StableHlo.TRef.binary (.of main_call1_v5 : StableHlo.TRef sig ⟨S4096x4096, .f32⟩) (.of main_call1_v5 : StableHlo.TRef sig ⟨S4096x4096, .f32⟩) (.of main_call1_v6 : StableHlo.TRef sig ⟨S4096x4096, .f32⟩) mulf,
    StableHlo.TRef.unary (.of main_c_4 : StableHlo.TRef sig ⟨S_, .i32⟩) (.of main_call1_v7 : StableHlo.TRef sig ⟨S_, .f32⟩) (sitofp .f32),
    StableHlo.TRef.nullary (.of main_call1_cst_1 : StableHlo.TRef sig ⟨S_, .f32⟩) (constant S_ .f32 0x45800000#32),
    StableHlo.TRef.binary (.of main_call1_cst_1 : StableHlo.TRef sig ⟨S_, .f32⟩) (.of main_call1_v7 : StableHlo.TRef sig ⟨S_, .f32⟩) (.of main_call1_v8 : StableHlo.TRef sig ⟨S_, .f32⟩) subf,
    StableHlo.TRef.nullary (.of main_call1_cst_2 : StableHlo.TRef sig ⟨S_, .f32⟩) (constant S_ .f32 0x00000000#32),
    StableHlo.TRef.binary (.of main_call1_v6 : StableHlo.TRef sig ⟨S4096x4096, .f32⟩) (.of main_call1_cst_2 : StableHlo.TRef sig ⟨S_, .f32⟩) (.of main_call1_v9 : StableHlo.TRef sig ⟨S4096, .f32⟩) (fun x v => Host.reduceAdd x v reducesTo_S4096x4096_S4096_d0 h_S_),
    StableHlo.TRef.unary (.of main_call1_v8 : StableHlo.TRef sig ⟨S_, .f32⟩) (.of main_call1_v10 : StableHlo.TRef sig ⟨S4096, .f32⟩) (broadcastInDim S4096 ![] bcast_S_S4096),
    StableHlo.TRef.binary (.of main_call1_v9 : StableHlo.TRef sig ⟨S4096, .f32⟩) (.of main_call1_v10 : StableHlo.TRef sig ⟨S4096, .f32⟩) (.of main_call1_v11 : StableHlo.TRef sig ⟨S4096, .f32⟩) Host.divf,
    StableHlo.TRef.nullary (.of main_call1_cst_3 : StableHlo.TRef sig ⟨S_, .f32⟩) (constant S_ .f32 0x00000000#32),
    StableHlo.TRef.binary (.of main_call1_v8 : StableHlo.TRef sig ⟨S_, .f32⟩) (.of main_call1_cst_3 : StableHlo.TRef sig ⟨S_, .f32⟩) (.of main_call1_v12 : StableHlo.TRef sig ⟨S_, .i1⟩) (cmpf .ogt),
    StableHlo.TRef.nullary (.of main_call1_cst_4 : StableHlo.TRef sig ⟨S_, .f32⟩) (constant S_ .f32 0x7FC00000#32),
    StableHlo.TRef.unary (.of main_call1_cst_4 : StableHlo.TRef sig ⟨S_, .f32⟩) (.of main_call1_call0_v0 : StableHlo.TRef sig ⟨S_, .f32⟩) id,
    StableHlo.TRef.unary (.of main_call1_call0_v0 : StableHlo.TRef sig ⟨S_, .f32⟩) (.of main_call1_call0_v1 : StableHlo.TRef sig ⟨S4096, .f32⟩) (broadcastInDim S4096 ![] bcast_S_S4096),
    StableHlo.TRef.ternary (.of main_call1_v12 : StableHlo.TRef sig ⟨S_, .i1⟩) (.of main_call1_v11 : StableHlo.TRef sig ⟨S4096, .f32⟩) (.of main_call1_call0_v1 : StableHlo.TRef sig ⟨S4096, .f32⟩) (.of main_v29 : StableHlo.TRef sig ⟨S4096, .f32⟩) (fun p a b => select (broadcastInDim S4096 ![] bcast_S_S4096 p) a b) ]
theorem C1_sub : (C1 : List (HloOp τ sig (Elt F))).Forall fun op => op.bufs ⊆ tcRefs τ sig :=
  ⟨nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩
theorem C1_fresh : (C1 : List (HloOp τ sig (Elt F))).Forall fun op => op.fresh = ∅ := by
  simp only [List.Forall]; repeat' constructor

/-- Layer 1's normalisation and its sign. -/
abbrev D1 : List (HloOp τ sig (Elt F)) :=
  [ StableHlo.unary main_v28 main_v30 (broadcastInDim S1x4096 ![1] bcast_S4096_S1x4096_1 : (⟨S4096, .f32⟩ : BufTy).Contents (Elt F) → (⟨S1x4096, .f32⟩ : BufTy).Contents (Elt F)),
    StableHlo.unary main_v30 main_v31 (broadcastInDim S4096x4096 ![0, 1] bcast_S1x4096_S4096x4096_0_1 : (⟨S1x4096, .f32⟩ : BufTy).Contents (Elt F) → (⟨S4096x4096, .f32⟩ : BufTy).Contents (Elt F)),
    StableHlo.binary main_v25 main_v31 main_v32 (subf : (⟨S4096x4096, .f32⟩ : BufTy).Contents (Elt F) → (⟨S4096x4096, .f32⟩ : BufTy).Contents (Elt F) → (⟨S4096x4096, .f32⟩ : BufTy).Contents (Elt F)),
    StableHlo.nullary main_cst_5 (constant S_ .f32 0x3727C5AC#32),
    StableHlo.unary main_cst_5 main_v33 (broadcastInDim S4096 ![] bcast_S_S4096 : (⟨S_, .f32⟩ : BufTy).Contents (Elt F) → (⟨S4096, .f32⟩ : BufTy).Contents (Elt F)),
    StableHlo.binary main_v29 main_v33 main_v34 (addf : (⟨S4096, .f32⟩ : BufTy).Contents (Elt F) → (⟨S4096, .f32⟩ : BufTy).Contents (Elt F) → (⟨S4096, .f32⟩ : BufTy).Contents (Elt F)),
    StableHlo.unary main_v34 main_v35 (Host.rsqrt : (⟨S4096, .f32⟩ : BufTy).Contents (Elt F) → (⟨S4096, .f32⟩ : BufTy).Contents (Elt F)),
    StableHlo.unary main_v35 main_v36 (broadcastInDim S1x4096 ![1] bcast_S4096_S1x4096_1 : (⟨S4096, .f32⟩ : BufTy).Contents (Elt F) → (⟨S1x4096, .f32⟩ : BufTy).Contents (Elt F)),
    StableHlo.unary main_v36 main_v37 (broadcastInDim S4096x4096 ![0, 1] bcast_S1x4096_S4096x4096_0_1 : (⟨S1x4096, .f32⟩ : BufTy).Contents (Elt F) → (⟨S4096x4096, .f32⟩ : BufTy).Contents (Elt F)),
    StableHlo.binary main_v32 main_v37 main_v38 (mulf : (⟨S4096x4096, .f32⟩ : BufTy).Contents (Elt F) → (⟨S4096x4096, .f32⟩ : BufTy).Contents (Elt F) → (⟨S4096x4096, .f32⟩ : BufTy).Contents (Elt F)),
    StableHlo.unary main_arg7 main_v39 (broadcastInDim S1x4096 ![1] bcast_S4096_S1x4096_1 : (⟨S4096, .f32⟩ : BufTy).Contents (Elt F) → (⟨S1x4096, .f32⟩ : BufTy).Contents (Elt F)),
    StableHlo.unary main_v39 main_v40 (broadcastInDim S4096x4096 ![0, 1] bcast_S1x4096_S4096x4096_0_1 : (⟨S1x4096, .f32⟩ : BufTy).Contents (Elt F) → (⟨S4096x4096, .f32⟩ : BufTy).Contents (Elt F)),
    StableHlo.binary main_v38 main_v40 main_v41 (mulf : (⟨S4096x4096, .f32⟩ : BufTy).Contents (Elt F) → (⟨S4096x4096, .f32⟩ : BufTy).Contents (Elt F) → (⟨S4096x4096, .f32⟩ : BufTy).Contents (Elt F)),
    StableHlo.unary main_arg8 main_v42 (broadcastInDim S1x4096 ![1] bcast_S4096_S1x4096_1 : (⟨S4096, .f32⟩ : BufTy).Contents (Elt F) → (⟨S1x4096, .f32⟩ : BufTy).Contents (Elt F)),
    StableHlo.unary main_v42 main_v43 (broadcastInDim S4096x4096 ![0, 1] bcast_S1x4096_S4096x4096_0_1 : (⟨S1x4096, .f32⟩ : BufTy).Contents (Elt F) → (⟨S4096x4096, .f32⟩ : BufTy).Contents (Elt F)),
    StableHlo.binary main_v41 main_v43 main_v44 (addf : (⟨S4096x4096, .f32⟩ : BufTy).Contents (Elt F) → (⟨S4096x4096, .f32⟩ : BufTy).Contents (Elt F) → (⟨S4096x4096, .f32⟩ : BufTy).Contents (Elt F)),
    StableHlo.unary main_v44 main_v45 (Host.sign : (⟨S4096x4096, .f32⟩ : BufTy).Contents (Elt F) → (⟨S4096x4096, .f32⟩ : BufTy).Contents (Elt F)) ]
theorem D1_sub : (D1 : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., unary_bufs_sub ..⟩
theorem D1_fresh : (D1 : List (HloOp τ sig (Elt F))).Forall fun op => op.fresh = ∅ := by
  simp only [List.Forall]; repeat' constructor

/-- Layer 2's product: the weight signs, their transpose, the contraction with the activations. -/
abbrev A2 : List (HloOp τ sig (Elt F)) :=
  [ StableHlo.unary main_arg3 main_v46 (Host.sign : (⟨S4096x4096, .f32⟩ : BufTy).Contents (Elt F) → (⟨S4096x4096, .f32⟩ : BufTy).Contents (Elt F)),
    StableHlo.unary main_v46 main_v47 ((transpose S4096x4096 [1, 0] · transposes_S4096x4096_S4096x4096_1_0) : (⟨S4096x4096, .f32⟩ : BufTy).Contents (Elt F) → (⟨S4096x4096, .f32⟩ : BufTy).Contents (Elt F)),
    StableHlo.binary main_v45 main_v47 main_v48 ((fun l r => Host.dotGeneral dot_S4096x4096_S4096x4096_S4096x4096_1_0_0_1_n_n none l r) : (⟨S4096x4096, .f32⟩ : BufTy).Contents (Elt F) → (⟨S4096x4096, .f32⟩ : BufTy).Contents (Elt F) → (⟨S4096x4096, .f32⟩ : BufTy).Contents (Elt F)) ]
theorem A2_sub : (A2 : List (HloOp τ sig (Elt F))).Forall fun op => op.bufs ⊆ tcRefs τ sig :=
  ⟨unary_bufs_sub .., unary_bufs_sub .., binary_bufs_sub ..⟩
theorem A2_fresh : (A2 : List (HloOp τ sig (Elt F))).Forall fun op => op.fresh = ∅ := by
  simp only [List.Forall]; repeat' constructor

/-- Layer 2's column means (first half: the column sums). -/
abbrev B2a : List (HloOp τ sig (Elt F)) :=
  [ StableHlo.nullary main_cst_6 (constant S_ .f32 0x00000000#32),
    StableHlo.binary main_v48 main_cst_6 main_v49 ((fun x v => Host.reduceAdd x v reducesTo_S4096x4096_S4096_d0 h_S_) : (⟨S4096x4096, .f32⟩ : BufTy).Contents (Elt F) → (⟨S_, .f32⟩ : BufTy).Contents (Elt F) → (⟨S4096, .f32⟩ : BufTy).Contents (Elt F)),
    StableHlo.nullary main_cst_7 (constant S_ .f32 0x45800000#32) ]
theorem B2a_sub : (B2a : List (HloOp τ sig (Elt F))).Forall fun op => op.bufs ⊆ tcRefs τ sig :=
  ⟨nullary_bufs_sub .., binary_bufs_sub .., nullary_bufs_sub ..⟩
theorem B2a_fresh : (B2a : List (HloOp τ sig (Elt F))).Forall fun op => op.fresh = ∅ := by
  simp only [List.Forall]; repeat' constructor

/-- Layer 2's column means (second half: the division by 4096, and the variance's correction). -/
abbrev B2b : List (HloOp τ sig (Elt F)) :=
  [ StableHlo.unary main_cst_7 main_v50 (broadcastInDim S4096 ![] bcast_S_S4096 : (⟨S_, .f32⟩ : BufTy).Contents (Elt F) → (⟨S4096, .f32⟩ : BufTy).Contents (Elt F)),
    StableHlo.binary main_v49 main_v50 main_v51 (Host.divf : (⟨S4096, .f32⟩ : BufTy).Contents (Elt F) → (⟨S4096, .f32⟩ : BufTy).Contents (Elt F) → (⟨S4096, .f32⟩ : BufTy).Contents (Elt F)),
    StableHlo.nullary main_c_8 (constantI S_ 32 0#32) ]
theorem B2b_sub : (B2b : List (HloOp τ sig (Elt F))).Forall fun op => op.bufs ⊆ tcRefs τ sig :=
  ⟨unary_bufs_sub .., binary_bufs_sub .., nullary_bufs_sub ..⟩
theorem B2b_fresh : (B2b : List (HloOp τ sig (Elt F))).Forall fun op => op.fresh = ∅ := by
  simp only [List.Forall]; repeat' constructor

/-- Layer 2's column variances: the outlined variance's operations at its call, in order. -/
abbrev C2 : List (HloOp τ sig (Elt F)) :=
  [ StableHlo.TRef.nullary (.of main_call2_cst : StableHlo.TRef sig ⟨S_, .f32⟩) (constant S_ .f32 0x00000000#32),
    StableHlo.TRef.binary (.of main_v48 : StableHlo.TRef sig ⟨S4096x4096, .f32⟩) (.of main_call2_cst : StableHlo.TRef sig ⟨S_, .f32⟩) (.of main_call2_v0 : StableHlo.TRef sig ⟨S4096, .f32⟩) (fun x v => Host.reduceAdd x v reducesTo_S4096x4096_S4096_d0 h_S_),
    StableHlo.TRef.unary (.of main_call2_v0 : StableHlo.TRef sig ⟨S4096, .f32⟩) (.of main_call2_v1 : StableHlo.TRef sig ⟨S1x4096, .f32⟩) (broadcastInDim S1x4096 ![1] bcast_S4096_S1x4096_1),
    StableHlo.TRef.nullary (.of main_call2_cst_0 : StableHlo.TRef sig ⟨S_, .f32⟩) (constant S_ .f32 0x45800000#32),
    StableHlo.TRef.unary (.of main_call2_cst_0 : StableHlo.TRef sig ⟨S_, .f32⟩) (.of main_call2_v2 : StableHlo.TRef sig ⟨S1x4096, .f32⟩) (broadcastInDim S1x4096 ![] bcast_S_S1x4096),
    StableHlo.TRef.binary (.of main_call2_v1 : StableHlo.TRef sig ⟨S1x4096, .f32⟩) (.of main_call2_v2 : StableHlo.TRef sig ⟨S1x4096, .f32⟩) (.of main_call2_v3 : StableHlo.TRef sig ⟨S1x4096, .f32⟩) Host.divf,
    StableHlo.TRef.unary (.of main_call2_v3 : StableHlo.TRef sig ⟨S1x4096, .f32⟩) (.of main_call2_v4 : StableHlo.TRef sig ⟨S4096x4096, .f32⟩) (broadcastInDim S4096x4096 ![0, 1] bcast_S1x4096_S4096x4096_0_1),
    StableHlo.TRef.binary (.of main_v48 : StableHlo.TRef sig ⟨S4096x4096, .f32⟩) (.of main_call2_v4 : StableHlo.TRef sig ⟨S4096x4096, .f32⟩) (.of main_call2_v5 : StableHlo.TRef sig ⟨S4096x4096, .f32⟩) subf,
    StableHlo.TRef.binary (.of main_call2_v5 : StableHlo.TRef sig ⟨S4096x4096, .f32⟩) (.of main_call2_v5 : StableHlo.TRef sig ⟨S4096x4096, .f32⟩) (.of main_call2_v6 : StableHlo.TRef sig ⟨S4096x4096, .f32⟩) mulf,
    StableHlo.TRef.unary (.of main_c_8 : StableHlo.TRef sig ⟨S_, .i32⟩) (.of main_call2_v7 : StableHlo.TRef sig ⟨S_, .f32⟩) (sitofp .f32),
    StableHlo.TRef.nullary (.of main_call2_cst_1 : StableHlo.TRef sig ⟨S_, .f32⟩) (constant S_ .f32 0x45800000#32),
    StableHlo.TRef.binary (.of main_call2_cst_1 : StableHlo.TRef sig ⟨S_, .f32⟩) (.of main_call2_v7 : StableHlo.TRef sig ⟨S_, .f32⟩) (.of main_call2_v8 : StableHlo.TRef sig ⟨S_, .f32⟩) subf,
    StableHlo.TRef.nullary (.of main_call2_cst_2 : StableHlo.TRef sig ⟨S_, .f32⟩) (constant S_ .f32 0x00000000#32),
    StableHlo.TRef.binary (.of main_call2_v6 : StableHlo.TRef sig ⟨S4096x4096, .f32⟩) (.of main_call2_cst_2 : StableHlo.TRef sig ⟨S_, .f32⟩) (.of main_call2_v9 : StableHlo.TRef sig ⟨S4096, .f32⟩) (fun x v => Host.reduceAdd x v reducesTo_S4096x4096_S4096_d0 h_S_),
    StableHlo.TRef.unary (.of main_call2_v8 : StableHlo.TRef sig ⟨S_, .f32⟩) (.of main_call2_v10 : StableHlo.TRef sig ⟨S4096, .f32⟩) (broadcastInDim S4096 ![] bcast_S_S4096),
    StableHlo.TRef.binary (.of main_call2_v9 : StableHlo.TRef sig ⟨S4096, .f32⟩) (.of main_call2_v10 : StableHlo.TRef sig ⟨S4096, .f32⟩) (.of main_call2_v11 : StableHlo.TRef sig ⟨S4096, .f32⟩) Host.divf,
    StableHlo.TRef.nullary (.of main_call2_cst_3 : StableHlo.TRef sig ⟨S_, .f32⟩) (constant S_ .f32 0x00000000#32),
    StableHlo.TRef.binary (.of main_call2_v8 : StableHlo.TRef sig ⟨S_, .f32⟩) (.of main_call2_cst_3 : StableHlo.TRef sig ⟨S_, .f32⟩) (.of main_call2_v12 : StableHlo.TRef sig ⟨S_, .i1⟩) (cmpf .ogt),
    StableHlo.TRef.nullary (.of main_call2_cst_4 : StableHlo.TRef sig ⟨S_, .f32⟩) (constant S_ .f32 0x7FC00000#32),
    StableHlo.TRef.unary (.of main_call2_cst_4 : StableHlo.TRef sig ⟨S_, .f32⟩) (.of main_call2_call0_v0 : StableHlo.TRef sig ⟨S_, .f32⟩) id,
    StableHlo.TRef.unary (.of main_call2_call0_v0 : StableHlo.TRef sig ⟨S_, .f32⟩) (.of main_call2_call0_v1 : StableHlo.TRef sig ⟨S4096, .f32⟩) (broadcastInDim S4096 ![] bcast_S_S4096),
    StableHlo.TRef.ternary (.of main_call2_v12 : StableHlo.TRef sig ⟨S_, .i1⟩) (.of main_call2_v11 : StableHlo.TRef sig ⟨S4096, .f32⟩) (.of main_call2_call0_v1 : StableHlo.TRef sig ⟨S4096, .f32⟩) (.of main_v52 : StableHlo.TRef sig ⟨S4096, .f32⟩) (fun p a b => select (broadcastInDim S4096 ![] bcast_S_S4096 p) a b) ]
theorem C2_sub : (C2 : List (HloOp τ sig (Elt F))).Forall fun op => op.bufs ⊆ tcRefs τ sig :=
  ⟨nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩
theorem C2_fresh : (C2 : List (HloOp τ sig (Elt F))).Forall fun op => op.fresh = ∅ := by
  simp only [List.Forall]; repeat' constructor

/-- Layer 2's normalisation and its sign. -/
abbrev D2 : List (HloOp τ sig (Elt F)) :=
  [ StableHlo.unary main_v51 main_v53 (broadcastInDim S1x4096 ![1] bcast_S4096_S1x4096_1 : (⟨S4096, .f32⟩ : BufTy).Contents (Elt F) → (⟨S1x4096, .f32⟩ : BufTy).Contents (Elt F)),
    StableHlo.unary main_v53 main_v54 (broadcastInDim S4096x4096 ![0, 1] bcast_S1x4096_S4096x4096_0_1 : (⟨S1x4096, .f32⟩ : BufTy).Contents (Elt F) → (⟨S4096x4096, .f32⟩ : BufTy).Contents (Elt F)),
    StableHlo.binary main_v48 main_v54 main_v55 (subf : (⟨S4096x4096, .f32⟩ : BufTy).Contents (Elt F) → (⟨S4096x4096, .f32⟩ : BufTy).Contents (Elt F) → (⟨S4096x4096, .f32⟩ : BufTy).Contents (Elt F)),
    StableHlo.nullary main_cst_9 (constant S_ .f32 0x3727C5AC#32),
    StableHlo.unary main_cst_9 main_v56 (broadcastInDim S4096 ![] bcast_S_S4096 : (⟨S_, .f32⟩ : BufTy).Contents (Elt F) → (⟨S4096, .f32⟩ : BufTy).Contents (Elt F)),
    StableHlo.binary main_v52 main_v56 main_v57 (addf : (⟨S4096, .f32⟩ : BufTy).Contents (Elt F) → (⟨S4096, .f32⟩ : BufTy).Contents (Elt F) → (⟨S4096, .f32⟩ : BufTy).Contents (Elt F)),
    StableHlo.unary main_v57 main_v58 (Host.rsqrt : (⟨S4096, .f32⟩ : BufTy).Contents (Elt F) → (⟨S4096, .f32⟩ : BufTy).Contents (Elt F)),
    StableHlo.unary main_v58 main_v59 (broadcastInDim S1x4096 ![1] bcast_S4096_S1x4096_1 : (⟨S4096, .f32⟩ : BufTy).Contents (Elt F) → (⟨S1x4096, .f32⟩ : BufTy).Contents (Elt F)),
    StableHlo.unary main_v59 main_v60 (broadcastInDim S4096x4096 ![0, 1] bcast_S1x4096_S4096x4096_0_1 : (⟨S1x4096, .f32⟩ : BufTy).Contents (Elt F) → (⟨S4096x4096, .f32⟩ : BufTy).Contents (Elt F)),
    StableHlo.binary main_v55 main_v60 main_v61 (mulf : (⟨S4096x4096, .f32⟩ : BufTy).Contents (Elt F) → (⟨S4096x4096, .f32⟩ : BufTy).Contents (Elt F) → (⟨S4096x4096, .f32⟩ : BufTy).Contents (Elt F)),
    StableHlo.unary main_arg9 main_v62 (broadcastInDim S1x4096 ![1] bcast_S4096_S1x4096_1 : (⟨S4096, .f32⟩ : BufTy).Contents (Elt F) → (⟨S1x4096, .f32⟩ : BufTy).Contents (Elt F)),
    StableHlo.unary main_v62 main_v63 (broadcastInDim S4096x4096 ![0, 1] bcast_S1x4096_S4096x4096_0_1 : (⟨S1x4096, .f32⟩ : BufTy).Contents (Elt F) → (⟨S4096x4096, .f32⟩ : BufTy).Contents (Elt F)),
    StableHlo.binary main_v61 main_v63 main_v64 (mulf : (⟨S4096x4096, .f32⟩ : BufTy).Contents (Elt F) → (⟨S4096x4096, .f32⟩ : BufTy).Contents (Elt F) → (⟨S4096x4096, .f32⟩ : BufTy).Contents (Elt F)),
    StableHlo.unary main_arg10 main_v65 (broadcastInDim S1x4096 ![1] bcast_S4096_S1x4096_1 : (⟨S4096, .f32⟩ : BufTy).Contents (Elt F) → (⟨S1x4096, .f32⟩ : BufTy).Contents (Elt F)),
    StableHlo.unary main_v65 main_v66 (broadcastInDim S4096x4096 ![0, 1] bcast_S1x4096_S4096x4096_0_1 : (⟨S1x4096, .f32⟩ : BufTy).Contents (Elt F) → (⟨S4096x4096, .f32⟩ : BufTy).Contents (Elt F)),
    StableHlo.binary main_v64 main_v66 main_v67 (addf : (⟨S4096x4096, .f32⟩ : BufTy).Contents (Elt F) → (⟨S4096x4096, .f32⟩ : BufTy).Contents (Elt F) → (⟨S4096x4096, .f32⟩ : BufTy).Contents (Elt F)),
    StableHlo.unary main_v67 main_v68 (Host.sign : (⟨S4096x4096, .f32⟩ : BufTy).Contents (Elt F) → (⟨S4096x4096, .f32⟩ : BufTy).Contents (Elt F)) ]
theorem D2_sub : (D2 : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., unary_bufs_sub ..⟩
theorem D2_fresh : (D2 : List (HloOp τ sig (Elt F))).Forall fun op => op.fresh = ∅ := by
  simp only [List.Forall]; repeat' constructor

/-- Layer 3's product: the weight signs, their transpose, the contraction with the activations. -/
abbrev A3 : List (HloOp τ sig (Elt F)) :=
  [ StableHlo.unary main_arg4 main_v69 (Host.sign : (⟨S1024x4096, .f32⟩ : BufTy).Contents (Elt F) → (⟨S1024x4096, .f32⟩ : BufTy).Contents (Elt F)),
    StableHlo.unary main_v69 main_v70 ((transpose S4096x1024 [1, 0] · transposes_S1024x4096_S4096x1024_1_0) : (⟨S1024x4096, .f32⟩ : BufTy).Contents (Elt F) → (⟨S4096x1024, .f32⟩ : BufTy).Contents (Elt F)),
    StableHlo.binary main_v68 main_v70 main_v71 ((fun l r => Host.dotGeneral dot_S4096x4096_S4096x1024_S4096x1024_1_0_0_1_n_n none l r) : (⟨S4096x4096, .f32⟩ : BufTy).Contents (Elt F) → (⟨S4096x1024, .f32⟩ : BufTy).Contents (Elt F) → (⟨S4096x1024, .f32⟩ : BufTy).Contents (Elt F)) ]
theorem A3_sub : (A3 : List (HloOp τ sig (Elt F))).Forall fun op => op.bufs ⊆ tcRefs τ sig :=
  ⟨unary_bufs_sub .., unary_bufs_sub .., binary_bufs_sub ..⟩
theorem A3_fresh : (A3 : List (HloOp τ sig (Elt F))).Forall fun op => op.fresh = ∅ := by
  simp only [List.Forall]; repeat' constructor

/-- Layer 3's column means. -/
abbrev B3 : List (HloOp τ sig (Elt F)) :=
  [ StableHlo.nullary main_cst_10 (constant S_ .f32 0x00000000#32),
    StableHlo.binary main_v71 main_cst_10 main_v72 ((fun x v => Host.reduceAdd x v reducesTo_S4096x1024_S1024_d0 h_S_) : (⟨S4096x1024, .f32⟩ : BufTy).Contents (Elt F) → (⟨S_, .f32⟩ : BufTy).Contents (Elt F) → (⟨S1024, .f32⟩ : BufTy).Contents (Elt F)),
    StableHlo.nullary main_cst_11 (constant S_ .f32 0x45800000#32),
    StableHlo.unary main_cst_11 main_v73 (broadcastInDim S1024 ![] bcast_S_S1024 : (⟨S_, .f32⟩ : BufTy).Contents (Elt F) → (⟨S1024, .f32⟩ : BufTy).Contents (Elt F)),
    StableHlo.binary main_v72 main_v73 main_v74 (Host.divf : (⟨S1024, .f32⟩ : BufTy).Contents (Elt F) → (⟨S1024, .f32⟩ : BufTy).Contents (Elt F) → (⟨S1024, .f32⟩ : BufTy).Contents (Elt F)),
    StableHlo.nullary main_c_12 (constantI S_ 32 0#32) ]
theorem B3_sub : (B3 : List (HloOp τ sig (Elt F))).Forall fun op => op.bufs ⊆ tcRefs τ sig :=
  ⟨nullary_bufs_sub .., binary_bufs_sub .., nullary_bufs_sub .., unary_bufs_sub .., binary_bufs_sub .., nullary_bufs_sub ..⟩
theorem B3_fresh : (B3 : List (HloOp τ sig (Elt F))).Forall fun op => op.fresh = ∅ := by
  simp only [List.Forall]; repeat' constructor

/-- Layer 3's column variances: the outlined variance's operations at its call, in order. -/
abbrev C3 : List (HloOp τ sig (Elt F)) :=
  [ StableHlo.TRef.nullary (.of main_call3_cst : StableHlo.TRef sig ⟨S_, .f32⟩) (constant S_ .f32 0x00000000#32),
    StableHlo.TRef.binary (.of main_v71 : StableHlo.TRef sig ⟨S4096x1024, .f32⟩) (.of main_call3_cst : StableHlo.TRef sig ⟨S_, .f32⟩) (.of main_call3_v0 : StableHlo.TRef sig ⟨S1024, .f32⟩) (fun x v => Host.reduceAdd x v reducesTo_S4096x1024_S1024_d0 h_S_),
    StableHlo.TRef.unary (.of main_call3_v0 : StableHlo.TRef sig ⟨S1024, .f32⟩) (.of main_call3_v1 : StableHlo.TRef sig ⟨S1x1024, .f32⟩) (broadcastInDim S1x1024 ![1] bcast_S1024_S1x1024_1),
    StableHlo.TRef.nullary (.of main_call3_cst_0 : StableHlo.TRef sig ⟨S_, .f32⟩) (constant S_ .f32 0x45800000#32),
    StableHlo.TRef.unary (.of main_call3_cst_0 : StableHlo.TRef sig ⟨S_, .f32⟩) (.of main_call3_v2 : StableHlo.TRef sig ⟨S1x1024, .f32⟩) (broadcastInDim S1x1024 ![] bcast_S_S1x1024),
    StableHlo.TRef.binary (.of main_call3_v1 : StableHlo.TRef sig ⟨S1x1024, .f32⟩) (.of main_call3_v2 : StableHlo.TRef sig ⟨S1x1024, .f32⟩) (.of main_call3_v3 : StableHlo.TRef sig ⟨S1x1024, .f32⟩) Host.divf,
    StableHlo.TRef.unary (.of main_call3_v3 : StableHlo.TRef sig ⟨S1x1024, .f32⟩) (.of main_call3_v4 : StableHlo.TRef sig ⟨S4096x1024, .f32⟩) (broadcastInDim S4096x1024 ![0, 1] bcast_S1x1024_S4096x1024_0_1),
    StableHlo.TRef.binary (.of main_v71 : StableHlo.TRef sig ⟨S4096x1024, .f32⟩) (.of main_call3_v4 : StableHlo.TRef sig ⟨S4096x1024, .f32⟩) (.of main_call3_v5 : StableHlo.TRef sig ⟨S4096x1024, .f32⟩) subf,
    StableHlo.TRef.binary (.of main_call3_v5 : StableHlo.TRef sig ⟨S4096x1024, .f32⟩) (.of main_call3_v5 : StableHlo.TRef sig ⟨S4096x1024, .f32⟩) (.of main_call3_v6 : StableHlo.TRef sig ⟨S4096x1024, .f32⟩) mulf,
    StableHlo.TRef.unary (.of main_c_12 : StableHlo.TRef sig ⟨S_, .i32⟩) (.of main_call3_v7 : StableHlo.TRef sig ⟨S_, .f32⟩) (sitofp .f32),
    StableHlo.TRef.nullary (.of main_call3_cst_1 : StableHlo.TRef sig ⟨S_, .f32⟩) (constant S_ .f32 0x45800000#32),
    StableHlo.TRef.binary (.of main_call3_cst_1 : StableHlo.TRef sig ⟨S_, .f32⟩) (.of main_call3_v7 : StableHlo.TRef sig ⟨S_, .f32⟩) (.of main_call3_v8 : StableHlo.TRef sig ⟨S_, .f32⟩) subf,
    StableHlo.TRef.nullary (.of main_call3_cst_2 : StableHlo.TRef sig ⟨S_, .f32⟩) (constant S_ .f32 0x00000000#32),
    StableHlo.TRef.binary (.of main_call3_v6 : StableHlo.TRef sig ⟨S4096x1024, .f32⟩) (.of main_call3_cst_2 : StableHlo.TRef sig ⟨S_, .f32⟩) (.of main_call3_v9 : StableHlo.TRef sig ⟨S1024, .f32⟩) (fun x v => Host.reduceAdd x v reducesTo_S4096x1024_S1024_d0 h_S_),
    StableHlo.TRef.unary (.of main_call3_v8 : StableHlo.TRef sig ⟨S_, .f32⟩) (.of main_call3_v10 : StableHlo.TRef sig ⟨S1024, .f32⟩) (broadcastInDim S1024 ![] bcast_S_S1024),
    StableHlo.TRef.binary (.of main_call3_v9 : StableHlo.TRef sig ⟨S1024, .f32⟩) (.of main_call3_v10 : StableHlo.TRef sig ⟨S1024, .f32⟩) (.of main_call3_v11 : StableHlo.TRef sig ⟨S1024, .f32⟩) Host.divf,
    StableHlo.TRef.nullary (.of main_call3_cst_3 : StableHlo.TRef sig ⟨S_, .f32⟩) (constant S_ .f32 0x00000000#32),
    StableHlo.TRef.binary (.of main_call3_v8 : StableHlo.TRef sig ⟨S_, .f32⟩) (.of main_call3_cst_3 : StableHlo.TRef sig ⟨S_, .f32⟩) (.of main_call3_v12 : StableHlo.TRef sig ⟨S_, .i1⟩) (cmpf .ogt),
    StableHlo.TRef.nullary (.of main_call3_cst_4 : StableHlo.TRef sig ⟨S_, .f32⟩) (constant S_ .f32 0x7FC00000#32),
    StableHlo.TRef.unary (.of main_call3_cst_4 : StableHlo.TRef sig ⟨S_, .f32⟩) (.of main_call3_call0_v0 : StableHlo.TRef sig ⟨S_, .f32⟩) id,
    StableHlo.TRef.unary (.of main_call3_call0_v0 : StableHlo.TRef sig ⟨S_, .f32⟩) (.of main_call3_call0_v1 : StableHlo.TRef sig ⟨S1024, .f32⟩) (broadcastInDim S1024 ![] bcast_S_S1024),
    StableHlo.TRef.ternary (.of main_call3_v12 : StableHlo.TRef sig ⟨S_, .i1⟩) (.of main_call3_v11 : StableHlo.TRef sig ⟨S1024, .f32⟩) (.of main_call3_call0_v1 : StableHlo.TRef sig ⟨S1024, .f32⟩) (.of main_v75 : StableHlo.TRef sig ⟨S1024, .f32⟩) (fun p a b => select (broadcastInDim S1024 ![] bcast_S_S1024 p) a b) ]
theorem C3_sub : (C3 : List (HloOp τ sig (Elt F))).Forall fun op => op.bufs ⊆ tcRefs τ sig :=
  ⟨nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩
theorem C3_fresh : (C3 : List (HloOp τ sig (Elt F))).Forall fun op => op.fresh = ∅ := by
  simp only [List.Forall]; repeat' constructor

/-- Layer 3's normalisation. -/
abbrev D3 : List (HloOp τ sig (Elt F)) :=
  [ StableHlo.unary main_v74 main_v76 (broadcastInDim S1x1024 ![1] bcast_S1024_S1x1024_1 : (⟨S1024, .f32⟩ : BufTy).Contents (Elt F) → (⟨S1x1024, .f32⟩ : BufTy).Contents (Elt F)),
    StableHlo.unary main_v76 main_v77 (broadcastInDim S4096x1024 ![0, 1] bcast_S1x1024_S4096x1024_0_1 : (⟨S1x1024, .f32⟩ : BufTy).Contents (Elt F) → (⟨S4096x1024, .f32⟩ : BufTy).Contents (Elt F)),
    StableHlo.binary main_v71 main_v77 main_v78 (subf : (⟨S4096x1024, .f32⟩ : BufTy).Contents (Elt F) → (⟨S4096x1024, .f32⟩ : BufTy).Contents (Elt F) → (⟨S4096x1024, .f32⟩ : BufTy).Contents (Elt F)),
    StableHlo.nullary main_cst_13 (constant S_ .f32 0x3727C5AC#32),
    StableHlo.unary main_cst_13 main_v79 (broadcastInDim S1024 ![] bcast_S_S1024 : (⟨S_, .f32⟩ : BufTy).Contents (Elt F) → (⟨S1024, .f32⟩ : BufTy).Contents (Elt F)),
    StableHlo.binary main_v75 main_v79 main_v80 (addf : (⟨S1024, .f32⟩ : BufTy).Contents (Elt F) → (⟨S1024, .f32⟩ : BufTy).Contents (Elt F) → (⟨S1024, .f32⟩ : BufTy).Contents (Elt F)),
    StableHlo.unary main_v80 main_v81 (Host.rsqrt : (⟨S1024, .f32⟩ : BufTy).Contents (Elt F) → (⟨S1024, .f32⟩ : BufTy).Contents (Elt F)),
    StableHlo.unary main_v81 main_v82 (broadcastInDim S1x1024 ![1] bcast_S1024_S1x1024_1 : (⟨S1024, .f32⟩ : BufTy).Contents (Elt F) → (⟨S1x1024, .f32⟩ : BufTy).Contents (Elt F)),
    StableHlo.unary main_v82 main_v83 (broadcastInDim S4096x1024 ![0, 1] bcast_S1x1024_S4096x1024_0_1 : (⟨S1x1024, .f32⟩ : BufTy).Contents (Elt F) → (⟨S4096x1024, .f32⟩ : BufTy).Contents (Elt F)),
    StableHlo.binary main_v78 main_v83 main_v84 (mulf : (⟨S4096x1024, .f32⟩ : BufTy).Contents (Elt F) → (⟨S4096x1024, .f32⟩ : BufTy).Contents (Elt F) → (⟨S4096x1024, .f32⟩ : BufTy).Contents (Elt F)),
    StableHlo.unary main_arg11 main_v85 (broadcastInDim S1x1024 ![1] bcast_S1024_S1x1024_1 : (⟨S1024, .f32⟩ : BufTy).Contents (Elt F) → (⟨S1x1024, .f32⟩ : BufTy).Contents (Elt F)),
    StableHlo.unary main_v85 main_v86 (broadcastInDim S4096x1024 ![0, 1] bcast_S1x1024_S4096x1024_0_1 : (⟨S1x1024, .f32⟩ : BufTy).Contents (Elt F) → (⟨S4096x1024, .f32⟩ : BufTy).Contents (Elt F)),
    StableHlo.binary main_v84 main_v86 main_v87 (mulf : (⟨S4096x1024, .f32⟩ : BufTy).Contents (Elt F) → (⟨S4096x1024, .f32⟩ : BufTy).Contents (Elt F) → (⟨S4096x1024, .f32⟩ : BufTy).Contents (Elt F)),
    StableHlo.unary main_arg12 main_v88 (broadcastInDim S1x1024 ![1] bcast_S1024_S1x1024_1 : (⟨S1024, .f32⟩ : BufTy).Contents (Elt F) → (⟨S1x1024, .f32⟩ : BufTy).Contents (Elt F)),
    StableHlo.unary main_v88 main_v89 (broadcastInDim S4096x1024 ![0, 1] bcast_S1x1024_S4096x1024_0_1 : (⟨S1x1024, .f32⟩ : BufTy).Contents (Elt F) → (⟨S4096x1024, .f32⟩ : BufTy).Contents (Elt F)),
    StableHlo.binary main_v87 main_v89 main_v90 (addf : (⟨S4096x1024, .f32⟩ : BufTy).Contents (Elt F) → (⟨S4096x1024, .f32⟩ : BufTy).Contents (Elt F) → (⟨S4096x1024, .f32⟩ : BufTy).Contents (Elt F)) ]
theorem D3_sub : (D3 : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub ..⟩
theorem D3_fresh : (D3 : List (HloOp τ sig (Elt F))).Forall fun op => op.fresh = ∅ := by
  simp only [List.Forall]; repeat' constructor

/-! ## The two windows of @main, and the whole line -/

/-- The first window's operations (statements 1 to 60 of @main). -/
abbrev Q0 : List (HloOp τ sig (Elt F)) := A0 ++ B0 ++ C0 ++ D0 ++ A1 ++ B1 ++ C1 ++ D1 ++ A2 ++ B2a
/-- The second window's operations (statements 61 to 107). -/
abbrev Q1 : List (HloOp τ sig (Elt F)) := B2b ++ C2 ++ D2 ++ A3 ++ B3 ++ C3 ++ D3
/-- @main's operations, in order. -/
abbrev ops : List (HloOp τ sig (Elt F)) := Q0 ++ Q1

theorem ops_sub : (ops : List (HloOp τ sig (Elt F))).Forall fun op => op.bufs ⊆ tcRefs τ sig :=
  forall_append (forall_append (forall_append (forall_append (forall_append (forall_append (forall_append (forall_append (forall_append (forall_append (A0_sub) B0_sub) C0_sub) D0_sub) A1_sub) B1_sub) C1_sub) D1_sub) A2_sub) B2a_sub) (forall_append (forall_append (forall_append (forall_append (forall_append (forall_append (B2b_sub) C2_sub) D2_sub) A3_sub) B3_sub) C3_sub) D3_sub)
theorem ops_fresh : (ops : List (HloOp τ sig (Elt F))).Forall fun op => op.fresh = ∅ :=
  forall_append (forall_append (forall_append (forall_append (forall_append (forall_append (forall_append (forall_append (forall_append (forall_append (A0_fresh) B0_fresh) C0_fresh) D0_fresh) A1_fresh) B1_fresh) C1_fresh) D1_fresh) A2_fresh) B2a_fresh) (forall_append (forall_append (forall_append (forall_append (forall_append (forall_append (B2b_fresh) C2_fresh) D2_fresh) A3_fresh) B3_fresh) C3_fresh) D3_fresh)

set_option maxRecDepth 8192 in
set_option maxHeartbeats 2000000 in
/-- The first window is its operations run in order: the outlined functions' definitions unfolded at their calls, the
    concatenation split back into its stages, and sequencing reassociated. -/
theorem part0_eq (d : Dev nD) : main_part0 (F := F) d = seq Q0 := by
  simp only [main_part0, fn_var.body, fn_where.body, Q0, A0, B0, C0, D0, A1, B1, C1, D1, A2, B2a, seq_append, seq, bind_assoc, pure_bind]
  try rfl

set_option maxRecDepth 8192 in
set_option maxHeartbeats 2000000 in
/-- The second window likewise. -/
theorem part1_eq (d : Dev nD) : main_part1 (F := F) d = seq Q1 := by
  simp only [main_part1, fn_var.body, fn_where.body, fn_var_0.body, fn_where_1.body, Q1, B2b, C2, D2, A3, B3, C3, D3, seq_append, seq, bind_assoc, pure_bind]
  try rfl

/-- @main is the whole line. -/
theorem main_eq (d : Dev nD) : main (F := F) d = seq ops := by
  rw [ops, seq_append, ← part0_eq d, ← part1_eq d]
  rfl

theorem scopedRefs_eq : (Finset.univ.filter fun b : Ref sig .tc => b.isScoped) = ∅ := by decide
theorem scopedSems_eq : (Finset.univ.filter fun sm : SemLoc sig => sm.isScoped .tc) = ∅ := by decide

/-- On every device, for any float values, from any memory with zero counters: every weakly fair execution of @main
    terminates, and every final state has each buffer at the fold of @main's operations over its launch contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after (ops (F := F)) (launchContents m c) (Proc.devRef .tc b) :=
  run_seq scopedRefs_eq scopedSems_eq defs main (fun _ => ops) main_eq (fun _ => ops_sub) m ρ
    (fun _ => List.forall_iff_forall_mem.mp ops_fresh)

end Cert.ReferenceIdeal.ROps

end
-- ==== Proof.LibRowOps.lean ====
/-
  Row-wise operations of two-dimensional arrays read at one entry, on the extended reals, at ANY extents.

  * A sum along the columns of an [R, C] matrix (a reduction over axis 1) read at row p is Σ_{k < C} src(p, k): for the
    vector unit's reduction from the zero word (`rowAdd_apply`) and for the host's reduction from an initial value,
    which is added in front (`hostRowAdd_apply`).
  * A vector [a] viewed as a column [a, 1] reads, at (i, u), the vector at i (`shapeCast_a_a1_apply`); a column
    [a, 1] repeated along b columns reads, at (p, c), the column at (p, 0) (`broadcastTo_a1_ab_apply`).
  * The host's general matrix product of [R, K] by [K, C], contracting the left operand's axis 1 with the right
    operand's axis 0, read at (p, q), is Σ_{k < K} l(p, k) · r(k, q) (`dotGeneral_ix2`): the contraction's one-axis
    index is re-indexed over `Fin K`, and the operand indices at result entry (p, q) and position k are (p, k), (k, q).
  * Three matrices of a, b and c columns laid side by side read, at a column, the matrix whose span of columns holds it,
    at the column less the widths before it (`concat3_apply_0`, `_1`, `_2`; for two matrices `concat2_apply_0`, `_1`).
  Imports only the library.
-/
import Idealize.ShloMosaic.PureOps.Ideal.Laws
import Idealize.ShloMosaic.Lib.ValueIdx
import Idealize.ShloMosaic.Lib.Pipeline.Value

noncomputable section

open scoped BigOperators

namespace Cert.LibRowOps

open Idealize.ShloMosaic Idealize.ShloMosaic.ValueIdx

/-- A sum along the columns of an [R, C] matrix, at row p, is the sum over the columns of that row's entries. -/
theorem rowAdd_apply {R C : Nat} (src : FVec Ideal ⟨2, ![R, C]⟩ .f32)
    (h : Shape.Reduces (⟨2, ![R, C]⟩ : Shape) [1] ⟨1, ![R]⟩) (hφ : FKind.Formats .f32)
    (hacc : (0x00000000#32 : BitVec 32) = FKind.add.neutral .f32 hφ) (p : Fin R) :
    multiReduction .add [1] ⟨1, ![R]⟩ src 0x00000000#32 h hφ hacc (ix1 p) = ∑ k : Fin C, src (ix2 p k) :=
  (Ideal.multiReduction_add_single src _ h hφ hacc (ix1 p)).trans
    (Finset.sum_congr rfl fun k _ => congrArg src (funext fun d => Fin.ext (by
      match d with
      | ⟨0, _⟩ => rfl
      | ⟨1, _⟩ => rfl)))

/-- The host's sum along the columns, at row p: the initial value plus the sum over the columns of that row's entries. -/
theorem hostRowAdd_apply {R C : Nat} (x : FVec Ideal ⟨2, ![R, C]⟩ .f32) (init : FVec Ideal ⟨0, ![]⟩ .f32)
    (h' : Shape.ReducesTo (⟨2, ![R, C]⟩ : Shape) [1] ⟨1, ![R]⟩) (h : Shape.Reduces (⟨2, ![R, C]⟩ : Shape) [1] ⟨1, ![R]⟩)
    (hu : 0 < (⟨0, ![]⟩ : Shape).numel) (p : Fin R) :
    Host.reduceAdd (F := Ideal) x init h' hu (ix1 p) = init (Shape.Idx.first hu) + ∑ k : Fin C, x (ix2 p k) :=
  (Ideal.hostReduceAdd_single h' h x (init (Shape.Idx.first hu)) (ix1 p)).trans
    (congrArg (init (Shape.Idx.first hu) + ·) (Finset.sum_congr rfl fun k _ => congrArg x (funext fun d => Fin.ext (by
      match d with
      | ⟨0, _⟩ => rfl
      | ⟨1, _⟩ => rfl))))

/-- A vector [a] viewed as a column [a, 1] reads, at (i, u), the vector at i. -/
theorem shapeCast_a_a1_apply {α : Type} {a : Nat} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] repeated along b columns reads, at (p, c), the column at (p, 0). -/
theorem broadcastTo_a1_ab_apply {α : Type} {a b : Nat} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- `dot_general D l r (p, q) = Σ_k l(p, k) · r(k, q)` at the ideal values, for two-dimensional operands with one
    contracted axis (the left operand's axis 1 with the right operand's axis 0). -/
theorem dotGeneral_ix2 {R K C : Nat} {φ₁ φ₂ : FTy} (D : DotDims ⟨2, ![R, K]⟩ ⟨2, ![K, C]⟩ ⟨2, ![R, C]⟩)
    (hlc : D.lhsContracting = [1]) (hrc : D.rhsContracting = [0]) (hr : D.contr.rank = 1)
    (hs : D.contr.size ⟨0, by omega⟩ = K)
    (hl0 : ∀ (i : (⟨2, ![R, C]⟩ : Shape).Idx) (c : D.contr.Idx), (D.lhsIdx i c 0).val = (i 0).val)
    (hr1 : ∀ (i : (⟨2, ![R, C]⟩ : Shape).Idx) (c : D.contr.Idx), (D.rhsIdx i c 1).val = (i 1).val)
    (prec : Option ContractPrecision)
    (l : FVec Ideal ⟨2, ![R, K]⟩ φ₁) (r : FVec Ideal ⟨2, ![K, C]⟩ φ₂) (p : Fin R) (q : Fin C) :
    Host.dotGeneral (F := Ideal) D prec l r (ix2 p q) = ∑ k : Fin K, l (ix2 p k) * r (ix2 k q) := by
  refine (Ideal.dotGeneral_apply D prec _ l r (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k :=
    funext fun a => Fin.ext (by
      match a with
      | ⟨0, _⟩ => exact hl0 _ _
      | ⟨1, _⟩ => exact (D.lhsIdx_val_of_single hlc _ _).trans hk)
  have er : D.rhsIdx (ix2 p q) ((contrEquiv1 D K hr hs).symm k) = ix2 k q :=
    funext fun a => Fin.ext (by
      match a with
      | ⟨0, _⟩ => exact (D.rhsIdx_val_of_single hrc _ _).trans hk
      | ⟨1, _⟩ => exact hr1 _ _)
  rw [el, er]

/-! ## Three matrices side by side -/

section Concat3
variable {α : Type} {R a b c n : Nat}
  (x1 : (⟨2, ![R, a]⟩ : Shape).Idx → α) (x2 : (⟨2, ![R, b]⟩ : Shape).Idx → α) (x3 : (⟨2, ![R, c]⟩ : Shape).Idx → α)
  (h : Shape.Concatenates [(⟨2, ![R, a]⟩ : Shape), ⟨2, ![R, b]⟩, ⟨2, ![R, c]⟩] ⟨2, ![R, n]⟩ 1)

/-- Three matrices of a, b and c columns side by side read, at a column q below a, the first at column q. -/
theorem concat3_apply_0 (p : Fin R) (q : Fin n) (q' : Fin a) (hq : q'.val = q.val) :
    concatenate ⟨2, ![R, n]⟩ 1 [⟨⟨2, ![R, a]⟩, x1⟩, ⟨⟨2, ![R, b]⟩, x2⟩, ⟨⟨2, ![R, c]⟩, x3⟩] h (ix2 p q) = x1 (ix2 p q') :=
  concatenate_apply_piece (t := ⟨2, ![R, n]⟩) (1 : Fin 2) [⟨⟨2, ![R, a]⟩, x1⟩, ⟨⟨2, ![R, b]⟩, x2⟩, ⟨⟨2, ![R, c]⟩, x3⟩] h (ix2 p q) 0 (by simp)
    ⟨2, ![R, a]⟩ x1 rfl rfl 0 rfl (ix2 p q')
    (fun d hd => by
      match d with
      | ⟨0, _⟩ => rfl
      | ⟨1, _⟩ => exact absurd rfl hd)
    (by show 0 + q'.val = q.val; omega)

/-- At a column a + q', the second at column q'. -/
theorem concat3_apply_1 (p : Fin R) (q : Fin n) (q' : Fin b) (hq : a + q'.val = q.val) :
    concatenate ⟨2, ![R, n]⟩ 1 [⟨⟨2, ![R, a]⟩, x1⟩, ⟨⟨2, ![R, b]⟩, x2⟩, ⟨⟨2, ![R, c]⟩, x3⟩] h (ix2 p q) = x2 (ix2 p q') :=
  concatenate_apply_piece (t := ⟨2, ![R, n]⟩) (1 : Fin 2) [⟨⟨2, ![R, a]⟩, x1⟩, ⟨⟨2, ![R, b]⟩, x2⟩, ⟨⟨2, ![R, c]⟩, x3⟩] h (ix2 p q) 1 (by simp)
    ⟨2, ![R, b]⟩ x2 rfl rfl a (by simp) (ix2 p q')
    (fun d hd => by
      match d with
      | ⟨0, _⟩ => rfl
      | ⟨1, _⟩ => exact absurd rfl hd)
    (by show a + q'.val = q.val; omega)

/-- At a column a + b + q', the third at column q'. -/
theorem concat3_apply_2 (p : Fin R) (q : Fin n) (q' : Fin c) (hq : a + b + q'.val = q.val) :
    concatenate ⟨2, ![R, n]⟩ 1 [⟨⟨2, ![R, a]⟩, x1⟩, ⟨⟨2, ![R, b]⟩, x2⟩, ⟨⟨2, ![R, c]⟩, x3⟩] h (ix2 p q) = x3 (ix2 p q') :=
  concatenate_apply_piece (t := ⟨2, ![R, n]⟩) (1 : Fin 2) [⟨⟨2, ![R, a]⟩, x1⟩, ⟨⟨2, ![R, b]⟩, x2⟩, ⟨⟨2, ![R, c]⟩, x3⟩] h (ix2 p q) 2 (by simp)
    ⟨2, ![R, c]⟩ x3 rfl rfl (a + b) (by simp) (ix2 p q')
    (fun d hd => by
      match d with
      | ⟨0, _⟩ => rfl
      | ⟨1, _⟩ => exact absurd rfl hd)
    (by show a + b + q'.val = q.val; omega)

end Concat3

/-! ## Two matrices side by side -/

section Concat2
variable {α : Type} {R a b n : Nat}
  (x1 : (⟨2, ![R, a]⟩ : Shape).Idx → α) (x2 : (⟨2, ![R, b]⟩ : Shape).Idx → α)
  (h : Shape.Concatenates [(⟨2, ![R, a]⟩ : Shape), ⟨2, ![R, b]⟩] ⟨2, ![R, n]⟩ 1)

/-- Two matrices of a and b columns side by side read, at a column q below a, the first at column q. -/
theorem concat2_apply_0 (p : Fin R) (q : Fin n) (q' : Fin a) (hq : q'.val = q.val) :
    concatenate ⟨2, ![R, n]⟩ 1 [⟨⟨2, ![R, a]⟩, x1⟩, ⟨⟨2, ![R, b]⟩, x2⟩] h (ix2 p q) = x1 (ix2 p q') :=
  concatenate_apply_piece (t := ⟨2, ![R, n]⟩) (1 : Fin 2) [⟨⟨2, ![R, a]⟩, x1⟩, ⟨⟨2, ![R, b]⟩, x2⟩] h (ix2 p q) 0 (by simp)
    ⟨2, ![R, a]⟩ x1 rfl rfl 0 rfl (ix2 p q')
    (fun d hd => by
      match d with
      | ⟨0, _⟩ => rfl
      | ⟨1, _⟩ => exact absurd rfl hd)
    (by show 0 + q'.val = q.val; omega)

/-- At a column a + q', the second at column q'. -/
theorem concat2_apply_1 (p : Fin R) (q : Fin n) (q' : Fin b) (hq : a + q'.val = q.val) :
    concatenate ⟨2, ![R, n]⟩ 1 [⟨⟨2, ![R, a]⟩, x1⟩, ⟨⟨2, ![R, b]⟩, x2⟩] h (ix2 p q) = x2 (ix2 p q') :=
  concatenate_apply_piece (t := ⟨2, ![R, n]⟩) (1 : Fin 2) [⟨⟨2, ![R, a]⟩, x1⟩, ⟨⟨2, ![R, b]⟩, x2⟩] h (ix2 p q) 1 (by simp)
    ⟨2, ![R, b]⟩ x2 rfl rfl a (by simp) (ix2 p q')
    (fun d hd => by
      match d with
      | ⟨0, _⟩ => rfl
      | ⟨1, _⟩ => exact absurd rfl hd)
    (by show a + q'.val = q.val; omega)

end Concat2

end Cert.LibRowOps

end
-- ==== Proof.RProd.lean ====
/-
  The reference's matrix products at the ideal values: the host contraction of the activations h : [4096, 4096] (axis 1)
  with the TRANSPOSE of a matrix s : [C, 4096] (axis 0 of the transpose) has entry (p, q) = Σ_k h(p, k) · s(q, k), which
  is `mm h s` — for the hidden layers' width C = 4096 and the output layer's C = 1024.
-/
import proofs.«161644_j58961311039944_1_alg».proof.ReferenceIdeal
import proofs.«161644_j58961311039944_1_alg».proof.Proof.Gen.ReferenceIdeal
import proofs.«161644_j58961311039944_1_alg».proof.Proof.Spec
import proofs.«161644_j58961311039944_1_alg».proof.Proof.LibRowOps
import Idealize.ShloMosaic.Lib.Pipeline.Value

noncomputable section

namespace Cert.ReferenceIdeal.RProd

open Cert.ReferenceIdeal Cert.ReferenceIdeal.Gen Idealize.ShloMosaic Idealize.ShloMosaic.ValueIdx
open Cert.Bnn Cert.LibRowOps
open scoped BigOperators

/-- The result's row is the left operand's row. -/
theorem lhs_row4096 (i : S4096x4096.Idx) (c : dot_S4096x4096_S4096x4096_S4096x4096_1_0_0_1_n_n.contr.Idx) :
    (dot_S4096x4096_S4096x4096_S4096x4096_1_0_0_1_n_n.lhsIdx i c 0).val = (i 0).val := by
  unfold DotDims.lhsIdx
  rw [dif_neg (show ¬(0 : Fin _) ∈ dot_S4096x4096_S4096x4096_S4096x4096_1_0_0_1_n_n.lhsBatch by decide),
    dif_pos (show (0 : Fin _) ∈ dot_S4096x4096_S4096x4096_S4096x4096_1_0_0_1_n_n.lhsNonContracting by decide)]
  rfl

/-- The result's column is the right operand's column. -/
theorem rhs_col4096 (i : S4096x4096.Idx) (c : dot_S4096x4096_S4096x4096_S4096x4096_1_0_0_1_n_n.contr.Idx) :
    (dot_S4096x4096_S4096x4096_S4096x4096_1_0_0_1_n_n.rhsIdx i c 1).val = (i 1).val := by
  unfold DotDims.rhsIdx
  rw [dif_neg (show ¬(1 : Fin _) ∈ dot_S4096x4096_S4096x4096_S4096x4096_1_0_0_1_n_n.rhsBatch by decide),
    dif_pos (show (1 : Fin _) ∈ dot_S4096x4096_S4096x4096_S4096x4096_1_0_0_1_n_n.rhsNonContracting by decide)]
  rfl

/-- The contraction of activations [4096, 4096] with the transpose of a [4096, 4096] matrix is `mm`. -/
theorem dot_eq4096 (X : FVec Ideal S4096x4096 .f32) (Y : FVec Ideal S4096x4096 .f32) :
    Host.dotGeneral (F := Ideal) dot_S4096x4096_S4096x4096_S4096x4096_1_0_0_1_n_n none X (transpose S4096x4096 [1, 0] Y Facts₀.transposes_S4096x4096_S4096x4096_1_0)
      = mm X Y := by
  funext j
  obtain ⟨p, q, rfl⟩ : ∃ (p : Fin 4096) (q : Fin 4096), j = ix2 p q := ⟨j 0, j 1, eq_ix2 j⟩
  refine (dotGeneral_ix2 dot_S4096x4096_S4096x4096_S4096x4096_1_0_0_1_n_n rfl rfl rfl rfl lhs_row4096 rhs_col4096 none _ _ p q).trans ?_
  rw [mm_apply]
  refine Finset.sum_congr rfl fun k _ => ?_
  refine congrArg _ ?_
  exact transpose_apply _ _ _ (ix2 k q) (ix2 q k) (fun b => by match b with | ⟨0, _⟩ => rfl | ⟨1, _⟩ => rfl)

/-- The result's row is the left operand's row. -/
theorem lhs_row1024 (i : S4096x1024.Idx) (c : dot_S4096x4096_S4096x1024_S4096x1024_1_0_0_1_n_n.contr.Idx) :
    (dot_S4096x4096_S4096x1024_S4096x1024_1_0_0_1_n_n.lhsIdx i c 0).val = (i 0).val := by
  unfold DotDims.lhsIdx
  rw [dif_neg (show ¬(0 : Fin _) ∈ dot_S4096x4096_S4096x1024_S4096x1024_1_0_0_1_n_n.lhsBatch by decide),
    dif_pos (show (0 : Fin _) ∈ dot_S4096x4096_S4096x1024_S4096x1024_1_0_0_1_n_n.lhsNonContracting by decide)]
  rfl

/-- The result's column is the right operand's column. -/
theorem rhs_col1024 (i : S4096x1024.Idx) (c : dot_S4096x4096_S4096x1024_S4096x1024_1_0_0_1_n_n.contr.Idx) :
    (dot_S4096x4096_S4096x1024_S4096x1024_1_0_0_1_n_n.rhsIdx i c 1).val = (i 1).val := by
  unfold DotDims.rhsIdx
  rw [dif_neg (show ¬(1 : Fin _) ∈ dot_S4096x4096_S4096x1024_S4096x1024_1_0_0_1_n_n.rhsBatch by decide),
    dif_pos (show (1 : Fin _) ∈ dot_S4096x4096_S4096x1024_S4096x1024_1_0_0_1_n_n.rhsNonContracting by decide)]
  rfl

/-- The contraction of activations [4096, 4096] with the transpose of a [1024, 4096] matrix is `mm`. -/
theorem dot_eq1024 (X : FVec Ideal S4096x4096 .f32) (Y : FVec Ideal S1024x4096 .f32) :
    Host.dotGeneral (F := Ideal) dot_S4096x4096_S4096x1024_S4096x1024_1_0_0_1_n_n none X (transpose S4096x1024 [1, 0] Y Facts₀.transposes_S1024x4096_S4096x1024_1_0)
      = mm X Y := by
  funext j
  obtain ⟨p, q, rfl⟩ : ∃ (p : Fin 4096) (q : Fin 1024), j = ix2 p q := ⟨j 0, j 1, eq_ix2 j⟩
  refine (dotGeneral_ix2 dot_S4096x4096_S4096x1024_S4096x1024_1_0_0_1_n_n rfl rfl rfl rfl lhs_row1024 rhs_col1024 none _ _ p q).trans ?_
  rw [mm_apply]
  refine Finset.sum_congr rfl fun k _ => ?_
  refine congrArg _ ?_
  exact transpose_apply _ _ _ (ix2 k q) (ix2 q k) (fun b => by match b with | ⟨0, _⟩ => rfl | ⟨1, _⟩ => rfl)

end Cert.ReferenceIdeal.RProd

end
-- ==== Proof.RLayer0.lean ====
/-
  Layer 0 of the reference, read as functions of the buffers it starts from.

  Four stages of host operations: the product of the activations (buffer `main_arg0`) with the transposed signs of the
  weights `main_arg1` — `mm` of the two —, its column means, its column variances (the outlined variance), and the
  normalisation, whose sign is the next layer's activations.  Each stage is read at the buffer it produces from ANY contents `W` of the
  buffers before it as the corresponding function of `Spec`; a buffer a stage does not write keeps its contents.
  Composed: the layer's output buffer holds `hidden` of the activations, the weights and the scale and shift vectors.
-/
import proofs.«161644_j58961311039944_1_alg».proof.Proof.ROps
import proofs.«161644_j58961311039944_1_alg».proof.Proof.RProd
import proofs.«161644_j58961311039944_1_alg».proof.Proof.Spec

noncomputable section

namespace Cert.ReferenceIdeal.RLayer0

open Cert.ReferenceIdeal Cert.ReferenceIdeal.Gen Cert.ReferenceIdeal.ROps Idealize.ShloMosaic Idealize.ShloMosaic.TcCoe Idealize.SL.Sem Idealize.ShloMosaic.StableHlo
open Cert.Bnn

/-! ## What each stage writes, and what it leaves alone -/

/-- The references the operations of `A0` write, one per operation. -/
abbrev A0_W : List (Ref sig .tc) := [main_v0, main_v1, main_v2]
theorem A0_writes : (A0 : List (HloOp τ sig (Elt Ideal))).Forall fun op => op.writes ⊆ (A0_W.map (Proc.devRef (τ := τ) .tc)).toFinset := by
  simp only [List.Forall]
  repeat' apply And.intro
  all_goals (simp only [StableHlo.nullary_writes, StableHlo.unary_writes, StableHlo.binary_writes, StableHlo.ternary_writes, Finset.singleton_subset_iff, List.mem_toFinset]; exact List.mem_map_of_mem (by decide))
/-- A buffer none of them writes keeps its contents through `A0`. -/
theorem A0_keep (W : Valuation τ sig (Elt Ideal)) (r : Ref sig .tc) (h : r ∉ A0_W) :
    after A0 W (Proc.devRef .tc r) = W (Proc.devRef .tc r) :=
  after_of_writes_sub A0 W A0_writes h

/-- The references the operations of `B0` write, one per operation. -/
abbrev B0_W : List (Ref sig .tc) := [main_cst, main_v3, main_cst_0, main_v4, main_v5, main_c]
theorem B0_writes : (B0 : List (HloOp τ sig (Elt Ideal))).Forall fun op => op.writes ⊆ (B0_W.map (Proc.devRef (τ := τ) .tc)).toFinset := by
  simp only [List.Forall]
  repeat' apply And.intro
  all_goals (simp only [StableHlo.nullary_writes, StableHlo.unary_writes, StableHlo.binary_writes, StableHlo.ternary_writes, Finset.singleton_subset_iff, List.mem_toFinset]; exact List.mem_map_of_mem (by decide))
/-- A buffer none of them writes keeps its contents through `B0`. -/
theorem B0_keep (W : Valuation τ sig (Elt Ideal)) (r : Ref sig .tc) (h : r ∉ B0_W) :
    after B0 W (Proc.devRef .tc r) = W (Proc.devRef .tc r) :=
  after_of_writes_sub B0 W B0_writes h

/-- The references the operations of `C0` write, one per operation. -/
abbrev C0_W : List (Ref sig .tc) := [main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v6]
theorem C0_writes : (C0 : List (HloOp τ sig (Elt Ideal))).Forall fun op => op.writes ⊆ (C0_W.map (Proc.devRef (τ := τ) .tc)).toFinset := by
  simp only [List.Forall]
  repeat' apply And.intro
  all_goals (simp only [StableHlo.nullary_writes, StableHlo.unary_writes, StableHlo.binary_writes, StableHlo.ternary_writes, Finset.singleton_subset_iff, List.mem_toFinset]; exact List.mem_map_of_mem (by decide))
/-- A buffer none of them writes keeps its contents through `C0`. -/
theorem C0_keep (W : Valuation τ sig (Elt Ideal)) (r : Ref sig .tc) (h : r ∉ C0_W) :
    after C0 W (Proc.devRef .tc r) = W (Proc.devRef .tc r) :=
  after_of_writes_sub C0 W C0_writes h

/-- The references the operations of `D0` write, one per operation. -/
abbrev D0_W : List (Ref sig .tc) := [main_v7, main_v8, main_v9, main_cst_1, main_v10, main_v11, main_v12, main_v13, main_v14, main_v15, main_v16, main_v17, main_v18, main_v19, main_v20, main_v21, main_v22]
theorem D0_writes : (D0 : List (HloOp τ sig (Elt Ideal))).Forall fun op => op.writes ⊆ (D0_W.map (Proc.devRef (τ := τ) .tc)).toFinset := by
  simp only [List.Forall]
  repeat' apply And.intro
  all_goals (simp only [StableHlo.nullary_writes, StableHlo.unary_writes, StableHlo.binary_writes, StableHlo.ternary_writes, Finset.singleton_subset_iff, List.mem_toFinset]; exact List.mem_map_of_mem (by decide))
/-- A buffer none of them writes keeps its contents through `D0`. -/
theorem D0_keep (W : Valuation τ sig (Elt Ideal)) (r : Ref sig .tc) (h : r ∉ D0_W) :
    after D0 W (Proc.devRef .tc r) = W (Proc.devRef .tc r) :=
  after_of_writes_sub D0 W D0_writes h

/-! ## Each stage at the buffer it produces -/

/-- The product of the activations with the transposed weight signs. -/
theorem a_prod (W : Valuation τ sig (Elt Ideal)) :
    after A0 W (Proc.devRef .tc main_v2) = mm (φ₁ := .f32) (W (Proc.devRef .tc main_arg0)) (sgn 4096 4096 (W (Proc.devRef .tc main_arg1))) := by
  after_results
  exact RProd.dot_eq4096 _ _

/-- The column means of the product. -/
theorem b_mean (W : Valuation τ sig (Elt Ideal)) :
    after B0 W (Proc.devRef .tc main_v5) = mean wit4096 (W (Proc.devRef .tc main_v2)) := by
  after_results
  try rfl

/-- The variance's correction: the integer zero. -/
theorem b_zero (W : Valuation τ sig (Elt Ideal)) :
    after B0 W (Proc.devRef .tc main_c) = constantI S0 32 0#32 := by
  after_results
  try rfl

/-- The column variances of the product, at the correction found in `main_c`. -/
theorem c_var (W : Valuation τ sig (Elt Ideal)) :
    after C0 W (Proc.devRef .tc main_v6) = variance wit4096 (W (Proc.devRef .tc main_v2)) (W (Proc.devRef .tc main_c)) := by
  after_results_simp
  try rfl

/-- The normalisation from the statistics found in `main_v5` and `main_v6`, and its sign. -/
theorem d_norm (W : Valuation τ sig (Elt Ideal)) :
    after D0 W (Proc.devRef .tc main_v22) = sgn 4096 4096 (normCore wit4096 (W (Proc.devRef .tc main_v2)) (W (Proc.devRef .tc main_v5)) (W (Proc.devRef .tc main_v6)) (W (Proc.devRef .tc main_arg5)) (W (Proc.devRef .tc main_arg6))) := by
  after_results_simp
  try rfl

/-- A buffer the mean's stage does not write keeps its contents through it. -/
theorem b_keep (W : Valuation τ sig (Elt Ideal)) (r : Ref sig .tc) (h0 : r ∉ B0_W) :
    after B0 W (Proc.devRef .tc r) = W (Proc.devRef .tc r) := by
  rw [B0_keep _ r h0]

/-! ## The layer composed -/

/-- The statistics and the normalisation, from the product found in `main_v2`. -/
theorem tail (W : Valuation τ sig (Elt Ideal)) :
    after D0 (after C0 (after B0 W)) (Proc.devRef .tc main_v22) = sgn 4096 4096 (normTail wit4096 (W (Proc.devRef .tc main_v2)) (W (Proc.devRef .tc main_arg5)) (W (Proc.devRef .tc main_arg6))) := by
  rw [d_norm, C0_keep _ main_v2 (by decide), b_keep _ main_v2 (by decide), C0_keep _ main_v5 (by decide), b_mean, c_var,
    b_keep _ main_v2 (by decide), b_zero, C0_keep _ main_arg5 (by decide), b_keep _ main_arg5 (by decide),
    C0_keep _ main_arg6 (by decide), b_keep _ main_arg6 (by decide)]
  try rfl

/-- The whole layer: the next activations from the activations, the weights, the scale and the shift. -/
theorem out (W : Valuation τ sig (Elt Ideal)) :
    after D0 (after C0 (after B0 (after A0 W))) (Proc.devRef .tc main_v22)
      = hidden (W (Proc.devRef .tc main_arg0)) (W (Proc.devRef .tc main_arg1)) (W (Proc.devRef .tc main_arg5)) (W (Proc.devRef .tc main_arg6)) := by
  rw [tail, a_prod, A0_keep _ main_arg5 (by decide), A0_keep _ main_arg6 (by decide)]
  try rfl

/-- A buffer no stage of the layer writes comes through unchanged. -/
theorem keep (W : Valuation τ sig (Elt Ideal)) (r : Ref sig .tc) (hA : r ∉ A0_W) (h0 : r ∉ B0_W) (hC : r ∉ C0_W) (hD : r ∉ D0_W) :
    after D0 (after C0 (after B0 (after A0 W))) (Proc.devRef .tc r) = W (Proc.devRef .tc r) := by
  rw [D0_keep _ r hD, C0_keep _ r hC, b_keep _ r h0, A0_keep _ r hA]

end Cert.ReferenceIdeal.RLayer0

end
-- ==== Proof.RLayer1.lean ====
/-
  Layer 1 of the reference, read as functions of the buffers it starts from.

  Four stages of host operations: the product of the activations (buffer `main_v22`) with the transposed signs of the
  weights `main_arg2` — `mm` of the two —, its column means, its column variances (the outlined variance), and the
  normalisation, whose sign is the next layer's activations.  Each stage is read at the buffer it produces from ANY contents `W` of the
  buffers before it as the corresponding function of `Spec`; a buffer a stage does not write keeps its contents.
  Composed: the layer's output buffer holds `hidden` of the activations, the weights and the scale and shift vectors.
-/
import proofs.«161644_j58961311039944_1_alg».proof.Proof.ROps
import proofs.«161644_j58961311039944_1_alg».proof.Proof.RProd
import proofs.«161644_j58961311039944_1_alg».proof.Proof.Spec

noncomputable section

namespace Cert.ReferenceIdeal.RLayer1

open Cert.ReferenceIdeal Cert.ReferenceIdeal.Gen Cert.ReferenceIdeal.ROps Idealize.ShloMosaic Idealize.ShloMosaic.TcCoe Idealize.SL.Sem Idealize.ShloMosaic.StableHlo
open Cert.Bnn

/-! ## What each stage writes, and what it leaves alone -/

/-- The references the operations of `A1` write, one per operation. -/
abbrev A1_W : List (Ref sig .tc) := [main_v23, main_v24, main_v25]
theorem A1_writes : (A1 : List (HloOp τ sig (Elt Ideal))).Forall fun op => op.writes ⊆ (A1_W.map (Proc.devRef (τ := τ) .tc)).toFinset := by
  simp only [List.Forall]
  repeat' apply And.intro
  all_goals (simp only [StableHlo.nullary_writes, StableHlo.unary_writes, StableHlo.binary_writes, StableHlo.ternary_writes, Finset.singleton_subset_iff, List.mem_toFinset]; exact List.mem_map_of_mem (by decide))
/-- A buffer none of them writes keeps its contents through `A1`. -/
theorem A1_keep (W : Valuation τ sig (Elt Ideal)) (r : Ref sig .tc) (h : r ∉ A1_W) :
    after A1 W (Proc.devRef .tc r) = W (Proc.devRef .tc r) :=
  after_of_writes_sub A1 W A1_writes h

/-- The references the operations of `B1` write, one per operation. -/
abbrev B1_W : List (Ref sig .tc) := [main_cst_2, main_v26, main_cst_3, main_v27, main_v28, main_c_4]
theorem B1_writes : (B1 : List (HloOp τ sig (Elt Ideal))).Forall fun op => op.writes ⊆ (B1_W.map (Proc.devRef (τ := τ) .tc)).toFinset := by
  simp only [List.Forall]
  repeat' apply And.intro
  all_goals (simp only [StableHlo.nullary_writes, StableHlo.unary_writes, StableHlo.binary_writes, StableHlo.ternary_writes, Finset.singleton_subset_iff, List.mem_toFinset]; exact List.mem_map_of_mem (by decide))
/-- A buffer none of them writes keeps its contents through `B1`. -/
theorem B1_keep (W : Valuation τ sig (Elt Ideal)) (r : Ref sig .tc) (h : r ∉ B1_W) :
    after B1 W (Proc.devRef .tc r) = W (Proc.devRef .tc r) :=
  after_of_writes_sub B1 W B1_writes h

/-- The references the operations of `C1` write, one per operation. -/
abbrev C1_W : List (Ref sig .tc) := [main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_cst_3, main_call1_v12, main_call1_cst_4, main_call1_call0_v0, main_call1_call0_v1, main_v29]
theorem C1_writes : (C1 : List (HloOp τ sig (Elt Ideal))).Forall fun op => op.writes ⊆ (C1_W.map (Proc.devRef (τ := τ) .tc)).toFinset := by
  simp only [List.Forall]
  repeat' apply And.intro
  all_goals (simp only [StableHlo.nullary_writes, StableHlo.unary_writes, StableHlo.binary_writes, StableHlo.ternary_writes, Finset.singleton_subset_iff, List.mem_toFinset]; exact List.mem_map_of_mem (by decide))
/-- A buffer none of them writes keeps its contents through `C1`. -/
theorem C1_keep (W : Valuation τ sig (Elt Ideal)) (r : Ref sig .tc) (h : r ∉ C1_W) :
    after C1 W (Proc.devRef .tc r) = W (Proc.devRef .tc r) :=
  after_of_writes_sub C1 W C1_writes h

/-- The references the operations of `D1` write, one per operation. -/
abbrev D1_W : List (Ref sig .tc) := [main_v30, main_v31, main_v32, main_cst_5, main_v33, main_v34, main_v35, main_v36, main_v37, main_v38, main_v39, main_v40, main_v41, main_v42, main_v43, main_v44, main_v45]
theorem D1_writes : (D1 : List (HloOp τ sig (Elt Ideal))).Forall fun op => op.writes ⊆ (D1_W.map (Proc.devRef (τ := τ) .tc)).toFinset := by
  simp only [List.Forall]
  repeat' apply And.intro
  all_goals (simp only [StableHlo.nullary_writes, StableHlo.unary_writes, StableHlo.binary_writes, StableHlo.ternary_writes, Finset.singleton_subset_iff, List.mem_toFinset]; exact List.mem_map_of_mem (by decide))
/-- A buffer none of them writes keeps its contents through `D1`. -/
theorem D1_keep (W : Valuation τ sig (Elt Ideal)) (r : Ref sig .tc) (h : r ∉ D1_W) :
    after D1 W (Proc.devRef .tc r) = W (Proc.devRef .tc r) :=
  after_of_writes_sub D1 W D1_writes h

/-! ## Each stage at the buffer it produces -/

/-- The product of the activations with the transposed weight signs. -/
theorem a_prod (W : Valuation τ sig (Elt Ideal)) :
    after A1 W (Proc.devRef .tc main_v25) = mm (φ₁ := .f32) (W (Proc.devRef .tc main_v22)) (sgn 4096 4096 (W (Proc.devRef .tc main_arg2))) := by
  after_results
  exact RProd.dot_eq4096 _ _

/-- The column means of the product. -/
theorem b_mean (W : Valuation τ sig (Elt Ideal)) :
    after B1 W (Proc.devRef .tc main_v28) = mean wit4096 (W (Proc.devRef .tc main_v25)) := by
  after_results
  try rfl

/-- The variance's correction: the integer zero. -/
theorem b_zero (W : Valuation τ sig (Elt Ideal)) :
    after B1 W (Proc.devRef .tc main_c_4) = constantI S0 32 0#32 := by
  after_results
  try rfl

/-- The column variances of the product, at the correction found in `main_c_4`. -/
theorem c_var (W : Valuation τ sig (Elt Ideal)) :
    after C1 W (Proc.devRef .tc main_v29) = variance wit4096 (W (Proc.devRef .tc main_v25)) (W (Proc.devRef .tc main_c_4)) := by
  after_results_simp
  try rfl

/-- The normalisation from the statistics found in `main_v28` and `main_v29`, and its sign. -/
theorem d_norm (W : Valuation τ sig (Elt Ideal)) :
    after D1 W (Proc.devRef .tc main_v45) = sgn 4096 4096 (normCore wit4096 (W (Proc.devRef .tc main_v25)) (W (Proc.devRef .tc main_v28)) (W (Proc.devRef .tc main_v29)) (W (Proc.devRef .tc main_arg7)) (W (Proc.devRef .tc main_arg8))) := by
  after_results_simp
  try rfl

/-- A buffer the mean's stage does not write keeps its contents through it. -/
theorem b_keep (W : Valuation τ sig (Elt Ideal)) (r : Ref sig .tc) (h0 : r ∉ B1_W) :
    after B1 W (Proc.devRef .tc r) = W (Proc.devRef .tc r) := by
  rw [B1_keep _ r h0]

/-! ## The layer composed -/

/-- The statistics and the normalisation, from the product found in `main_v25`. -/
theorem tail (W : Valuation τ sig (Elt Ideal)) :
    after D1 (after C1 (after B1 W)) (Proc.devRef .tc main_v45) = sgn 4096 4096 (normTail wit4096 (W (Proc.devRef .tc main_v25)) (W (Proc.devRef .tc main_arg7)) (W (Proc.devRef .tc main_arg8))) := by
  rw [d_norm, C1_keep _ main_v25 (by decide), b_keep _ main_v25 (by decide), C1_keep _ main_v28 (by decide), b_mean, c_var,
    b_keep _ main_v25 (by decide), b_zero, C1_keep _ main_arg7 (by decide), b_keep _ main_arg7 (by decide),
    C1_keep _ main_arg8 (by decide), b_keep _ main_arg8 (by decide)]
  try rfl

/-- The whole layer: the next activations from the activations, the weights, the scale and the shift. -/
theorem out (W : Valuation τ sig (Elt Ideal)) :
    after D1 (after C1 (after B1 (after A1 W))) (Proc.devRef .tc main_v45)
      = hidden (W (Proc.devRef .tc main_v22)) (W (Proc.devRef .tc main_arg2)) (W (Proc.devRef .tc main_arg7)) (W (Proc.devRef .tc main_arg8)) := by
  rw [tail, a_prod, A1_keep _ main_arg7 (by decide), A1_keep _ main_arg8 (by decide)]
  try rfl

/-- A buffer no stage of the layer writes comes through unchanged. -/
theorem keep (W : Valuation τ sig (Elt Ideal)) (r : Ref sig .tc) (hA : r ∉ A1_W) (h0 : r ∉ B1_W) (hC : r ∉ C1_W) (hD : r ∉ D1_W) :
    after D1 (after C1 (after B1 (after A1 W))) (Proc.devRef .tc r) = W (Proc.devRef .tc r) := by
  rw [D1_keep _ r hD, C1_keep _ r hC, b_keep _ r h0, A1_keep _ r hA]

end Cert.ReferenceIdeal.RLayer1

end
-- ==== Proof.RLayer2.lean ====
/-
  Layer 2 of the reference, read as functions of the buffers it starts from.

  Four stages of host operations: the product of the activations (buffer `main_v45`) with the transposed signs of the
  weights `main_arg3` — `mm` of the two —, its column means, its column variances (the outlined variance), and the
  normalisation, whose sign is the next layer's activations.  Each stage is read at the buffer it produces from ANY contents `W` of the
  buffers before it as the corresponding function of `Spec`; a buffer a stage does not write keeps its contents.
  Composed: the layer's output buffer holds `hidden` of the activations, the weights and the scale and shift vectors.
-/
import proofs.«161644_j58961311039944_1_alg».proof.Proof.ROps
import proofs.«161644_j58961311039944_1_alg».proof.Proof.RProd
import proofs.«161644_j58961311039944_1_alg».proof.Proof.Spec

noncomputable section

namespace Cert.ReferenceIdeal.RLayer2

open Cert.ReferenceIdeal Cert.ReferenceIdeal.Gen Cert.ReferenceIdeal.ROps Idealize.ShloMosaic Idealize.ShloMosaic.TcCoe Idealize.SL.Sem Idealize.ShloMosaic.StableHlo
open Cert.Bnn

/-! ## What each stage writes, and what it leaves alone -/

/-- The references the operations of `A2` write, one per operation. -/
abbrev A2_W : List (Ref sig .tc) := [main_v46, main_v47, main_v48]
theorem A2_writes : (A2 : List (HloOp τ sig (Elt Ideal))).Forall fun op => op.writes ⊆ (A2_W.map (Proc.devRef (τ := τ) .tc)).toFinset := by
  simp only [List.Forall]
  repeat' apply And.intro
  all_goals (simp only [StableHlo.nullary_writes, StableHlo.unary_writes, StableHlo.binary_writes, StableHlo.ternary_writes, Finset.singleton_subset_iff, List.mem_toFinset]; exact List.mem_map_of_mem (by decide))
/-- A buffer none of them writes keeps its contents through `A2`. -/
theorem A2_keep (W : Valuation τ sig (Elt Ideal)) (r : Ref sig .tc) (h : r ∉ A2_W) :
    after A2 W (Proc.devRef .tc r) = W (Proc.devRef .tc r) :=
  after_of_writes_sub A2 W A2_writes h

/-- The references the operations of `B2a` write, one per operation. -/
abbrev B2a_W : List (Ref sig .tc) := [main_cst_6, main_v49, main_cst_7]
theorem B2a_writes : (B2a : List (HloOp τ sig (Elt Ideal))).Forall fun op => op.writes ⊆ (B2a_W.map (Proc.devRef (τ := τ) .tc)).toFinset := by
  simp only [List.Forall]
  repeat' apply And.intro
  all_goals (simp only [StableHlo.nullary_writes, StableHlo.unary_writes, StableHlo.binary_writes, StableHlo.ternary_writes, Finset.singleton_subset_iff, List.mem_toFinset]; exact List.mem_map_of_mem (by decide))
/-- A buffer none of them writes keeps its contents through `B2a`. -/
theorem B2a_keep (W : Valuation τ sig (Elt Ideal)) (r : Ref sig .tc) (h : r ∉ B2a_W) :
    after B2a W (Proc.devRef .tc r) = W (Proc.devRef .tc r) :=
  after_of_writes_sub B2a W B2a_writes h

/-- The references the operations of `B2b` write, one per operation. -/
abbrev B2b_W : List (Ref sig .tc) := [main_v50, main_v51, main_c_8]
theorem B2b_writes : (B2b : List (HloOp τ sig (Elt Ideal))).Forall fun op => op.writes ⊆ (B2b_W.map (Proc.devRef (τ := τ) .tc)).toFinset := by
  simp only [List.Forall]
  repeat' apply And.intro
  all_goals (simp only [StableHlo.nullary_writes, StableHlo.unary_writes, StableHlo.binary_writes, StableHlo.ternary_writes, Finset.singleton_subset_iff, List.mem_toFinset]; exact List.mem_map_of_mem (by decide))
/-- A buffer none of them writes keeps its contents through `B2b`. -/
theorem B2b_keep (W : Valuation τ sig (Elt Ideal)) (r : Ref sig .tc) (h : r ∉ B2b_W) :
    after B2b W (Proc.devRef .tc r) = W (Proc.devRef .tc r) :=
  after_of_writes_sub B2b W B2b_writes h

/-- The references the operations of `C2` write, one per operation. -/
abbrev C2_W : List (Ref sig .tc) := [main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v52]
theorem C2_writes : (C2 : List (HloOp τ sig (Elt Ideal))).Forall fun op => op.writes ⊆ (C2_W.map (Proc.devRef (τ := τ) .tc)).toFinset := by
  simp only [List.Forall]
  repeat' apply And.intro
  all_goals (simp only [StableHlo.nullary_writes, StableHlo.unary_writes, StableHlo.binary_writes, StableHlo.ternary_writes, Finset.singleton_subset_iff, List.mem_toFinset]; exact List.mem_map_of_mem (by decide))
/-- A buffer none of them writes keeps its contents through `C2`. -/
theorem C2_keep (W : Valuation τ sig (Elt Ideal)) (r : Ref sig .tc) (h : r ∉ C2_W) :
    after C2 W (Proc.devRef .tc r) = W (Proc.devRef .tc r) :=
  after_of_writes_sub C2 W C2_writes h

/-- The references the operations of `D2` write, one per operation. -/
abbrev D2_W : List (Ref sig .tc) := [main_v53, main_v54, main_v55, main_cst_9, main_v56, main_v57, main_v58, main_v59, main_v60, main_v61, main_v62, main_v63, main_v64, main_v65, main_v66, main_v67, main_v68]
theorem D2_writes : (D2 : List (HloOp τ sig (Elt Ideal))).Forall fun op => op.writes ⊆ (D2_W.map (Proc.devRef (τ := τ) .tc)).toFinset := by
  simp only [List.Forall]
  repeat' apply And.intro
  all_goals (simp only [StableHlo.nullary_writes, StableHlo.unary_writes, StableHlo.binary_writes, StableHlo.ternary_writes, Finset.singleton_subset_iff, List.mem_toFinset]; exact List.mem_map_of_mem (by decide))
/-- A buffer none of them writes keeps its contents through `D2`. -/
theorem D2_keep (W : Valuation τ sig (Elt Ideal)) (r : Ref sig .tc) (h : r ∉ D2_W) :
    after D2 W (Proc.devRef .tc r) = W (Proc.devRef .tc r) :=
  after_of_writes_sub D2 W D2_writes h

/-! ## Each stage at the buffer it produces -/

/-- The product of the activations with the transposed weight signs. -/
theorem a_prod (W : Valuation τ sig (Elt Ideal)) :
    after A2 W (Proc.devRef .tc main_v48) = mm (φ₁ := .f32) (W (Proc.devRef .tc main_v45)) (sgn 4096 4096 (W (Proc.devRef .tc main_arg3))) := by
  after_results
  exact RProd.dot_eq4096 _ _

/-- The column means of the product. -/
theorem b_mean (W : Valuation τ sig (Elt Ideal)) :
    after B2b (after B2a W) (Proc.devRef .tc main_v51) = mean wit4096 (W (Proc.devRef .tc main_v48)) := by
  after_results
  try rfl

/-- The variance's correction: the integer zero. -/
theorem b_zero (W : Valuation τ sig (Elt Ideal)) :
    after B2b (after B2a W) (Proc.devRef .tc main_c_8) = constantI S0 32 0#32 := by
  after_results
  try rfl

/-- The column variances of the product, at the correction found in `main_c_8`. -/
theorem c_var (W : Valuation τ sig (Elt Ideal)) :
    after C2 W (Proc.devRef .tc main_v52) = variance wit4096 (W (Proc.devRef .tc main_v48)) (W (Proc.devRef .tc main_c_8)) := by
  after_results_simp
  try rfl

/-- The normalisation from the statistics found in `main_v51` and `main_v52`, and its sign. -/
theorem d_norm (W : Valuation τ sig (Elt Ideal)) :
    after D2 W (Proc.devRef .tc main_v68) = sgn 4096 4096 (normCore wit4096 (W (Proc.devRef .tc main_v48)) (W (Proc.devRef .tc main_v51)) (W (Proc.devRef .tc main_v52)) (W (Proc.devRef .tc main_arg9)) (W (Proc.devRef .tc main_arg10))) := by
  after_results_simp
  try rfl

/-- A buffer the mean's stage does not write keeps its contents through it. -/
theorem b_keep (W : Valuation τ sig (Elt Ideal)) (r : Ref sig .tc) (h0 : r ∉ B2a_W) (h1 : r ∉ B2b_W) :
    after B2b (after B2a W) (Proc.devRef .tc r) = W (Proc.devRef .tc r) := by
  rw [B2b_keep _ r h1, B2a_keep _ r h0]

/-! ## The layer composed -/

/-- The statistics and the normalisation, from the product found in `main_v48`. -/
theorem tail (W : Valuation τ sig (Elt Ideal)) :
    after D2 (after C2 (after B2b (after B2a W))) (Proc.devRef .tc main_v68) = sgn 4096 4096 (normTail wit4096 (W (Proc.devRef .tc main_v48)) (W (Proc.devRef .tc main_arg9)) (W (Proc.devRef .tc main_arg10))) := by
  rw [d_norm, C2_keep _ main_v48 (by decide), b_keep _ main_v48 (by decide) (by decide), C2_keep _ main_v51 (by decide), b_mean, c_var,
    b_keep _ main_v48 (by decide) (by decide), b_zero, C2_keep _ main_arg9 (by decide), b_keep _ main_arg9 (by decide) (by decide),
    C2_keep _ main_arg10 (by decide), b_keep _ main_arg10 (by decide) (by decide)]
  try rfl

/-- The whole layer: the next activations from the activations, the weights, the scale and the shift. -/
theorem out (W : Valuation τ sig (Elt Ideal)) :
    after D2 (after C2 (after B2b (after B2a (after A2 W)))) (Proc.devRef .tc main_v68)
      = hidden (W (Proc.devRef .tc main_v45)) (W (Proc.devRef .tc main_arg3)) (W (Proc.devRef .tc main_arg9)) (W (Proc.devRef .tc main_arg10)) := by
  rw [tail, a_prod, A2_keep _ main_arg9 (by decide), A2_keep _ main_arg10 (by decide)]
  try rfl

/-- A buffer no stage of the layer writes comes through unchanged. -/
theorem keep (W : Valuation τ sig (Elt Ideal)) (r : Ref sig .tc) (hA : r ∉ A2_W) (h0 : r ∉ B2a_W) (h1 : r ∉ B2b_W) (hC : r ∉ C2_W) (hD : r ∉ D2_W) :
    after D2 (after C2 (after B2b (after B2a (after A2 W)))) (Proc.devRef .tc r) = W (Proc.devRef .tc r) := by
  rw [D2_keep _ r hD, C2_keep _ r hC, b_keep _ r h0 h1, A2_keep _ r hA]

end Cert.ReferenceIdeal.RLayer2

end
-- ==== Proof.RLayer3.lean ====
/-
  Layer 3 of the reference, read as functions of the buffers it starts from.

  Four stages of host operations: the product of the activations (buffer `main_v68`) with the transposed signs of the
  weights `main_arg4` — `mm` of the two —, its column means, its column variances (the outlined variance), and the
  normalisation, which is the result.  Each stage is read at the buffer it produces from ANY contents `W` of the
  buffers before it as the corresponding function of `Spec`; a buffer a stage does not write keeps its contents.
  Composed: the layer's output buffer holds `layer` of the activations, the weights and the scale and shift vectors.
-/
import proofs.«161644_j58961311039944_1_alg».proof.Proof.ROps
import proofs.«161644_j58961311039944_1_alg».proof.Proof.RProd
import proofs.«161644_j58961311039944_1_alg».proof.Proof.Spec

noncomputable section

namespace Cert.ReferenceIdeal.RLayer3

open Cert.ReferenceIdeal Cert.ReferenceIdeal.Gen Cert.ReferenceIdeal.ROps Idealize.ShloMosaic Idealize.ShloMosaic.TcCoe Idealize.SL.Sem Idealize.ShloMosaic.StableHlo
open Cert.Bnn

/-! ## What each stage writes, and what it leaves alone -/

/-- The references the operations of `A3` write, one per operation. -/
abbrev A3_W : List (Ref sig .tc) := [main_v69, main_v70, main_v71]
theorem A3_writes : (A3 : List (HloOp τ sig (Elt Ideal))).Forall fun op => op.writes ⊆ (A3_W.map (Proc.devRef (τ := τ) .tc)).toFinset := by
  simp only [List.Forall]
  repeat' apply And.intro
  all_goals (simp only [StableHlo.nullary_writes, StableHlo.unary_writes, StableHlo.binary_writes, StableHlo.ternary_writes, Finset.singleton_subset_iff, List.mem_toFinset]; exact List.mem_map_of_mem (by decide))
/-- A buffer none of them writes keeps its contents through `A3`. -/
theorem A3_keep (W : Valuation τ sig (Elt Ideal)) (r : Ref sig .tc) (h : r ∉ A3_W) :
    after A3 W (Proc.devRef .tc r) = W (Proc.devRef .tc r) :=
  after_of_writes_sub A3 W A3_writes h

/-- The references the operations of `B3` write, one per operation. -/
abbrev B3_W : List (Ref sig .tc) := [main_cst_10, main_v72, main_cst_11, main_v73, main_v74, main_c_12]
theorem B3_writes : (B3 : List (HloOp τ sig (Elt Ideal))).Forall fun op => op.writes ⊆ (B3_W.map (Proc.devRef (τ := τ) .tc)).toFinset := by
  simp only [List.Forall]
  repeat' apply And.intro
  all_goals (simp only [StableHlo.nullary_writes, StableHlo.unary_writes, StableHlo.binary_writes, StableHlo.ternary_writes, Finset.singleton_subset_iff, List.mem_toFinset]; exact List.mem_map_of_mem (by decide))
/-- A buffer none of them writes keeps its contents through `B3`. -/
theorem B3_keep (W : Valuation τ sig (Elt Ideal)) (r : Ref sig .tc) (h : r ∉ B3_W) :
    after B3 W (Proc.devRef .tc r) = W (Proc.devRef .tc r) :=
  after_of_writes_sub B3 W B3_writes h

/-- The references the operations of `C3` write, one per operation. -/
abbrev C3_W : List (Ref sig .tc) := [main_call3_cst, main_call3_v0, main_call3_v1, main_call3_cst_0, main_call3_v2, main_call3_v3, main_call3_v4, main_call3_v5, main_call3_v6, main_call3_v7, main_call3_cst_1, main_call3_v8, main_call3_cst_2, main_call3_v9, main_call3_v10, main_call3_v11, main_call3_cst_3, main_call3_v12, main_call3_cst_4, main_call3_call0_v0, main_call3_call0_v1, main_v75]
theorem C3_writes : (C3 : List (HloOp τ sig (Elt Ideal))).Forall fun op => op.writes ⊆ (C3_W.map (Proc.devRef (τ := τ) .tc)).toFinset := by
  simp only [List.Forall]
  repeat' apply And.intro
  all_goals (simp only [StableHlo.nullary_writes, StableHlo.unary_writes, StableHlo.binary_writes, StableHlo.ternary_writes, Finset.singleton_subset_iff, List.mem_toFinset]; exact List.mem_map_of_mem (by decide))
/-- A buffer none of them writes keeps its contents through `C3`. -/
theorem C3_keep (W : Valuation τ sig (Elt Ideal)) (r : Ref sig .tc) (h : r ∉ C3_W) :
    after C3 W (Proc.devRef .tc r) = W (Proc.devRef .tc r) :=
  after_of_writes_sub C3 W C3_writes h

/-- The references the operations of `D3` write, one per operation. -/
abbrev D3_W : List (Ref sig .tc) := [main_v76, main_v77, main_v78, main_cst_13, main_v79, main_v80, main_v81, main_v82, main_v83, main_v84, main_v85, main_v86, main_v87, main_v88, main_v89, main_v90]
theorem D3_writes : (D3 : List (HloOp τ sig (Elt Ideal))).Forall fun op => op.writes ⊆ (D3_W.map (Proc.devRef (τ := τ) .tc)).toFinset := by
  simp only [List.Forall]
  repeat' apply And.intro
  all_goals (simp only [StableHlo.nullary_writes, StableHlo.unary_writes, StableHlo.binary_writes, StableHlo.ternary_writes, Finset.singleton_subset_iff, List.mem_toFinset]; exact List.mem_map_of_mem (by decide))
/-- A buffer none of them writes keeps its contents through `D3`. -/
theorem D3_keep (W : Valuation τ sig (Elt Ideal)) (r : Ref sig .tc) (h : r ∉ D3_W) :
    after D3 W (Proc.devRef .tc r) = W (Proc.devRef .tc r) :=
  after_of_writes_sub D3 W D3_writes h

/-! ## Each stage at the buffer it produces -/

/-- The product of the activations with the transposed weight signs. -/
theorem a_prod (W : Valuation τ sig (Elt Ideal)) :
    after A3 W (Proc.devRef .tc main_v71) = mm (φ₁ := .f32) (W (Proc.devRef .tc main_v68)) (sgn 1024 4096 (W (Proc.devRef .tc main_arg4))) := by
  after_results
  exact RProd.dot_eq1024 _ _

/-- The column means of the product. -/
theorem b_mean (W : Valuation τ sig (Elt Ideal)) :
    after B3 W (Proc.devRef .tc main_v74) = mean wit1024 (W (Proc.devRef .tc main_v71)) := by
  after_results
  try rfl

/-- The variance's correction: the integer zero. -/
theorem b_zero (W : Valuation τ sig (Elt Ideal)) :
    after B3 W (Proc.devRef .tc main_c_12) = constantI S0 32 0#32 := by
  after_results
  try rfl

/-- The column variances of the product, at the correction found in `main_c_12`. -/
theorem c_var (W : Valuation τ sig (Elt Ideal)) :
    after C3 W (Proc.devRef .tc main_v75) = variance wit1024 (W (Proc.devRef .tc main_v71)) (W (Proc.devRef .tc main_c_12)) := by
  after_results_simp
  try rfl

/-- The normalisation from the statistics found in `main_v74` and `main_v75`. -/
theorem d_norm (W : Valuation τ sig (Elt Ideal)) :
    after D3 W (Proc.devRef .tc main_v90) = normCore wit1024 (W (Proc.devRef .tc main_v71)) (W (Proc.devRef .tc main_v74)) (W (Proc.devRef .tc main_v75)) (W (Proc.devRef .tc main_arg11)) (W (Proc.devRef .tc main_arg12)) := by
  after_results_simp
  try rfl

/-- A buffer the mean's stage does not write keeps its contents through it. -/
theorem b_keep (W : Valuation τ sig (Elt Ideal)) (r : Ref sig .tc) (h0 : r ∉ B3_W) :
    after B3 W (Proc.devRef .tc r) = W (Proc.devRef .tc r) := by
  rw [B3_keep _ r h0]

/-! ## The layer composed -/

/-- The statistics and the normalisation, from the product found in `main_v71`. -/
theorem tail (W : Valuation τ sig (Elt Ideal)) :
    after D3 (after C3 (after B3 W)) (Proc.devRef .tc main_v90) = normTail wit1024 (W (Proc.devRef .tc main_v71)) (W (Proc.devRef .tc main_arg11)) (W (Proc.devRef .tc main_arg12)) := by
  rw [d_norm, C3_keep _ main_v71 (by decide), b_keep _ main_v71 (by decide), C3_keep _ main_v74 (by decide), b_mean, c_var,
    b_keep _ main_v71 (by decide), b_zero, C3_keep _ main_arg11 (by decide), b_keep _ main_arg11 (by decide),
    C3_keep _ main_arg12 (by decide), b_keep _ main_arg12 (by decide)]
  try rfl

/-- The whole layer: the result from the activations, the weights, the scale and the shift. -/
theorem out (W : Valuation τ sig (Elt Ideal)) :
    after D3 (after C3 (after B3 (after A3 W))) (Proc.devRef .tc main_v90)
      = layer wit1024 (W (Proc.devRef .tc main_v68)) (W (Proc.devRef .tc main_arg4)) (W (Proc.devRef .tc main_arg11)) (W (Proc.devRef .tc main_arg12)) := by
  rw [tail, a_prod, A3_keep _ main_arg11 (by decide), A3_keep _ main_arg12 (by decide)]
  try rfl

/-- A buffer no stage of the layer writes comes through unchanged. -/
theorem keep (W : Valuation τ sig (Elt Ideal)) (r : Ref sig .tc) (hA : r ∉ A3_W) (h0 : r ∉ B3_W) (hC : r ∉ C3_W) (hD : r ∉ D3_W) :
    after D3 (after C3 (after B3 (after A3 W))) (Proc.devRef .tc r) = W (Proc.devRef .tc r) := by
  rw [D3_keep _ r hD, C3_keep _ r hC, b_keep _ r h0, A3_keep _ r hA]

end Cert.ReferenceIdeal.RLayer3

end
-- ==== Proof.RValue.lean ====
/-
  The idealized reference program's result as the network `Spec.net` of its argument arrays.

  The fold of @main's operations over the launch contents is taken apart into its four layers (the concatenation of the
  stage lists is the composition of their folds); each layer's output buffer is `hidden` (the last: `layer`) of the
  previous layer's output, the layer's weights and its scale and shift vectors, and the argument buffers are written by
  no stage, so they are read at their launch contents wherever a layer needs them.
-/
import proofs.«161644_j58961311039944_1_alg».proof.Proof.ROps
import proofs.«161644_j58961311039944_1_alg».proof.Proof.RLayer0
import proofs.«161644_j58961311039944_1_alg».proof.Proof.RLayer1
import proofs.«161644_j58961311039944_1_alg».proof.Proof.RLayer2
import proofs.«161644_j58961311039944_1_alg».proof.Proof.RLayer3
import Idealize.ShloMosaic.Lib.Pipeline.Frame

noncomputable section

namespace Cert.ReferenceIdeal.RValue

open Cert.ReferenceIdeal Cert.ReferenceIdeal.Gen Cert.ReferenceIdeal.ROps Idealize.ShloMosaic Idealize.ShloMosaic.TcCoe Idealize.SL.Sem Idealize.ShloMosaic.StableHlo
open Cert.Bnn

/-- The thirteen argument buffers. -/
abbrev argL : List (Ref sig .tc) := [main_arg0, main_arg1, main_arg2, main_arg3, main_arg4, main_arg5, main_arg6, main_arg7, main_arg8, main_arg9, main_arg10, main_arg11, main_arg12]

variable (V : Valuation τ sig (Elt Ideal))

/-- The buffer contents after each layer's operations, from contents `V`. -/
abbrev Y1 : Valuation τ sig (Elt Ideal) := after D0 (after C0 (after B0 (after A0 V)))
abbrev Y2 : Valuation τ sig (Elt Ideal) := after D1 (after C1 (after B1 (after A1 (Y1 V))))
abbrev Y3 : Valuation τ sig (Elt Ideal) := after D2 (after C2 (after B2b (after B2a (after A2 (Y2 V)))))
abbrev Y4 : Valuation τ sig (Elt Ideal) := after D3 (after C3 (after B3 (after A3 (Y3 V))))

/-- The fold of the whole line is the four layers' folds composed. -/
theorem ops_after : after (ops (F := Ideal)) V = Y4 V := by
  simp only [ops, Q0, Q1, after_append]

/-- The activations after each hidden layer, as functions of the argument arrays found in `V`. -/
def G1 : FVec Ideal (SM 4096 4096) .f32 := hidden (V (Proc.devRef .tc main_arg0)) (V (Proc.devRef .tc main_arg1)) (V (Proc.devRef .tc main_arg5)) (V (Proc.devRef .tc main_arg6))
def G2 : FVec Ideal (SM 4096 4096) .f32 := hidden (G1 V) (V (Proc.devRef .tc main_arg2)) (V (Proc.devRef .tc main_arg7)) (V (Proc.devRef .tc main_arg8))
def G3 : FVec Ideal (SM 4096 4096) .f32 := hidden (G2 V) (V (Proc.devRef .tc main_arg3)) (V (Proc.devRef .tc main_arg9)) (V (Proc.devRef .tc main_arg10))

/-! ## The argument buffers come through every layer -/

theorem keepY1 (r : Ref sig .tc) (hr : r ∈ argL) : Y1 V (Proc.devRef .tc r) = V (Proc.devRef .tc r) :=
  RLayer0.keep V r
    ((by decide : ∀ r ∈ argL, r ∉ RLayer0.A0_W) r hr)
    ((by decide : ∀ r ∈ argL, r ∉ RLayer0.B0_W) r hr)
    ((by decide : ∀ r ∈ argL, r ∉ RLayer0.C0_W) r hr)
    ((by decide : ∀ r ∈ argL, r ∉ RLayer0.D0_W) r hr)
theorem keepY2 (r : Ref sig .tc) (hr : r ∈ argL) : Y2 V (Proc.devRef .tc r) = V (Proc.devRef .tc r) :=
  (RLayer1.keep (Y1 V) r
    ((by decide : ∀ r ∈ argL, r ∉ RLayer1.A1_W) r hr)
    ((by decide : ∀ r ∈ argL, r ∉ RLayer1.B1_W) r hr)
    ((by decide : ∀ r ∈ argL, r ∉ RLayer1.C1_W) r hr)
    ((by decide : ∀ r ∈ argL, r ∉ RLayer1.D1_W) r hr)).trans (keepY1 V r hr)
theorem keepY3 (r : Ref sig .tc) (hr : r ∈ argL) : Y3 V (Proc.devRef .tc r) = V (Proc.devRef .tc r) :=
  (RLayer2.keep (Y2 V) r
    ((by decide : ∀ r ∈ argL, r ∉ RLayer2.A2_W) r hr)
    ((by decide : ∀ r ∈ argL, r ∉ RLayer2.B2a_W) r hr)
    ((by decide : ∀ r ∈ argL, r ∉ RLayer2.B2b_W) r hr)
    ((by decide : ∀ r ∈ argL, r ∉ RLayer2.C2_W) r hr)
    ((by decide : ∀ r ∈ argL, r ∉ RLayer2.D2_W) r hr)).trans (keepY2 V r hr)
theorem keepY4 (r : Ref sig .tc) (hr : r ∈ argL) : Y4 V (Proc.devRef .tc r) = V (Proc.devRef .tc r) :=
  (RLayer3.keep (Y3 V) r
    ((by decide : ∀ r ∈ argL, r ∉ RLayer3.A3_W) r hr)
    ((by decide : ∀ r ∈ argL, r ∉ RLayer3.B3_W) r hr)
    ((by decide : ∀ r ∈ argL, r ∉ RLayer3.C3_W) r hr)
    ((by decide : ∀ r ∈ argL, r ∉ RLayer3.D3_W) r hr)).trans (keepY3 V r hr)

/-! ## Layer by layer -/

theorem act1 : Y1 V (Proc.devRef .tc main_v22) = G1 V := RLayer0.out V

theorem act2 : Y2 V (Proc.devRef .tc main_v45) = G2 V := by
  refine (RLayer1.out (Y1 V)).trans ?_
  rw [act1, keepY1 V main_arg2 (by decide), keepY1 V main_arg7 (by decide), keepY1 V main_arg8 (by decide)]
  try rfl

theorem act3 : Y3 V (Proc.devRef .tc main_v68) = G3 V := by
  refine (RLayer2.out (Y2 V)).trans ?_
  rw [act2, keepY2 V main_arg3 (by decide), keepY2 V main_arg9 (by decide), keepY2 V main_arg10 (by decide)]
  try rfl

/-- The result buffer after the whole line is the network of the argument arrays. -/
theorem result : after (ops (F := Ideal)) V (Proc.devRef .tc main_v90)
    = net (V (Proc.devRef .tc main_arg0))
        (V (Proc.devRef .tc main_arg1))
        (V (Proc.devRef .tc main_arg2))
        (V (Proc.devRef .tc main_arg3))
        (V (Proc.devRef .tc main_arg4))
        (V (Proc.devRef .tc main_arg5))
        (V (Proc.devRef .tc main_arg6))
        (V (Proc.devRef .tc main_arg7))
        (V (Proc.devRef .tc main_arg8))
        (V (Proc.devRef .tc main_arg9))
        (V (Proc.devRef .tc main_arg10))
        (V (Proc.devRef .tc main_arg11))
        (V (Proc.devRef .tc main_arg12)) := by
  rw [ops_after]
  refine (RLayer3.out (Y3 V)).trans ?_
  rw [act3, keepY3 V main_arg4 (by decide), keepY3 V main_arg11 (by decide), keepY3 V main_arg12 (by decide)]
  try rfl

/-- An argument buffer after the whole line holds what it held. -/
theorem arg_kept (r : Ref sig .tc) (hr : r ∈ argL) : after (ops (F := Ideal)) V (Proc.devRef .tc r) = V (Proc.devRef .tc r) := by
  rw [ops_after]
  exact keepY4 V r hr

end Cert.ReferenceIdeal.RValue

end
-- ==== Proof.lean ====
/-
  The certificate of the binarized four-layer network: a Pallas matrix-product kernel per layer against the plain
  reference.

  Each layer multiplies its activations h : [4096, 4096] by the transposed SIGNS of its weights W : [C, 4096],
      M(p, q) = Σ_k h(p, k) · sign(W)(q, k),
  normalises every column of M by its batch mean and variance with a scale g and a shift b, and (except in the last
  layer) takes the sign.  The kernel program computes M by a tiled matrix-product kernel (1024 × 1024 result blocks,
  each from 1024 rows of h and 1024 rows of sign(W), both handed to the matrix unit in its narrow input format); the
  reference by one host contraction with the transposed signs.  At the ideal values the format change is the identity
  and both products are the same sum over k, term by term, so no algebraic law is needed and the precondition (finite
  inputs) is never opened: the two programs apply the same normalisation to the same matrix, layer after layer.

  * `Spec`: the network `net` as one function of the thirteen argument arrays; `mm`, the product against a transpose.
  * Kernel side: `KPay` (one grid point computes `mm` of its blocks), `KRegion0…3` (each region's result array is `mm`
    of its two input arrays), `KHead`, `KTail1…4` (the host operations between the regions as functions of the buffers
    before them), `KRun` (the run with the result buffer read), `KValue` (the result buffer is `net` of the arguments).
  * Reference side: `ROps` (its @main as stage lists, and its run), `RProd` (the host contraction is `mm`),
    `RLayer0…3` (each layer as a function of the buffers before it), `RValue` (the result is `net` of the arguments).
  The three frames: the kernel programs' are the generated frames; the reference's is its run with the argument
  buffers read back.  The idealization rewrote nothing, so `preserves` is trivial.
-/
import proofs.«161644_j58961311039944_1_alg».proof.Defs
import proofs.«161644_j58961311039944_1_alg».proof.Proof.Gen.Kernel
import proofs.«161644_j58961311039944_1_alg».proof.Proof.Gen.Kernel.Skeleton
import proofs.«161644_j58961311039944_1_alg».proof.Proof.Gen.Kernel.Launch
import proofs.«161644_j58961311039944_1_alg».proof.Proof.Gen.Kernel.Points
import proofs.«161644_j58961311039944_1_alg».proof.Proof.Gen.Kernel.Frame
import proofs.«161644_j58961311039944_1_alg».proof.Proof.Gen.KernelIdeal
import proofs.«161644_j58961311039944_1_alg».proof.Proof.Gen.KernelIdeal.Skeleton
import proofs.«161644_j58961311039944_1_alg».proof.Proof.Gen.KernelIdeal.Launch
import proofs.«161644_j58961311039944_1_alg».proof.Proof.Gen.KernelIdeal.Points
import proofs.«161644_j58961311039944_1_alg».proof.Proof.Gen.KernelIdeal.Frame
import proofs.«161644_j58961311039944_1_alg».proof.Proof.Gen.ReferenceIdeal
import proofs.«161644_j58961311039944_1_alg».proof.Proof.Gen.Pre_finite_inputs
import proofs.«161644_j58961311039944_1_alg».proof.Proof.KRun
import proofs.«161644_j58961311039944_1_alg».proof.Proof.KValue
import proofs.«161644_j58961311039944_1_alg».proof.Proof.ROps
import proofs.«161644_j58961311039944_1_alg».proof.Proof.RValue
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, every argument buffer read back through the fold to its launch contents. -/
theorem frame_ri : Cert.frame_ReferenceIdeal := fun m ρ _ =>
  (θ_run Cert.ReferenceIdeal.defs _ _).mono (fun r h c =>
    ⟨(h c Cert.ReferenceIdeal.main_arg0).trans (Cert.ReferenceIdeal.RValue.arg_kept (StableHlo.launchContents m c) Cert.ReferenceIdeal.main_arg0 (by decide)),
     (h c Cert.ReferenceIdeal.main_arg1).trans (Cert.ReferenceIdeal.RValue.arg_kept (StableHlo.launchContents m c) Cert.ReferenceIdeal.main_arg1 (by decide)),
     (h c Cert.ReferenceIdeal.main_arg2).trans (Cert.ReferenceIdeal.RValue.arg_kept (StableHlo.launchContents m c) Cert.ReferenceIdeal.main_arg2 (by decide)),
     (h c Cert.ReferenceIdeal.main_arg3).trans (Cert.ReferenceIdeal.RValue.arg_kept (StableHlo.launchContents m c) Cert.ReferenceIdeal.main_arg3 (by decide)),
     (h c Cert.ReferenceIdeal.main_arg4).trans (Cert.ReferenceIdeal.RValue.arg_kept (StableHlo.launchContents m c) Cert.ReferenceIdeal.main_arg4 (by decide)),
     (h c Cert.ReferenceIdeal.main_arg5).trans (Cert.ReferenceIdeal.RValue.arg_kept (StableHlo.launchContents m c) Cert.ReferenceIdeal.main_arg5 (by decide)),
     (h c Cert.ReferenceIdeal.main_arg6).trans (Cert.ReferenceIdeal.RValue.arg_kept (StableHlo.launchContents m c) Cert.ReferenceIdeal.main_arg6 (by decide)),
     (h c Cert.ReferenceIdeal.main_arg7).trans (Cert.ReferenceIdeal.RValue.arg_kept (StableHlo.launchContents m c) Cert.ReferenceIdeal.main_arg7 (by decide)),
     (h c Cert.ReferenceIdeal.main_arg8).trans (Cert.ReferenceIdeal.RValue.arg_kept (StableHlo.launchContents m c) Cert.ReferenceIdeal.main_arg8 (by decide)),
     (h c Cert.ReferenceIdeal.main_arg9).trans (Cert.ReferenceIdeal.RValue.arg_kept (StableHlo.launchContents m c) Cert.ReferenceIdeal.main_arg9 (by decide)),
     (h c Cert.ReferenceIdeal.main_arg10).trans (Cert.ReferenceIdeal.RValue.arg_kept (StableHlo.launchContents m c) Cert.ReferenceIdeal.main_arg10 (by decide)),
     (h c Cert.ReferenceIdeal.main_arg11).trans (Cert.ReferenceIdeal.RValue.arg_kept (StableHlo.launchContents m c) Cert.ReferenceIdeal.main_arg11 (by decide)),
     (h c Cert.ReferenceIdeal.main_arg12).trans (Cert.ReferenceIdeal.RValue.arg_kept (StableHlo.launchContents m c) Cert.ReferenceIdeal.main_arg12 (by decide))⟩)
    (Cert.ReferenceIdeal.ROps.run (F := Ideal) m ρ)

theorem preserves : Cert.preserves_Kernel_KernelIdeal := trivial

/-- Both idealized programs end with the network `Spec.net` of the (agreeing) argument arrays in their result buffers. -/
theorem algebraic : Cert.algebraic_KernelIdeal_ReferenceIdeal := by
  intro m ρ m' ρ' _ hagree
  refine ⟨fun c => Cert.Bnn.net (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12)), ?_, ?_⟩
  · exact (θ_run Cert.KernelIdeal.defs _ _).mono (fun r h c =>
      ⟨(h c Cert.KernelIdeal.main_v94 (by decide)).trans (Cert.KernelIdeal.KValue.result m ρ c),
       (h c Cert.KernelIdeal.main_arg0 (by decide)).trans (Cert.KernelIdeal.Gen.W17_main_arg0 m ρ c),
       (h c Cert.KernelIdeal.main_arg1 (by decide)).trans (Cert.KernelIdeal.Gen.W17_main_arg1 m ρ c),
       (h c Cert.KernelIdeal.main_arg2 (by decide)).trans (Cert.KernelIdeal.Gen.W17_main_arg2 m ρ c),
       (h c Cert.KernelIdeal.main_arg3 (by decide)).trans (Cert.KernelIdeal.Gen.W17_main_arg3 m ρ c),
       (h c Cert.KernelIdeal.main_arg4 (by decide)).trans (Cert.KernelIdeal.Gen.W17_main_arg4 m ρ c),
       (h c Cert.KernelIdeal.main_arg5 (by decide)).trans (Cert.KernelIdeal.Gen.W17_main_arg5 m ρ c),
       (h c Cert.KernelIdeal.main_arg6 (by decide)).trans (Cert.KernelIdeal.Gen.W17_main_arg6 m ρ c),
       (h c Cert.KernelIdeal.main_arg7 (by decide)).trans (Cert.KernelIdeal.Gen.W17_main_arg7 m ρ c),
       (h c Cert.KernelIdeal.main_arg8 (by decide)).trans (Cert.KernelIdeal.Gen.W17_main_arg8 m ρ c),
       (h c Cert.KernelIdeal.main_arg9 (by decide)).trans (Cert.KernelIdeal.Gen.W17_main_arg9 m ρ c),
       (h c Cert.KernelIdeal.main_arg10 (by decide)).trans (Cert.KernelIdeal.Gen.W17_main_arg10 m ρ c),
       (h c Cert.KernelIdeal.main_arg11 (by decide)).trans (Cert.KernelIdeal.Gen.W17_main_arg11 m ρ c),
       (h c Cert.KernelIdeal.main_arg12 (by decide)).trans (Cert.KernelIdeal.Gen.W17_main_arg12 m ρ c)⟩)
      (Cert.KernelIdeal.KRun.run_all (F := Ideal) m ρ)
  · refine (θ_run Cert.ReferenceIdeal.defs _ _).mono (fun r h c =>
      ⟨?_,
       (h c Cert.ReferenceIdeal.main_arg0).trans (Cert.ReferenceIdeal.RValue.arg_kept (StableHlo.launchContents m' c) Cert.ReferenceIdeal.main_arg0 (by decide)),
       (h c Cert.ReferenceIdeal.main_arg1).trans (Cert.ReferenceIdeal.RValue.arg_kept (StableHlo.launchContents m' c) Cert.ReferenceIdeal.main_arg1 (by decide)),
       (h c Cert.ReferenceIdeal.main_arg2).trans (Cert.ReferenceIdeal.RValue.arg_kept (StableHlo.launchContents m' c) Cert.ReferenceIdeal.main_arg2 (by decide)),
       (h c Cert.ReferenceIdeal.main_arg3).trans (Cert.ReferenceIdeal.RValue.arg_kept (StableHlo.launchContents m' c) Cert.ReferenceIdeal.main_arg3 (by decide)),
       (h c Cert.ReferenceIdeal.main_arg4).trans (Cert.ReferenceIdeal.RValue.arg_kept (StableHlo.launchContents m' c) Cert.ReferenceIdeal.main_arg4 (by decide)),
       (h c Cert.ReferenceIdeal.main_arg5).trans (Cert.ReferenceIdeal.RValue.arg_kept (StableHlo.launchContents m' c) Cert.ReferenceIdeal.main_arg5 (by decide)),
       (h c Cert.ReferenceIdeal.main_arg6).trans (Cert.ReferenceIdeal.RValue.arg_kept (StableHlo.launchContents m' c) Cert.ReferenceIdeal.main_arg6 (by decide)),
       (h c Cert.ReferenceIdeal.main_arg7).trans (Cert.ReferenceIdeal.RValue.arg_kept (StableHlo.launchContents m' c) Cert.ReferenceIdeal.main_arg7 (by decide)),
       (h c Cert.ReferenceIdeal.main_arg8).trans (Cert.ReferenceIdeal.RValue.arg_kept (StableHlo.launchContents m' c) Cert.ReferenceIdeal.main_arg8 (by decide)),
       (h c Cert.ReferenceIdeal.main_arg9).trans (Cert.ReferenceIdeal.RValue.arg_kept (StableHlo.launchContents m' c) Cert.ReferenceIdeal.main_arg9 (by decide)),
       (h c Cert.ReferenceIdeal.main_arg10).trans (Cert.ReferenceIdeal.RValue.arg_kept (StableHlo.launchContents m' c) Cert.ReferenceIdeal.main_arg10 (by decide)),
       (h c Cert.ReferenceIdeal.main_arg11).trans (Cert.ReferenceIdeal.RValue.arg_kept (StableHlo.launchContents m' c) Cert.ReferenceIdeal.main_arg11 (by decide)),
       (h c Cert.ReferenceIdeal.main_arg12).trans (Cert.ReferenceIdeal.RValue.arg_kept (StableHlo.launchContents m' c) Cert.ReferenceIdeal.main_arg12 (by decide))⟩)
      (Cert.ReferenceIdeal.ROps.run (F := Ideal) m' ρ')
    obtain ⟨a0, a1, a2, a3, a4, a5, a6, a7, a8, a9, a10, a11, a12⟩ := hagree c
    refine (h c Cert.ReferenceIdeal.main_v90).trans ((Cert.ReferenceIdeal.RValue.result (StableHlo.launchContents m' c)).trans ?_)
    show Cert.Bnn.net (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7))
      (m' ((c.tc : Thread Cert.ReferenceIdeal.nD Cert.ReferenceIdeal.τ).loc Cert.ReferenceIdeal.main_arg8))
      (m' ((c.tc : Thread Cert.ReferenceIdeal.nD Cert.ReferenceIdeal.τ).loc Cert.ReferenceIdeal.main_arg9))
      (m' ((c.tc : Thread Cert.ReferenceIdeal.nD Cert.ReferenceIdeal.τ).loc Cert.ReferenceIdeal.main_arg10))
      (m' ((c.tc : Thread Cert.ReferenceIdeal.nD Cert.ReferenceIdeal.τ).loc Cert.ReferenceIdeal.main_arg11))
      (m' ((c.tc : Thread Cert.ReferenceIdeal.nD Cert.ReferenceIdeal.τ).loc Cert.ReferenceIdeal.main_arg12)) = _
    rw [a0, a1, a2, a3, a4, a5, a6, a7, a8, a9, a10, a11, a12]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
